-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x1 : Shape := ⟨2, ![12288, 1]⟩
abbrev S50000x1 : Shape := ⟨2, ![50000, 1]⟩
abbrev S12288 : Shape := ⟨1, ![12288]⟩
abbrev S_ : Shape := ⟨0, ![]⟩

class Facts : Prop where
  bcast_S_S12288x1 : S_.BroadcastsInDim S12288x1 (![] : Fin 0 → Fin S12288x1.rank)
  reducesTo_S12288x1_S_d0_1 : S12288x1.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_

variable [Facts]

def fn_part1 {F : FTy → Type} [FloatOps F] (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  main_v18

def fn {F : FTy → Type} [FloatOps F] (main_arg0 : FVec F S12288x1 .f32) (main_arg1 : FVec F S12288x1 .f32) (main_arg2 : FVec F S50000x1 .f32) (main_arg3 : FVec F S50000x1 .f32) (main_arg4 : IVec S12288 32) (main_arg5 : IVec S12288 32) : IVec S_ 1 :=
  let main_v0 : FVec F S12288x1 .f32 := Host.absf main_arg0
  let main_cst : FVec F S_ .f32 := constant S_ .f32 0x7F800000#32
  let main_v1 : FVec F S12288x1 .f32 := broadcastInDim S12288x1 ![] bcast_S_S12288x1 main_cst
  let main_v2 : IVec S12288x1 1 := cmpf .olt main_v0 main_v1
  let main_c : IVec S_ 1 := constantI S_ 1 1#1
  let main_v3 : IVec S_ 1 := (fun x v => Host.reduce IntOp.andi x v reducesTo_S12288x1_S_d0_1 h_S_) main_v2 main_c
  let main_v4 : FVec F S12288x1 .f32 := Host.absf main_arg1
  let main_cst_0 : FVec F S_ .f32 := constant S_ .f32 0x7F800000#32
  let main_v5 : FVec F S12288x1 .f32 := broadcastInDim S12288x1 ![] bcast_S_S12288x1 main_cst_0
  let main_v6 : IVec S12288x1 1 := cmpf .olt main_v4 main_v5
  let main_c_1 : IVec S_ 1 := constantI S_ 1 1#1
  let main_v7 : IVec S_ 1 := (fun x v => Host.reduce IntOp.andi x v reducesTo_S12288x1_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_v13 main_v16
-- ==== Kernel.lean ====
abbrev S12288x1 : Shape := ⟨2, ![12288, 1]⟩
abbrev S50000x1 : Shape := ⟨2, ![50000, 1]⟩
abbrev S12288 : Shape := ⟨1, ![12288]⟩
abbrev S_ : Shape := ⟨0, ![]⟩
abbrev S1x12288 : Shape := ⟨2, ![1, 12288]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S12288x2 : Shape := ⟨2, ![12288, 2]⟩

abbrev nBuf : Space → Nat
  | .hbm => 113
  | .vmem => 8
  | .smem => 0
  | _ => 0

abbrev bufTy : (tb : Table) → Fin (tcTables nBuf tb) → BufTy
  | .hbm, ⟨0, _⟩ => ⟨S12288x1, .f32⟩
  | .hbm, ⟨1, _⟩ => ⟨S12288x1, .f32⟩
  | .hbm, ⟨2, _⟩ => ⟨S50000x1, .f32⟩
  | .hbm, ⟨3, _⟩ => ⟨S50000x1, .f32⟩
  | .hbm, ⟨4, _⟩ => ⟨S12288, .i32⟩
  | .hbm, ⟨5, _⟩ => ⟨S12288, .i32⟩
  | .hbm, ⟨6, _⟩ => ⟨S12288, .f32⟩
  | .hbm, ⟨7, _⟩ => ⟨S_, .i32⟩
  | .hbm, ⟨8, _⟩ => ⟨S12288, .i32⟩
  | .hbm, ⟨9, _⟩ => ⟨S12288, .i1⟩
  | .hbm, ⟨10, _⟩ => ⟨S12288, .f32⟩
  | .hbm, ⟨11, _⟩ => ⟨S1x12288, .f32⟩
  | .hbm, ⟨12, _⟩ => ⟨S1x12288, .f32⟩
  | .hbm, ⟨13, _⟩ => ⟨S12288x1, .f32⟩
  | .hbm, ⟨14, _⟩ => ⟨S12288x1, .f32⟩
  | .hbm, ⟨15, _⟩ => ⟨S12288, .f32⟩
  | .hbm, ⟨16, _⟩ => ⟨S12288, .f32⟩
  | .hbm, ⟨17, _⟩ => ⟨S_, .f32⟩
  | .hbm, ⟨18, _⟩ => ⟨S12288, .f32⟩
  | .hbm, ⟨19, _⟩ => ⟨S12288, .f32⟩
  | .hbm, ⟨20, _⟩ => ⟨S_, .f32⟩
  | .hbm, ⟨21, _⟩ => ⟨S12288, .f32⟩
  | .hbm, ⟨22, _⟩ => ⟨S12288, .f32⟩
  | .hbm, ⟨23, _⟩ => ⟨S_, .i32⟩
  | .hbm, ⟨24, _⟩ => ⟨S12288, .i32⟩
  | .hbm, ⟨25, _⟩ => ⟨S12288, .i1⟩
  | .hbm, ⟨26, _⟩ => ⟨S_, .i32⟩
  | .hbm, ⟨27, _⟩ => ⟨S12288, .i32⟩
  | .hbm, ⟨28, _⟩ => ⟨S12288, .i32⟩
  | .hbm, ⟨29, _⟩ => ⟨S12288, .i32⟩
  | .hbm, ⟨30, _⟩ => ⟨S_, .i32⟩
  | .hbm, ⟨31, _⟩ => ⟨S12288, .i32⟩
  | .hbm, ⟨32, _⟩ => ⟨S12288, .i32⟩
  | .hbm, ⟨33, _⟩ => ⟨S12288x1, .i32⟩
  | .hbm, ⟨34, _⟩ => ⟨S12288x1, .i32⟩
  | .hbm, ⟨35, _⟩ => ⟨S12288x2, .i32⟩
  | .hbm, ⟨36, _⟩ => ⟨S12288, .f32⟩
  | .hbm, ⟨37, _⟩ => ⟨S_, .i32⟩
  | .hbm, ⟨38, _⟩ => ⟨S12288, .i32⟩
  | .hbm, ⟨39, _⟩ => ⟨S12288, .i1⟩
  | .hbm, ⟨40, _⟩ => ⟨S_, .i32⟩
  | .hbm, ⟨41, _⟩ => ⟨S12288, .i32⟩
  | .hbm, ⟨42, _⟩ => ⟨S12288, .i32⟩
  | .hbm, ⟨43, _⟩ => ⟨S12288, .i32⟩
  | .hbm, ⟨44, _⟩ => ⟨S_, .i32⟩
  | .hbm, ⟨45, _⟩ => ⟨S12288, .i32⟩
  | .hbm, ⟨46, _⟩ => ⟨S12288, .i32⟩
  | .hbm, ⟨47, _⟩ => ⟨S12288x1, .i32⟩
  | .hbm, ⟨48, _⟩ => ⟨S12288x1, .i32⟩
  | .hbm, ⟨49, _⟩ => ⟨S12288x2, .i32⟩
  | .hbm, ⟨50, _⟩ => ⟨S12288, .f32⟩
  | .hbm, ⟨51, _⟩ => ⟨S_, .f32⟩
  | .hbm, ⟨52, _⟩ => ⟨S12288, .f32⟩
  | .hbm, ⟨53, _⟩ => ⟨S12288, .f32⟩
  | .hbm, ⟨54, _⟩ => ⟨S_, .f32⟩
  | .hbm, ⟨55, _⟩ => ⟨S12288, .f32⟩
  | .hbm, ⟨56, _⟩ => ⟨S12288, .f32⟩
  | .hbm, ⟨57, _⟩ => ⟨S12288, .f32⟩
  | .hbm, ⟨58, _⟩ => ⟨S12288, .f32⟩
  | .hbm, ⟨59, _⟩ => ⟨S_, .f32⟩
  | .hbm, ⟨60, _⟩ => ⟨S12288, .f32⟩
  | .hbm, ⟨61, _⟩ => ⟨S12288, .f32⟩
  | .hbm, ⟨62, _⟩ => ⟨S_, .f32⟩
  | .hbm, ⟨63, _⟩ => ⟨S12288, .f32⟩
  | .hbm, ⟨64, _⟩ => ⟨S12288, .f32⟩
  | .hbm, ⟨65, _⟩ => ⟨S12288, .f32⟩
  | .hbm, ⟨66, _⟩ => ⟨S12288, .f32⟩
  | .hbm, ⟨67, _⟩ => ⟨S12288, .f32⟩
  | .hbm, ⟨68, _⟩ => ⟨S_, .f32⟩
  | .hbm, ⟨69, _⟩ => ⟨S_, .f32⟩
  | .hbm, ⟨70, _⟩ => ⟨S12288, .f32⟩
  | .hbm, ⟨71, _⟩ => ⟨S12288, .f32⟩
  | .hbm, ⟨72, _⟩ => ⟨S_, .f32⟩
  | .hbm, ⟨73, _⟩ => ⟨S_, .f32⟩
  | .hbm, ⟨74, _⟩ => ⟨S12288, .f32⟩
  | .hbm, ⟨75, _⟩ => ⟨S12288, .f32⟩
  | .hbm, ⟨76, _⟩ => ⟨S12288, .f32⟩
  | .hbm, ⟨77, _⟩ => ⟨S12288, .f32⟩
  | .hbm, ⟨78, _⟩ => ⟨S12288, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S12288x1, .f32⟩
  | .hbm, ⟨84, _⟩ => ⟨S12288x1, .f32⟩
  | .hbm, ⟨85, _⟩ => ⟨S12288x2, .f32⟩
  | .hbm, ⟨86, _⟩ => ⟨S_, .f32⟩
  | .hbm, ⟨87, _⟩ => ⟨S12288x1, .f32⟩
  | .hbm, ⟨88, _⟩ => ⟨S12288x1, .f32⟩
  | .hbm, ⟨89, _⟩ => ⟨S12288x2, .f32⟩
  | .hbm, ⟨90, _⟩ => ⟨S_, .f32⟩
  | .hbm, ⟨91, _⟩ => ⟨S12288x2, .f32⟩
  | .hbm, ⟨92, _⟩ => ⟨S12288x2, .f32⟩
  | .hbm, ⟨93, _⟩ => ⟨S12288x2, .f32⟩
  | .hbm, ⟨94, _⟩ => ⟨S_, .f32⟩
  | .hbm, ⟨95, _⟩ => ⟨S12288x2, .f32⟩
  | .hbm, ⟨96, _⟩ => ⟨S12288x2, .i1⟩
  | .hbm, ⟨97, _⟩ => ⟨S12288x2, .i1⟩
  | .hbm, ⟨98, _⟩ => ⟨S12288x2, .i1⟩
  | .hbm, ⟨99, _⟩ => ⟨S12288x2, .f32⟩
  | .hbm, ⟨100, _⟩ => ⟨S12288x2, .f32⟩
  | .hbm, ⟨101, _⟩ => ⟨S_, .f32⟩
  | .hbm, ⟨102, _⟩ => ⟨S12288x2, .f32⟩
  | .hbm, ⟨103, _⟩ => ⟨S12288x2, .f32⟩
  | .hbm, ⟨104, _⟩ => ⟨S12288x2, .f32⟩
  | .hbm, ⟨105, _⟩ => ⟨S12288x2, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x12288, .f32⟩
  | .local _ .vmem, ⟨3, _⟩ => ⟨S1x12288, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | _, _ => ⟨S12288x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_call2_v0 : Ref sig .tc := ⟨.hbm, 69, rfl⟩
abbrev main_call2_v1 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_cst_14 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_16 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_17 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_19 : Ref sig .tc := ⟨.hbm, 106, rfl⟩
abbrev main_v76 : Ref sig .tc := ⟨.hbm, 107, rfl⟩
abbrev main_cst_20 : Ref sig .tc := ⟨.hbm, 108, rfl⟩
abbrev main_v77 : Ref sig .tc := ⟨.hbm, 109, rfl⟩
abbrev main_cst_21 : Ref sig .tc := ⟨.hbm, 110, rfl⟩
abbrev main_v78 : Ref sig .tc := ⟨.hbm, 111, rfl⟩
abbrev main_v79 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c12_i32 : BitVec 32 := 12#32
  let v5 : BitVec 32 := Scalar.addi c0_i32 c12_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32 : BitVec 32 := 1024#32
  let v9 : BitVec 32 := Scalar.muli arg6 c1024_i32
  v9
def k0_off1 (k0_t1 : Fin k0_t1_loop.trips) : Fin 2 → Nat :=
  let c0_8 : Index := 0#32
  let c0_i32 : BitVec 32 := 0#32
  let c1_i32 : BitVec 32 := 1#32
  let arg6 : BitVec 32 := Scf.iv c0_i32 c1_i32 k0_t1
  let c1024_i32 : BitVec 32 := 1024#32
  let v9 : BitVec 32 := Scalar.muli arg6 c1024_i32
  let v10 : BitVec 32 := v9
  let v11 : Index := Scalar.indexCast v10
  ![0, v11.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S12288x1_S12288 : S12288x1.ShapeCasts S12288
  bcast_S_S12288 : S_.BroadcastsInDim S12288 (![] : Fin 0 → Fin S12288.rank)
  shapeCasts_S12288_S1x12288 : S12288.ShapeCasts S1x12288
  inb_S1024x1_S1024x1_0_0 : ∀ a, (![0, 0] : Fin 2 → Nat) a + S1024x1.size a ≤ S1024x1.size a
  h_S1024x1 : 0 < S1024x1.numel
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  bcast_S12288_S12288x1_0 : S12288.BroadcastsInDim S12288x1 (![0] : Fin 1 → Fin S12288x1.rank)
  concatenates_S12288x1_S12288x1_S12288x2_d1 : Shape.Concatenates [S12288x1, S12288x1] S12288x2 1
  reducesTo_S12288_S_d0 : S12288.ReducesTo [0] S_
  h_S_ : 0 < S_.numel
  bcast_S_S12288x1 : S_.BroadcastsInDim S12288x1 (![] : Fin 0 → Fin S12288x1.rank)
  bcast_S_S12288x2 : S_.BroadcastsInDim S12288x2 (![] : Fin 0 → Fin S12288x2.rank)
  reducesTo_S12288x2_S_d0_1 : S12288x2.ReducesTo [0, 1] S_
  gather_S50000x1_S12288x2_S12288_n_01_n_n_01_1_11_wf : GatherDims.WF S50000x1 S12288x2 S12288 [] [0, 1] [] [0, 1] [] 1 ![1, 1]
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024.size a ≤ S1x12288.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S12288x1.size a
  hwx0_0 : ∀ i : grid0.Coords, EltTy.bits .f32 = 32 ∨ (Rect.block (s := S12288x1) S1024x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x12288.size a ≤ S1x12288.size a
  hwx0_1 : ∀ i : grid0.Coords, EltTy.bits .f32 = 32 ∨ (Rect.block (s := S1x12288) S1x12288.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x12288.size a ≤ S1x12288.size a
  hwx0_2 : ∀ i : grid0.Coords, EltTy.bits .f32 = 32 ∨ (Rect.block (s := S1x12288) S1x12288.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S12288x1.size a
  hwx0_3 : ∀ i : grid0.Coords, EltTy.bits .f32 = 32 ∨ (Rect.block (s := S12288x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S12288x1.size a
  hwx0_4 : ∀ i : grid0.Coords, EltTy.bits .f32 = 32 ∨ (Rect.block (s := S12288x1) S1024x1.size (cc0_transform_4 i) (hinb0_4 i)).WholeWords (EltTy.packing .f32)

variable [Facts₀]

def gather_S50000x1_S12288x2_S12288_n_01_n_n_01_1_11 : GatherDims S50000x1 S12288x2 S12288 where
  offsetDims := []
  collapsedSliceDims := [0, 1]
  operandBatchingDims := []
  startIndicesBatchingDims := []
  startIndexMap := [0, 1]
  indexVectorDim := 1
  sliceSizes := ![1, 1]
  wf := gather_S50000x1_S12288x2_S12288_n_01_n_n_01_1_11_wf

abbrev win0_0 : Pipeline.Window sig grid0 :=
  Pipeline.Window.ofSpec (Memref.whole main_arg0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x12288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x12288.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S12288x1 : Shape := ⟨2, ![12288, 1]⟩
abbrev S50000x1 : Shape := ⟨2, ![50000, 1]⟩
abbrev S12288 : Shape := ⟨1, ![12288]⟩
abbrev S_ : Shape := ⟨0, ![]⟩
abbrev S1x12288 : Shape := ⟨2, ![1, 12288]⟩
abbrev S12288x12288 : Shape := ⟨2, ![12288, 12288]⟩
abbrev S12288x2 : Shape := ⟨2, ![12288, 2]⟩

abbrev nBuf : Space → Nat
  | .hbm => 138
  | .vmem => 0
  | .smem => 0
  | _ => 0

abbrev hbmTy0_0 (i : Nat) : BufTy := match i % 128 with
  | 0 => ⟨S12288x1, .f32⟩
  | 1 => ⟨S12288x1, .f32⟩
  | 2 => ⟨S50000x1, .f32⟩
  | 3 => ⟨S50000x1, .f32⟩
  | 4 => ⟨S12288, .i32⟩
  | 5 => ⟨S12288, .i32⟩
  | 6 => ⟨S12288, .f32⟩
  | 7 => ⟨S_, .i32⟩
  | 8 => ⟨S12288, .i32⟩
  | 9 => ⟨S12288, .i1⟩
  | 10 => ⟨S12288, .f32⟩
  | 11 => ⟨S12288x1, .f32⟩
  | 12 => ⟨S1x12288, .f32⟩
  | 13 => ⟨S12288x12288, .f32⟩
  | 14 => ⟨S12288x12288, .f32⟩
  | 15 => ⟨S12288x12288, .f32⟩
  | 16 => ⟨S_, .f32⟩
  | 17 => ⟨S12288x12288, .f32⟩
  | 18 => ⟨S12288x12288, .f32⟩
  | 19 => ⟨S_, .f32⟩
  | 20 => ⟨S12288x12288, .f32⟩
  | 21 => ⟨S12288x12288, .f32⟩
  | 22 => ⟨S12288x12288, .f32⟩
  | 23 => ⟨S_, .f32⟩
  | 24 => ⟨S12288, .f32⟩
  | 25 => ⟨S_, .f32⟩
  | 26 => ⟨S12288, .f32⟩
  | 27 => ⟨S12288, .f32⟩
  | 28 => ⟨S1x12288, .f32⟩
  | 29 => ⟨S12288x12288, .f32⟩
  | 30 => ⟨S12288x12288, .f32⟩
  | 31 => ⟨S_, .f32⟩
  | 32 => ⟨S12288, .f32⟩
  | 33 => ⟨S_, .f32⟩
  | 34 => ⟨S12288, .f32⟩
  | 35 => ⟨S12288, .f32⟩
  | 36 => ⟨S_, .i32⟩
  | 37 => ⟨S12288, .i32⟩
  | 38 => ⟨S12288, .i1⟩
  | 39 => ⟨S_, .i32⟩
  | 40 => ⟨S12288, .i32⟩
  | 41 => ⟨S12288, .i32⟩
  | 42 => ⟨S12288, .i32⟩
  | 43 => ⟨S_, .i32⟩
  | 44 => ⟨S12288, .i32⟩
  | 45 => ⟨S12288, .i32⟩
  | 46 => ⟨S12288x1, .i32⟩
  | 47 => ⟨S12288x1, .i32⟩
  | 48 => ⟨S12288x2, .i32⟩
  | 49 => ⟨S12288, .f32⟩
  | 50 => ⟨S_, .i32⟩
  | 51 => ⟨S12288, .i32⟩
  | 52 => ⟨S12288, .i1⟩
  | 53 => ⟨S_, .i32⟩
  | 54 => ⟨S12288, .i32⟩
  | 55 => ⟨S12288, .i32⟩
  | 56 => ⟨S12288, .i32⟩
  | 57 => ⟨S_, .i32⟩
  | 58 => ⟨S12288, .i32⟩
  | 59 => ⟨S12288, .i32⟩
  | 60 => ⟨S12288x1, .i32⟩
  | 61 => ⟨S12288x1, .i32⟩
  | 62 => ⟨S12288x2, .i32⟩
  | 63 => ⟨S12288, .f32⟩
  | 64 => ⟨S_, .f32⟩
  | 65 => ⟨S12288, .f32⟩
  | 66 => ⟨S12288, .f32⟩
  | 67 => ⟨S_, .f32⟩
  | 68 => ⟨S12288, .f32⟩
  | 69 => ⟨S12288, .f32⟩
  | 70 => ⟨S12288, .f32⟩
  | 71 => ⟨S12288, .f32⟩
  | 72 => ⟨S_, .f32⟩
  | 73 => ⟨S12288, .f32⟩
  | 74 => ⟨S12288, .f32⟩
  | 75 => ⟨S_, .f32⟩
  | 76 => ⟨S12288, .f32⟩
  | 77 => ⟨S12288, .f32⟩
  | 78 => ⟨S12288, .f32⟩
  | 79 => ⟨S12288, .f32⟩
  | 80 => ⟨S12288, .f32⟩
  | 81 => ⟨S_, .f32⟩
  | 82 => ⟨S_, .f32⟩
  | 83 => ⟨S12288, .f32⟩
  | 84 => ⟨S12288, .f32⟩
  | 85 => ⟨S12288x1, .f32⟩
  | 86 => ⟨S12288x1, .f32⟩
  | 87 => ⟨S1x12288, .f32⟩
  | 88 => ⟨S12288x12288, .f32⟩
  | 89 => ⟨S12288x12288, .f32⟩
  | 90 => ⟨S12288x12288, .f32⟩
  | 91 => ⟨S12288x12288, .f32⟩
  | 92 => ⟨S12288x12288, .f32⟩
  | 93 => ⟨S12288x1, .f32⟩
  | 94 => ⟨S12288x12288, .f32⟩
  | 95 => ⟨S12288x12288, .f32⟩
  | 96 => ⟨S12288x1, .f32⟩
  | 97 => ⟨S12288x12288, .f32⟩
  | 98 => ⟨S12288x12288, .f32⟩
  | 99 => ⟨S_, .f32⟩
  | 100 => ⟨S_, .f32⟩
  | 101 => ⟨S12288x12288, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S12288x1, .f32⟩
  | 109 => ⟨S12288x1, .f32⟩
  | 110 => ⟨S12288x2, .f32⟩
  | 111 => ⟨S_, .f32⟩
  | 112 => ⟨S12288x1, .f32⟩
  | 113 => ⟨S12288x1, .f32⟩
  | 114 => ⟨S12288x2, .f32⟩
  | 115 => ⟨S_, .f32⟩
  | 116 => ⟨S12288x2, .f32⟩
  | 117 => ⟨S12288x2, .f32⟩
  | 118 => ⟨S12288x2, .f32⟩
  | 119 => ⟨S_, .f32⟩
  | 120 => ⟨S12288x2, .f32⟩
  | 121 => ⟨S12288x2, .i1⟩
  | 122 => ⟨S12288x2, .i1⟩
  | 123 => ⟨S12288x2, .i1⟩
  | 124 => ⟨S12288x2, .f32⟩
  | 125 => ⟨S12288x2, .f32⟩
  | 126 => ⟨S_, .f32⟩
  | 127 => ⟨S12288x2, .f32⟩
  | _ => ⟨S12288x1, .f32⟩

abbrev hbmTy0_1 (i : Nat) : BufTy := match i % 128 with
  | 0 => ⟨S12288x2, .f32⟩
  | 1 => ⟨S12288x2, .f32⟩
  | 2 => ⟨S12288x2, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S12288x1, .f32⟩

abbrev hbmTy (i : Nat) : BufTy := match i / 128 with
  | 0 => hbmTy0_0 i
  | 1 => hbmTy0_1 i
  | _ => ⟨S12288x1, .f32⟩

abbrev bufTy : (tb : Table) → Fin (tcTables nBuf tb) → BufTy
  | .hbm, ⟨i, _⟩ => hbmTy i
  | _, _ => ⟨S12288x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_15 : Ref sig .tc := ⟨.hbm, 81, rfl⟩
abbrev main_call2_v0 : Ref sig .tc := ⟨.hbm, 82, rfl⟩
abbrev main_call2_v1 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_cst_17 : Ref sig .tc := ⟨.hbm, 102, rfl⟩
abbrev main_v75 : Ref sig .tc := ⟨.hbm, 103, rfl⟩
abbrev main_cst_18 : Ref sig .tc := ⟨.hbm, 104, rfl⟩
abbrev main_v76 : Ref sig .tc := ⟨.hbm, 105, rfl⟩
abbrev main_v77 : Ref sig .tc := ⟨.hbm, 106, rfl⟩
abbrev main_cst_19 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_20 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_21 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_22 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_23 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_24 : Ref sig .tc := ⟨.hbm, 131, rfl⟩
abbrev main_v97 : Ref sig .tc := ⟨.hbm, 132, rfl⟩
abbrev main_cst_25 : Ref sig .tc := ⟨.hbm, 133, rfl⟩
abbrev main_v98 : Ref sig .tc := ⟨.hbm, 134, rfl⟩
abbrev main_cst_26 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]

class Facts₀ : Prop where
  shapeCasts_S12288x1_S12288 : S12288x1.ShapeCasts S12288
  bcast_S_S12288 : S_.BroadcastsInDim S12288 (![] : Fin 0 → Fin S12288.rank)
  bcast_S12288_S12288x1_0 : S12288.BroadcastsInDim S12288x1 (![0] : Fin 1 → Fin S12288x1.rank)
  bcast_S12288_S1x12288_1 : S12288.BroadcastsInDim S1x12288 (![1] : Fin 1 → Fin S1x12288.rank)
  bcast_S12288x1_S12288x12288_0_1 : S12288x1.BroadcastsInDim S12288x12288 (![0, 1] : Fin 2 → Fin S12288x12288.rank)
  bcast_S1x12288_S12288x12288_0_1 : S1x12288.BroadcastsInDim S12288x12288 (![0, 1] : Fin 2 → Fin S12288x12288.rank)
  bcast_S_S12288x12288 : S_.BroadcastsInDim S12288x12288 (![] : Fin 0 → Fin S12288x12288.rank)
  reducesTo_S12288x12288_S12288_d1 : S12288x12288.ReducesTo [1] S12288
  h_S_ : 0 < S_.numel
  concatenates_S12288x1_S12288x1_S12288x2_d1 : Shape.Concatenates [S12288x1, S12288x1] S12288x2 1
  reducesTo_S12288_S_d0 : S12288.ReducesTo [0] S_
  reducesTo_S12288x12288_S_d0_1 : S12288x12288.ReducesTo [0, 1] S_
  bcast_S_S12288x1 : S_.BroadcastsInDim S12288x1 (![] : Fin 0 → Fin S12288x1.rank)
  bcast_S_S12288x2 : S_.BroadcastsInDim S12288x2 (![] : Fin 0 → Fin S12288x2.rank)
  reducesTo_S12288x2_S_d0_1 : S12288x2.ReducesTo [0, 1] S_
  gather_S50000x1_S12288x2_S12288_n_01_n_n_01_1_11_wf : GatherDims.WF S50000x1 S12288x2 S12288 [] [0, 1] [] [0, 1] [] 1 ![1, 1]

variable [Facts₀]

def gather_S50000x1_S12288x2_S12288_n_01_n_n_01_1_11 : GatherDims S50000x1 S12288x2 S12288 where
  offsetDims := []
  collapsedSliceDims := [0, 1]
  operandBatchingDims := []
  startIndicesBatchingDims := []
  startIndexMap := [0, 1]
  indexVectorDim := 1
  sliceSizes := ![1, 1]
  wf := gather_S50000x1_S12288x2_S12288_n_01_n_n_01_1_11_wf

class Facts : Prop extends Facts₀ where

variable [Facts]
-- ==== Proof.KBHost.lean ====
/-
  The host side of the one-region program: the buffers as the region finds them (after the seven host lines
  before it), the host lines after it as a tail that allocates nothing, stays inside the unscoped buffers and
  writes none of the region's five arrays, the six argument arrays untouched by every host line, and the frame
  claim's postcondition read off a run of the region followed by that tail.
-/
import proofs.«141416_j52587579572535_2_alg».proof.Proof.Gen.Kernel.Launch
import proofs.«141416_j52587579572535_2_alg».proof.Proof.Gen.Kernel.Skeleton
import proofs.«141416_j52587579572535_2_alg».proof.Proof.Gen.Kernel.Loops
import proofs.«141416_j52587579572535_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## The buffers at region entry, and the host lines after the region -/

/-- Core c's buffer contents when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tail : List (List (HloOp τ sig (Elt F))) := [hostOps1, hostOps1_1, hostOps1_2, hostOps1_3, hostOps1_4, hostOps1_5, hostOps1_6, hostOps1_7, hostOps1_8]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] (tail (F := F)) (by simp only [List.Forall]; exact hostOps0_sub)
    (by simp only [List.Forall]; exact hostOps0_fresh) main_chain

/-- The lines after the region touch unscoped TensorCore buffers only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-! Each line writes its own result buffer only, and that is none of the region's five arrays. -/
theorem hostOps1_keeps : (hostOps1 : List (HloOp τ sig (Elt F))).Forall fun op => ∀ w, Proc.devRef .tc (Pipeline.arrRef spec0 w) ∉ op.writes := by
  simp only [hostOps1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [hostOps1_3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [hostOps1_4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [hostOps1_5, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [hostOps1_6, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [hostOps1_7, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op => ∀ w, Proc.devRef .tc (Pipeline.arrRef spec0 w) ∉ op.writes := by
  simp only [hostOps1_8, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_keeps : ∀ ops ∈ (tail : List (List (HloOp τ sig (Elt F)))), ∀ op ∈ ops,
    ∀ w, Proc.devRef .tc (Pipeline.arrRef spec0 w) ∉ op.writes := by
  intro ops hops op hop
  simp only [tail, List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-! ## The argument arrays are written by no host line -/

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 1, and it is none of the region's arrays. -/
theorem W_main_arg1 (dats : (p : Fin _) → (c : Dev nD) → Dat τ (Elt F) Unit ℕ (UR sig nD τ) ℕ (cfgs p) c) (c : Dev nD) :
    Pipeline.afterTail₀ cfgs dats 0 (V0 m) tail c main_arg1 = m ((c : Thread nD τ).loc main_arg1) := by
  unfold Pipeline.afterTail₀
  rw [StableHlo.after_of_forall_not_mem (b := Proc.devRef .tc main_arg1) _ _ (List.forall_iff_forall_mem.mp (by
      simp only [tail, hostOps1, hostOps1_1, hostOps1_2, hostOps1_3, hostOps1_4, hostOps1_5, hostOps1_6, hostOps1_7, hostOps1_8, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes argument 2, and it is none of the region's arrays. -/
theorem W_main_arg2 (dats : (p : Fin _) → (c : Dev nD) → Dat τ (Elt F) Unit ℕ (UR sig nD τ) ℕ (cfgs p) c) (c : Dev nD) :
    Pipeline.afterTail₀ cfgs dats 0 (V0 m) tail c main_arg2 = m ((c : Thread nD τ).loc main_arg2) := by
  unfold Pipeline.afterTail₀
  rw [StableHlo.after_of_forall_not_mem (b := Proc.devRef .tc main_arg2) _ _ (List.forall_iff_forall_mem.mp (by
      simp only [tail, hostOps1, hostOps1_1, hostOps1_2, hostOps1_3, hostOps1_4, hostOps1_5, hostOps1_6, hostOps1_7, hostOps1_8, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes argument 3, and it is none of the region's arrays. -/
theorem W_main_arg3 (dats : (p : Fin _) → (c : Dev nD) → Dat τ (Elt F) Unit ℕ (UR sig nD τ) ℕ (cfgs p) c) (c : Dev nD) :
    Pipeline.afterTail₀ cfgs dats 0 (V0 m) tail c main_arg3 = m ((c : Thread nD τ).loc main_arg3) := by
  unfold Pipeline.afterTail₀
  rw [StableHlo.after_of_forall_not_mem (b := Proc.devRef .tc main_arg3) _ _ (List.forall_iff_forall_mem.mp (by
      simp only [tail, hostOps1, hostOps1_1, hostOps1_2, hostOps1_3, hostOps1_4, hostOps1_5, hostOps1_6, hostOps1_7, hostOps1_8, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes argument 4, and it is none of the region's arrays. -/
theorem W_main_arg4 (dats : (p : Fin _) → (c : Dev nD) → Dat τ (Elt F) Unit ℕ (UR sig nD τ) ℕ (cfgs p) c) (c : Dev nD) :
    Pipeline.afterTail₀ cfgs dats 0 (V0 m) tail c main_arg4 = m ((c : Thread nD τ).loc main_arg4) := by
  unfold Pipeline.afterTail₀
  rw [StableHlo.after_of_forall_not_mem (b := Proc.devRef .tc main_arg4) _ _ (List.forall_iff_forall_mem.mp (by
      simp only [tail, hostOps1, hostOps1_1, hostOps1_2, hostOps1_3, hostOps1_4, hostOps1_5, hostOps1_6, hostOps1_7, hostOps1_8, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes argument 5, and it is none of the region's arrays. -/
theorem W_main_arg5 (dats : (p : Fin _) → (c : Dev nD) → Dat τ (Elt F) Unit ℕ (UR sig nD τ) ℕ (cfgs p) c) (c : Dev nD) :
    Pipeline.afterTail₀ cfgs dats 0 (V0 m) tail c main_arg5 = m ((c : Thread nD τ).loc main_arg5) := by
  unfold Pipeline.afterTail₀
  rw [StableHlo.after_of_forall_not_mem (b := Proc.devRef .tc main_arg5) _ _ (List.forall_iff_forall_mem.mp (by
      simp only [tail, hostOps1, hostOps1_1, hostOps1_2, hostOps1_3, hostOps1_4, hostOps1_5, hostOps1_6, hostOps1_7, hostOps1_8, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The claims' postconditions from a run of the region and the tail -/

/-- From a run whose post names every array of the region and every other unscoped buffer: the result buffer holds
    what the tail computes, and the six argument arrays end as launched. -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_v79) = Pipeline.afterTail₀ cfgs dats 0 (V0 m) tail c main_v79
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v79 (Pipeline.mem_restRefs_of main_v79 (by decide) (by decide)),
    ((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## The staging memrefs the body is called with -/

/-- One staging buffer of each output window, through which its contents are stated. -/
abbrev VO0_3 : View sig .tc .vmem S1024x1 .f32 := (Memref.whole cc0_stg3_0 : Memref sig .tc .vmem S1024x1 .f32).view
abbrev VO0_4 : View sig .tc .vmem S1024x1 .f32 := (Memref.whole cc0_stg4_0 : Memref sig .tc .vmem S1024x1 .f32).view
abbrev ms0_0 (t : Fin cfg0.N) : Memref sig .tc .vmem S1024x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x12288 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x12288 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)

end Cert.Kernel.Fr

end
-- ==== Proof.KBRun.lean ====
/-
  The kernel body run once on whole staging memrefs: the column block, the two full rows, and the two output blocks.
  The twelve-trip loop over column chunks is passed by its invariant (the carried pair of partial row sums), and
  what each output buffer ends with is the one whole-block store of the loop's result.
-/
import proofs.«141416_j52587579572535_2_alg».proof.Proof.KBHost

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

set_option maxHeartbeats 1000000 in
/-- What the body's stores leave in the two output staging memrefs, as pieces, with the proof that on whole staging
    memrefs (the inputs at their contents, the outputs at anything) the body runs to the continuation holding the
    inputs as they were and each output with its pieces written. -/
noncomputable def kernelRun0_A (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole)
    (x0 : Vec F S1024x1 .f32) (x1 : Vec F S1x12288 .f32) (x2 : Vec F S1x12288 .f32) :
    Σ' (L3 : List (View.Piece (Elt F) S1024x1 .f32)), { L4 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__sur_reduce_kernel i arg1 harg1 arg2 harg2 arg3 harg3 arg4 harg4 arg5 harg5) K } := by
  refine ⟨?_, ?_, fun E K => ?run⟩
  case run =>
    simp only [cc0__sur_reduce_kernel_eq_skeleton]; unfold cc0__sur_reduce_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

end Cert.Kernel.Fr

end
-- ==== Proof.KBFrame.lean ====
/-
  The region's proof data and its run: after the body at a grid point the three input staging buffers hold their
  blocks and the two output staging buffers hold what the body's stores left; with that the region runs at every
  point, the tail of host lines follows, and the frame claim's postcondition is read off the final state.
-/
import proofs.«141416_j52587579572535_2_alg».proof.Proof.KBRun

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-- The run's pieces for each output tile its block, so they cover it. -/
theorem cover0_A_3 (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole)
    (x0 : Vec F S1024x1 .f32) (x1 : Vec F S1x12288 .f32) (x2 : Vec F S1x12288 .f32) (y : S1024x1.Idx) :
    ∃ pc ∈ (kernelRun0_A c i arg1 harg1 arg2 harg2 arg3 harg3 arg4 harg4 arg5 harg5 x0 x1 x2).1, y ∈ pc.1.set :=
  View.cover_of_tiledL (kernelRun0_A c i arg1 harg1 arg2 harg2 arg3 harg3 arg4 harg4 arg5 harg5 x0 x1 x2).1 S1024x1.size (by sl_kernel_rfl) y
theorem cover0_A_4 (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole)
    (x0 : Vec F S1024x1 .f32) (x1 : Vec F S1x12288 .f32) (x2 : Vec F S1x12288 .f32) (y : S1024x1.Idx) :
    ∃ pc ∈ (kernelRun0_A c i arg1 harg1 arg2 harg2 arg3 harg3 arg4 harg4 arg5 harg5 x0 x1 x2).2.1, y ∈ pc.1.set :=
  View.cover_of_tiledL (kernelRun0_A c i arg1 harg1 arg2 harg2 arg3 harg3 arg4 harg4 arg5 harg5 x0 x1 x2).2.1 S1024x1.size (by sl_kernel_rfl) y

/-- What the run leaves in each output's staging buffer: its pieces read back over junk. -/
def out0_A_3 (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole)
    (x0 : Vec F S1024x1 .f32) (x1 : Vec F S1x12288 .f32) (x2 : Vec F S1x12288 .f32) : Vec F S1024x1 .f32 :=
  VO0_3.read (Elt F) (VO0_3.writes (Elt F) VO0_3.junk (kernelRun0_A c i arg1 harg1 arg2 harg2 arg3 harg3 arg4 harg4 arg5 harg5 x0 x1 x2).1)
def out0_A_4 (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole)
    (x0 : Vec F S1024x1 .f32) (x1 : Vec F S1x12288 .f32) (x2 : Vec F S1x12288 .f32) : Vec F S1024x1 .f32 :=
  VO0_4.read (Elt F) (VO0_4.writes (Elt F) VO0_4.junk (kernelRun0_A c i arg1 harg1 arg2 harg2 arg3 harg3 arg4 harg4 arg5 harg5 x0 x1 x2).2.1)

/-- What the outputs' staging buffers hold after the body at point t. -/
def outsAt0_3 (c : Dev nD) (t : Fin cfg0.N) : Vec F S1024x1 .f32 := out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
def outsAt0_4 (c : Dev nD) (t : Fin cfg0.N) : Vec F S1024x1 .f32 := out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0_3 m c t)
    | ⟨4, _⟩ => (outsAt0_4 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0_3 m c t) := by dsimp only [dats]
theorem after0_4 (c : Dev nD) (t : Fin cfg0.N) : (dats m 0 c).after 4 t = (outsAt0_4 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt0_3 outsAt0_4
  unfold out0_A_3 out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _)
  unfold owns; iexists _; isplitr
  swap; · iexact H4
  ipureintro; exact View.read_writes_of_cover _ _ _ _ _ (cover0_A_4 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, every array of the region ends at what the proof data says, and
    every other unscoped buffer as the host lines after the region leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The run with the result buffer named and the six argument arrays unchanged. -/
theorem run_post : θ_run defs (onTc (τ := τ) (main (F := F))) ⟨m, fun _ => 0, ρ⟩ (fun r => ∀ c : Dev nD,
      r.2.mem ((c.tc : Thread nD τ).loc main_v79) = Pipeline.afterTail₀ cfgs (dats m) 0 (V0 m) tail c main_v79
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  post_of m ρ (dats m) (A_eq m) (run_main m ρ)

/-- The frame: @main terminates without a fault and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_post m ρ)

end Cert.Kernel.Fr

end
-- ==== Proof.KIHost.lean ====
/-
  The host side of the one-region program: the buffers as the region finds them (after the seven host lines
  before it), the host lines after it as a tail that allocates nothing, stays inside the unscoped buffers and
  writes none of the region's five arrays, the six argument arrays untouched by every host line, and the frame
  claim's postcondition read off a run of the region followed by that tail.
-/
import proofs.«141416_j52587579572535_2_alg».proof.Proof.Gen.KernelIdeal.Launch
import proofs.«141416_j52587579572535_2_alg».proof.Proof.Gen.KernelIdeal.Skeleton
import proofs.«141416_j52587579572535_2_alg».proof.Proof.Gen.KernelIdeal.Loops
import proofs.«141416_j52587579572535_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## The buffers at region entry, and the host lines after the region -/

/-- Core c's buffer contents when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch. -/
abbrev tail : List (List (HloOp τ sig (Elt F))) := [hostOps1, hostOps1_1, hostOps1_2, hostOps1_3, hostOps1_4, hostOps1_5, hostOps1_6, hostOps1_7, hostOps1_8]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] (tail (F := F)) (by simp only [List.Forall]; exact hostOps0_sub)
    (by simp only [List.Forall]; exact hostOps0_fresh) main_chain

/-- The lines after the region touch unscoped TensorCore buffers only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-! Each line writes its own result buffer only, and that is none of the region's five arrays. -/
theorem hostOps1_keeps : (hostOps1 : List (HloOp τ sig (Elt F))).Forall fun op => ∀ w, Proc.devRef .tc (Pipeline.arrRef spec0 w) ∉ op.writes := by
  simp only [hostOps1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [hostOps1_3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [hostOps1_4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [hostOps1_5, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [hostOps1_6, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [hostOps1_7, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op => ∀ w, Proc.devRef .tc (Pipeline.arrRef spec0 w) ∉ op.writes := by
  simp only [hostOps1_8, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_keeps : ∀ ops ∈ (tail : List (List (HloOp τ sig (Elt F)))), ∀ op ∈ ops,
    ∀ w, Proc.devRef .tc (Pipeline.arrRef spec0 w) ∉ op.writes := by
  intro ops hops op hop
  simp only [tail, List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-! ## The argument arrays are written by no host line -/

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes argument 1, and it is none of the region's arrays. -/
theorem W_main_arg1 (dats : (p : Fin _) → (c : Dev nD) → Dat τ (Elt F) Unit ℕ (UR sig nD τ) ℕ (cfgs p) c) (c : Dev nD) :
    Pipeline.afterTail₀ cfgs dats 0 (V0 m) tail c main_arg1 = m ((c : Thread nD τ).loc main_arg1) := by
  unfold Pipeline.afterTail₀
  rw [StableHlo.after_of_forall_not_mem (b := Proc.devRef .tc main_arg1) _ _ (List.forall_iff_forall_mem.mp (by
      simp only [tail, hostOps1, hostOps1_1, hostOps1_2, hostOps1_3, hostOps1_4, hostOps1_5, hostOps1_6, hostOps1_7, hostOps1_8, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes argument 2, and it is none of the region's arrays. -/
theorem W_main_arg2 (dats : (p : Fin _) → (c : Dev nD) → Dat τ (Elt F) Unit ℕ (UR sig nD τ) ℕ (cfgs p) c) (c : Dev nD) :
    Pipeline.afterTail₀ cfgs dats 0 (V0 m) tail c main_arg2 = m ((c : Thread nD τ).loc main_arg2) := by
  unfold Pipeline.afterTail₀
  rw [StableHlo.after_of_forall_not_mem (b := Proc.devRef .tc main_arg2) _ _ (List.forall_iff_forall_mem.mp (by
      simp only [tail, hostOps1, hostOps1_1, hostOps1_2, hostOps1_3, hostOps1_4, hostOps1_5, hostOps1_6, hostOps1_7, hostOps1_8, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes argument 3, and it is none of the region's arrays. -/
theorem W_main_arg3 (dats : (p : Fin _) → (c : Dev nD) → Dat τ (Elt F) Unit ℕ (UR sig nD τ) ℕ (cfgs p) c) (c : Dev nD) :
    Pipeline.afterTail₀ cfgs dats 0 (V0 m) tail c main_arg3 = m ((c : Thread nD τ).loc main_arg3) := by
  unfold Pipeline.afterTail₀
  rw [StableHlo.after_of_forall_not_mem (b := Proc.devRef .tc main_arg3) _ _ (List.forall_iff_forall_mem.mp (by
      simp only [tail, hostOps1, hostOps1_1, hostOps1_2, hostOps1_3, hostOps1_4, hostOps1_5, hostOps1_6, hostOps1_7, hostOps1_8, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes argument 4, and it is none of the region's arrays. -/
theorem W_main_arg4 (dats : (p : Fin _) → (c : Dev nD) → Dat τ (Elt F) Unit ℕ (UR sig nD τ) ℕ (cfgs p) c) (c : Dev nD) :
    Pipeline.afterTail₀ cfgs dats 0 (V0 m) tail c main_arg4 = m ((c : Thread nD τ).loc main_arg4) := by
  unfold Pipeline.afterTail₀
  rw [StableHlo.after_of_forall_not_mem (b := Proc.devRef .tc main_arg4) _ _ (List.forall_iff_forall_mem.mp (by
      simp only [tail, hostOps1, hostOps1_1, hostOps1_2, hostOps1_3, hostOps1_4, hostOps1_5, hostOps1_6, hostOps1_7, hostOps1_8, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes argument 5, and it is none of the region's arrays. -/
theorem W_main_arg5 (dats : (p : Fin _) → (c : Dev nD) → Dat τ (Elt F) Unit ℕ (UR sig nD τ) ℕ (cfgs p) c) (c : Dev nD) :
    Pipeline.afterTail₀ cfgs dats 0 (V0 m) tail c main_arg5 = m ((c : Thread nD τ).loc main_arg5) := by
  unfold Pipeline.afterTail₀
  rw [StableHlo.after_of_forall_not_mem (b := Proc.devRef .tc main_arg5) _ _ (List.forall_iff_forall_mem.mp (by
      simp only [tail, hostOps1, hostOps1_1, hostOps1_2, hostOps1_3, hostOps1_4, hostOps1_5, hostOps1_6, hostOps1_7, hostOps1_8, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The claims' postconditions from a run of the region and the tail -/

/-- From a run whose post names every array of the region and every other unscoped buffer: the result buffer holds
    what the tail computes, and the six argument arrays end as launched. -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_v79) = Pipeline.afterTail₀ cfgs dats 0 (V0 m) tail c main_v79
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v79 (Pipeline.mem_restRefs_of main_v79 (by decide) (by decide)),
    ((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## The staging memrefs the body is called with -/

/-- One staging buffer of each output window, through which its contents are stated. -/
abbrev VO0_3 : View sig .tc .vmem S1024x1 .f32 := (Memref.whole cc0_stg3_0 : Memref sig .tc .vmem S1024x1 .f32).view
abbrev VO0_4 : View sig .tc .vmem S1024x1 .f32 := (Memref.whole cc0_stg4_0 : Memref sig .tc .vmem S1024x1 .f32).view
abbrev ms0_0 (t : Fin cfg0.N) : Memref sig .tc .vmem S1024x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x12288 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x12288 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)

end Cert.KernelIdeal.Fr

end
-- ==== Proof.KIRun.lean ====
/-
  The kernel body run once on whole staging memrefs: the column block, the two full rows, and the two output blocks.
  The twelve-trip loop over column chunks is passed by its invariant (the carried pair of partial row sums), and
  what each output buffer ends with is the one whole-block store of the loop's result.
-/
import proofs.«141416_j52587579572535_2_alg».proof.Proof.KIHost

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

set_option maxHeartbeats 1000000 in
/-- What the body's stores leave in the two output staging memrefs, as pieces, with the proof that on whole staging
    memrefs (the inputs at their contents, the outputs at anything) the body runs to the continuation holding the
    inputs as they were and each output with its pieces written. -/
noncomputable def kernelRun0_A (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole)
    (x0 : Vec F S1024x1 .f32) (x1 : Vec F S1x12288 .f32) (x2 : Vec F S1x12288 .f32) :
    Σ' (L3 : List (View.Piece (Elt F) S1024x1 .f32)), { L4 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__sur_reduce_kernel i arg1 harg1 arg2 harg2 arg3 harg3 arg4 harg4 arg5 harg5) K } := by
  refine ⟨?_, ?_, fun E K => ?run⟩
  case run =>
    simp only [cc0__sur_reduce_kernel_eq_skeleton]; unfold cc0__sur_reduce_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

end Cert.KernelIdeal.Fr

end
-- ==== Proof.KIFrame.lean ====
/-
  The region's proof data and its run: after the body at a grid point the three input staging buffers hold their
  blocks and the two output staging buffers hold what the body's stores left; with that the region runs at every
  point, the tail of host lines follows, and the frame claim's postcondition is read off the final state.
-/
import proofs.«141416_j52587579572535_2_alg».proof.Proof.KIRun

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-- The run's pieces for each output tile its block, so they cover it. -/
theorem cover0_A_3 (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole)
    (x0 : Vec F S1024x1 .f32) (x1 : Vec F S1x12288 .f32) (x2 : Vec F S1x12288 .f32) (y : S1024x1.Idx) :
    ∃ pc ∈ (kernelRun0_A c i arg1 harg1 arg2 harg2 arg3 harg3 arg4 harg4 arg5 harg5 x0 x1 x2).1, y ∈ pc.1.set :=
  View.cover_of_tiledL (kernelRun0_A c i arg1 harg1 arg2 harg2 arg3 harg3 arg4 harg4 arg5 harg5 x0 x1 x2).1 S1024x1.size (by sl_kernel_rfl) y
theorem cover0_A_4 (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole)
    (x0 : Vec F S1024x1 .f32) (x1 : Vec F S1x12288 .f32) (x2 : Vec F S1x12288 .f32) (y : S1024x1.Idx) :
    ∃ pc ∈ (kernelRun0_A c i arg1 harg1 arg2 harg2 arg3 harg3 arg4 harg4 arg5 harg5 x0 x1 x2).2.1, y ∈ pc.1.set :=
  View.cover_of_tiledL (kernelRun0_A c i arg1 harg1 arg2 harg2 arg3 harg3 arg4 harg4 arg5 harg5 x0 x1 x2).2.1 S1024x1.size (by sl_kernel_rfl) y

/-- What the run leaves in each output's staging buffer: its pieces read back over junk. -/
def out0_A_3 (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole)
    (x0 : Vec F S1024x1 .f32) (x1 : Vec F S1x12288 .f32) (x2 : Vec F S1x12288 .f32) : Vec F S1024x1 .f32 :=
  VO0_3.read (Elt F) (VO0_3.writes (Elt F) VO0_3.junk (kernelRun0_A c i arg1 harg1 arg2 harg2 arg3 harg3 arg4 harg4 arg5 harg5 x0 x1 x2).1)
def out0_A_4 (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole)
    (x0 : Vec F S1024x1 .f32) (x1 : Vec F S1x12288 .f32) (x2 : Vec F S1x12288 .f32) : Vec F S1024x1 .f32 :=
  VO0_4.read (Elt F) (VO0_4.writes (Elt F) VO0_4.junk (kernelRun0_A c i arg1 harg1 arg2 harg2 arg3 harg3 arg4 harg4 arg5 harg5 x0 x1 x2).2.1)

/-- What the outputs' staging buffers hold after the body at point t. -/
def outsAt0_3 (c : Dev nD) (t : Fin cfg0.N) : Vec F S1024x1 .f32 := out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)
def outsAt0_4 (c : Dev nD) (t : Fin cfg0.N) : Vec F S1024x1 .f32 := out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0_3 m c t)
    | ⟨4, _⟩ => (outsAt0_4 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0_3 m c t) := by dsimp only [dats]
theorem after0_4 (c : Dev nD) (t : Fin cfg0.N) : (dats m 0 c).after 4 t = (outsAt0_4 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt0_3 outsAt0_4
  unfold out0_A_3 out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _)
  unfold owns; iexists _; isplitr
  swap; · iexact H4
  ipureintro; exact View.read_writes_of_cover _ _ _ _ _ (cover0_A_4 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, every array of the region ends at what the proof data says, and
    every other unscoped buffer as the host lines after the region leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The run with the result buffer named and the six argument arrays unchanged. -/
theorem run_post : θ_run defs (onTc (τ := τ) (main (F := F))) ⟨m, fun _ => 0, ρ⟩ (fun r => ∀ c : Dev nD,
      r.2.mem ((c.tc : Thread nD τ).loc main_v79) = Pipeline.afterTail₀ cfgs (dats m) 0 (V0 m) tail c main_v79
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  post_of m ρ (dats m) (A_eq m) (run_main m ρ)

/-- The frame: @main terminates without a fault and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_post m ρ)

end Cert.KernelIdeal.Fr

end
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.Spec.lean ====
import Mathlib
import Idealize.ShloMosaic.PureOps.Ideal

noncomputable section

namespace Cert.Spec

open Idealize.ShloMosaic
open scoped BigOperators

/-- The float pattern of one denotes the real one, -/
theorem ofBits_one : Ideal.ofBits .f32 0x3F800000#32 = ((1 : ℝ) : EReal) := by
  simp [Ideal.ofBits, Ideal.ieee, -EReal.coe_mul] <;> norm_num

/-- and the pattern of 12288.0 the real 12288. -/
theorem ofBits_12288 : Ideal.ofBits .f32 0x46400000#32 = ((12288 : ℝ) : EReal) := by
  simp [Ideal.ofBits, Ideal.ieee, -EReal.coe_mul] <;> norm_num

/-- The maximum of two coerced reals is the coercion of their maximum. -/
theorem max_coe_coe (u v : ℝ) : max (u : EReal) (v : EReal) = ((max u v : ℝ) : EReal) := by
  rcases le_total u v with h | h
  · rw [max_eq_right h, max_eq_right (EReal.coe_le_coe_iff.mpr h)]
  · rw [max_eq_left h, max_eq_left (EReal.coe_le_coe_iff.mpr h)]

/-- The pattern of zero denotes the real zero. -/
theorem ofBits_zero_coe : Ideal.ofBits .f32 0x00000000#32 = ((0 : ℝ) : EReal) := by
  simp [Ideal.ofBits, Ideal.ieee]

/-- The squared hinge of a row value a against a column value b on the extended reals, in the grouping
    (1 - a) + b, the two literals (one and zero) kept as their patterns. -/
def hE (a b : EReal) : EReal :=
  max ((Ideal.ofBits .f32 0x3F800000#32 - a) + b) (Ideal.ofBits .f32 0x00000000#32)
    * max ((Ideal.ofBits .f32 0x3F800000#32 - a) + b) (Ideal.ofBits .f32 0x00000000#32)

/-- The same in the grouping 1 - (a - b). -/
def hR (a b : EReal) : EReal :=
  max (Ideal.ofBits .f32 0x3F800000#32 - (a - b)) (Ideal.ofBits .f32 0x00000000#32)
    * max (Ideal.ofBits .f32 0x3F800000#32 - (a - b)) (Ideal.ofBits .f32 0x00000000#32)

/-- The squared hinge on the reals. -/
def sqh (a b : ℝ) : ℝ := (max (1 - a + b) 0) ^ 2

theorem sqh_nonneg (a b : ℝ) : 0 ≤ sqh a b := by
  unfold sqh
  positivity

theorem sqh_self (a : ℝ) : sqh a a = 1 := by
  unfold sqh
  have h1 : 1 - a + a = 1 := by ring
  rw [h1]
  norm_num

theorem sqh_self_pos (a : ℝ) : 0 < sqh a a := by
  rw [sqh_self]
  exact one_pos

/-- On reals both groupings are the real squared hinge. -/
theorem hE_coe (a b : ℝ) : hE (a : EReal) (b : EReal) = ((sqh a b : ℝ) : EReal) := by
  unfold hE sqh
  rw [ofBits_one, ofBits_zero_coe, ← EReal.coe_sub, ← EReal.coe_add, max_coe_coe, ← EReal.coe_mul, pow_two]

theorem hR_coe (a b : ℝ) : hR (a : EReal) (b : EReal) = ((sqh a b : ℝ) : EReal) := by
  unfold hR sqh
  have h1 : 1 - (a - b) = 1 - a + b := by ring
  rw [ofBits_one, ofBits_zero_coe, ← EReal.coe_sub, ← EReal.coe_sub, max_coe_coe, ← EReal.coe_mul, pow_two, h1]

/-- The first n blocks of 1024 consecutive naturals make up the first 1024 n naturals. -/
theorem sum_blocks_aux {M : Type*} [AddCommMonoid M] (g : ℕ → M) (n : ℕ) :
    ∑ k ∈ Finset.range n, ∑ q : Fin 1024, g (1024 * k + q.val) = ∑ j ∈ Finset.range (1024 * n), g j := by
  induction n with
  | zero => simp
  | succ n ih =>
    rw [Finset.sum_range_succ, ih, Nat.mul_succ, Finset.sum_range_add,
      Fin.sum_univ_eq_sum_range (fun q => g (1024 * n + q)) 1024]

/-- Twelve consecutive blocks of 1024 make up the first 12288 naturals. -/
theorem sum_blocks_12_1024 {M : Type*} [AddCommMonoid M] (g : ℕ → M) :
    ∑ k ∈ Finset.range 12, ∑ q : Fin 1024, g (1024 * k + q.val) = ∑ j : Fin 12288, g j.val := by
  rw [sum_blocks_aux, Fin.sum_univ_eq_sum_range g 12288]

/-- The coercion of a finite real sum over a finite type is the sum of the coercions. -/
theorem coe_sum {ι : Type*} [Fintype ι] (r : ι → ℝ) : ((∑ j, r j : ℝ) : EReal) = ∑ j, (r j : EReal) := by
  classical
  have key : ∀ t : Finset ι, ((∑ j ∈ t, r j : ℝ) : EReal) = ∑ j ∈ t, (r j : EReal) := by
    intro t
    induction t using Finset.induction_on with
    | empty => simp
    | insert a t ha ih => rw [Finset.sum_insert ha, Finset.sum_insert ha, EReal.coe_add, ih]
  exact key Finset.univ

/-- The mask as an extended real times a real: zero or the real. -/
theorem coe_mul_mask (r : ℝ) (b : Bool) : (r : EReal) * (if b then (1 : EReal) else 0) = ((r * (if b then (1 : ℝ) else 0) : ℝ) : EReal) := by
  cases b <;> simp

end Cert.Spec

end
-- ==== Proof.KIVal1.lean ====
/-
  The body's arithmetic at the ideal values, read at a row. For a column block x0 of 1024 rows and a chunk v of 1024
  entries of the full row, the squared hinge at (p, q) is max((1 - x0 p) + v q, 0) squared; one trip of the loop adds to the
  carried partial sum of row p the sum of these over the 1024 lanes of the chunk, and to the carried masked partial sum
  the same terms each times the mask's entry.
-/
import proofs.«141416_j52587579572535_2_alg».proof.Proof.Gen.KernelIdeal.Skeleton
import proofs.«141416_j52587579572535_2_alg».proof.Proof.LibRowStat
import proofs.«141416_j52587579572535_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import proofs.«141416_j52587579572535_2_alg».proof.Proof.Spec

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Idealize.ShloMosaic.ValueIdx Cert.Spec

/-- The squared-hinge tile at (p, q): the hinge of row p of the column block against lane q of the chunk. -/
theorem pay3_apply (v0 : Vec Ideal S1024x1 .f32) (v12 : Vec Ideal S1x1024 .f32) (p q : Fin 1024) :
    k0_pay3 (F := Ideal) v0 v12 (ix2 p q) = hE (v0 (ix2 p (0 : Fin 1))) (v12 (ix2 (0 : Fin 1) q)) := by
  unfold k0_pay3 hE
  simp only [mulf_apply, maximumf_apply, addf_apply, broadcast_apply]
  rw [Cert.LibRowStat.broadcastTo_a1_ab_apply, broadcastTo_1b_ab_apply, shapeCast_self]
  rfl

/-- One trip's new partial row sum at row p: the carried one plus the chunk's lane sum. -/
theorem pay4_apply (v0 : Vec Ideal S1024x1 .f32) (a : FVec Ideal S1024x1 .f32) (v12 : Vec Ideal S1x1024 .f32) (p : Fin 1024) :
    k0_pay4 (F := Ideal) v0 a v12 (ix2 p (0 : Fin 1))
      = a (ix2 p (0 : Fin 1)) + ∑ q : Fin 1024, hE (v0 (ix2 p (0 : Fin 1))) (v12 (ix2 (0 : Fin 1) q)) := by
  unfold k0_pay4
  simp only [addf_apply]
  refine congrArg (a (ix2 p (0 : Fin 1)) + ·) ?_
  refine (Cert.LibKeepdims.shapeCast_a_a1_apply _ _ p (0 : Fin 1)).trans ?_
  refine (Cert.LibRowStat.sum_lanes_apply _ _ _ _ _ p).trans ?_
  exact Finset.sum_congr rfl fun q _ => pay3_apply v0 v12 p q

/-- One trip's new masked partial row sum at row p. -/
theorem pay5_apply (v0 : Vec Ideal S1024x1 .f32) (a : FVec Ideal S1024x1 .f32) (v12 v15 : Vec Ideal S1x1024 .f32) (p : Fin 1024) :
    k0_pay5 (F := Ideal) v0 a v12 v15 (ix2 p (0 : Fin 1))
      = a (ix2 p (0 : Fin 1)) + ∑ q : Fin 1024, hE (v0 (ix2 p (0 : Fin 1))) (v12 (ix2 (0 : Fin 1) q)) * v15 (ix2 (0 : Fin 1) q) := by
  unfold k0_pay5
  simp only [addf_apply]
  refine congrArg (a (ix2 p (0 : Fin 1)) + ·) ?_
  refine (Cert.LibKeepdims.shapeCast_a_a1_apply _ _ p (0 : Fin 1)).trans ?_
  refine (Cert.LibRowStat.sum_lanes_apply _ _ _ _ _ p).trans ?_
  refine Finset.sum_congr rfl fun q _ => ?_
  simp only [mulf_apply]
  rw [pay3_apply, broadcastTo_1b_ab_apply, shapeCast_self]

end Cert.KernelIdeal.Val

end
-- ==== Proof.KIVal2.lean ====
/-
  The loop in closed form and what the body leaves in its two output blocks. Before trip k the carried partial sum of
  row p is the sum over the first k chunks, lane by lane, of the squared hinge of the row's value against the chunk's
  column values (for the second carried value each term times the mask); after the twelve trips the body stores the two
  carried values whole, so each output block at row p is the sum over all twelve chunks.
-/
import proofs.«141416_j52587579572535_2_alg».proof.Proof.KIFrame
import proofs.«141416_j52587579572535_2_alg».proof.Proof.KIVal1
import proofs.«141416_j52587579572535_2_alg».proof.Proof.Spec

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Fr Idealize.ShloMosaic.ValueIdx Cert.Spec

/-- Column n of a full row (zero past its end). -/
def colAt (x : Vec Ideal S1x12288 .f32) (n : ℕ) : EReal := if h : n < 12288 then x (ix2 (0 : Fin 1) (⟨n, h⟩ : Fin 12288)) else 0

theorem trips_eq : k0_t1_loop.trips = 12 := by decide

/-- Lane q of the chunk trip k loads is column 1024 k + q of the row. -/
theorem chunk_apply (arg2 : Memref sig .tc .vmem S1x12288 .f32) (harg2 : arg2.IsWhole) (x1 : Vec Ideal S1x12288 .f32)
    (k : Fin k0_t1_loop.trips) (q : Fin 1024) :
    View.readAt (Elt Ideal) arg2.view (Rect.unit (s := S1x12288) (k0_off1 k) S1x1024.size (k0_off1_inb k)).toLoadRect (harg2.unread x1) (ix2 (0 : Fin 1) q)
      = colAt x1 (1024 * k.val + q.val) := by
  have hk : k.val < 12 := Nat.lt_of_lt_of_le k.isLt k0_t1_abs.2.1
  have hq : q.val < 1024 := q.isLt
  rw [View.readAt_eq_ld, harg2.read_unread]
  unfold colAt
  rw [dif_pos (by omega)]
  show x1 _ = x1 _
  refine congrArg x1 (funext fun a => Fin.ext ?_)
  have e := k0_off1_eq k
  match a with
  | ⟨0, _⟩ =>
    show (k0_off1 k) 0 + 1 * 0 = 0
    rw [e]; rfl
  | ⟨1, _⟩ =>
    show (k0_off1 k) 1 + 1 * q.val = 1024 * k.val + q.val
    rw [e]; show 1024 * k.val + 1 * q.val = _; omega

/-- One trip, opened once: the new carried pair is the two payloads of the carried pair and the trip's two chunks. -/
theorem tripR_eq (𝒱 : Variants) (c : Dev nD) (bd : Option 𝒱.V) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole)
    (v0 : Vec F S1024x1 .f32) (X_arg2 : BufTy.Contents (Elt F) arg2.view.ty) (X_arg3 : BufTy.Contents (Elt F) arg3.view.ty)
    (k : Fin k0_t1_loop.trips) (acc : FVec F S1024x1 .f32 × FVec F S1024x1 .f32) :
    tripR_k0_t1 (F := F) 𝒱 c bd i arg1 harg1 arg2 harg2 arg3 harg3 arg4 harg4 arg5 harg5 v0 X_arg2 X_arg3 k acc
      = (k0_pay4 v0 acc.1 (View.readAt (Elt F) arg2.view (Rect.unit (s := S1x12288) (k0_off1 k) S1x1024.size (k0_off1_inb k)).toLoadRect X_arg2),
         k0_pay5 v0 acc.2 (View.readAt (Elt F) arg2.view (Rect.unit (s := S1x12288) (k0_off1 k) S1x1024.size (k0_off1_inb k)).toLoadRect X_arg2)
           (View.readAt (Elt F) arg3.view (Rect.unit (s := S1x12288) (k0_off1 k) S1x1024.size (k0_off1_inb k)).toLoadRect X_arg3)) := by
  unfold tripR_k0_t1 trip_k0_t1
  rfl

/-- The carried pair before trip k, at row p. -/
theorem st_apply (𝒱 : Variants) (c : Dev nD) (bd : Option 𝒱.V) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole)
    (v0 : Vec Ideal S1024x1 .f32) (x1 x2 : Vec Ideal S1x12288 .f32) (p : Fin 1024) :
    ∀ k : ℕ, k ≤ k0_t1_loop.trips →
      (st_k0_t1 (F := Ideal) 𝒱 c bd i arg1 harg1 arg2 harg2 arg3 harg3 arg4 harg4 arg5 harg5 v0 (harg2.unread x1) (harg3.unread x2) (k0_pay1, k0_pay2) k).1 (ix2 p (0 : Fin 1))
        = ∑ k' ∈ Finset.range k, ∑ q : Fin 1024, hE (v0 (ix2 p (0 : Fin 1))) (colAt x1 (1024 * k' + q.val))
      ∧ (st_k0_t1 (F := Ideal) 𝒱 c bd i arg1 harg1 arg2 harg2 arg3 harg3 arg4 harg4 arg5 harg5 v0 (harg2.unread x1) (harg3.unread x2) (k0_pay1, k0_pay2) k).2 (ix2 p (0 : Fin 1))
        = ∑ k' ∈ Finset.range k, ∑ q : Fin 1024, hE (v0 (ix2 p (0 : Fin 1))) (colAt x1 (1024 * k' + q.val)) * colAt x2 (1024 * k' + q.val) := by
  intro k
  induction k with
  | zero =>
    intro _
    rw [st_k0_t1_zero]
    simp only [Finset.range_zero, Finset.sum_empty]
    exact ⟨Ideal.ofBits_zero_f32, Ideal.ofBits_zero_f32⟩
  | succ k ih =>
    intro hk
    obtain ⟨ih1, ih2⟩ := ih (Nat.le_of_succ_le hk)
    have hs := st_k0_t1_succ (F := Ideal) 𝒱 c bd i arg1 harg1 arg2 harg2 arg3 harg3 arg4 harg4 arg5 harg5 v0 (harg2.unread x1) (harg3.unread x2) (k0_pay1, k0_pay2) ⟨k, hk⟩
    rw [show (⟨k, hk⟩ : Fin k0_t1_loop.trips).val + 1 = k + 1 from rfl, show (⟨k, hk⟩ : Fin k0_t1_loop.trips).val = k from rfl] at hs
    rw [hs, tripR_eq, Finset.sum_range_succ, Finset.sum_range_succ]
    dsimp only
    constructor
    · rw [pay4_apply, ih1]
      refine congrArg (_ + ·) (Finset.sum_congr rfl fun q _ => ?_)
      rw [chunk_apply]
    · rw [pay5_apply, ih2]
      refine congrArg (_ + ·) (Finset.sum_congr rfl fun q _ => ?_)
      rw [chunk_apply, chunk_apply]

theorem hz : (![0, 0] : Fin 2 → Nat) = fun _ => 0 := funext fun a => by fin_cases a <;> rfl

/-- The two piece lists the body's run found: one whole-block store each, of the loop's two results. -/
theorem run_pieces (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole) (x0 : Vec F S1024x1 .f32) (x1 x2 : Vec F S1x12288 .f32) :
    (kernelRun0_A c i arg1 harg1 arg2 harg2 arg3 harg3 arg4 harg4 arg5 harg5 x0 x1 x2).1
      = [⟨Rect.unit (s := S1024x1) ![0, 0] S1024x1.size inb_S1024x1_S1024x1_0_0,
          (st_k0_t1 Variants.none c none i arg1 harg1 arg2 harg2 arg3 harg3 arg4 harg4 arg5 harg5
            (View.readAt (Elt F) arg1.view (Rect.unit (s := S1024x1) ![0, 0] S1024x1.size inb_S1024x1_S1024x1_0_0).toLoadRect (harg1.unread x0))
            (harg2.unread x1) (harg3.unread x2) (k0_pay1, k0_pay2) k0_t1_loop.trips).1⟩]
    ∧ (kernelRun0_A c i arg1 harg1 arg2 harg2 arg3 harg3 arg4 harg4 arg5 harg5 x0 x1 x2).2.1
      = [⟨Rect.unit (s := S1024x1) ![0, 0] S1024x1.size inb_S1024x1_S1024x1_0_0,
          (st_k0_t1 Variants.none c none i arg1 harg1 arg2 harg2 arg3 harg3 arg4 harg4 arg5 harg5
            (View.readAt (Elt F) arg1.view (Rect.unit (s := S1024x1) ![0, 0] S1024x1.size inb_S1024x1_S1024x1_0_0).toLoadRect (harg1.unread x0))
            (harg2.unread x1) (harg3.unread x2) (k0_pay1, k0_pay2) k0_t1_loop.trips).2⟩] := by
  unfold kernelRun0_A
  exact ⟨rfl, rfl⟩

/-- What the body leaves in the first output block, at row p: the row's sum of squared hinges over the twelve chunks; -/
theorem out3_apply (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole) (x0 : Vec Ideal S1024x1 .f32) (x1 x2 : Vec Ideal S1x12288 .f32) (p : Fin 1024) :
    out0_A_3 c i arg1 harg1 arg2 harg2 arg3 harg3 arg4 harg4 arg5 harg5 x0 x1 x2 (ix2 p (0 : Fin 1))
      = ∑ k' ∈ Finset.range 12, ∑ q : Fin 1024, hE (x0 (ix2 p (0 : Fin 1))) (colAt x1 (1024 * k' + q.val)) := by
  unfold out0_A_3
  rw [View.read_writes_eq_canon _ _ _ (cover0_A_3 c i arg1 harg1 arg2 harg2 arg3 harg3 arg4 harg4 arg5 harg5 x0 x1 x2), (run_pieces c i arg1 harg1 arg2 harg2 arg3 harg3 arg4 harg4 arg5 harg5 x0 x1 x2).1,
    View.canon_unit_zero hz]
  have hv0 : View.readAt (Elt Ideal) arg1.view (Rect.unit (s := S1024x1) ![0, 0] S1024x1.size inb_S1024x1_S1024x1_0_0).toLoadRect (harg1.unread x0) = x0 := by
    rw [View.readAt_eq_ld, harg1.read_unread, View.ld_unit_zero (S := S1024x1) hz]
  rw [hv0, (st_apply Variants.none c none i arg1 harg1 arg2 harg2 arg3 harg3 arg4 harg4 arg5 harg5 x0 x1 x2 p k0_t1_loop.trips (le_refl _)).1, trips_eq]

/-- and in the second, the same terms each times the mask's column value. -/
theorem out4_apply (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole) (x0 : Vec Ideal S1024x1 .f32) (x1 x2 : Vec Ideal S1x12288 .f32) (p : Fin 1024) :
    out0_A_4 c i arg1 harg1 arg2 harg2 arg3 harg3 arg4 harg4 arg5 harg5 x0 x1 x2 (ix2 p (0 : Fin 1))
      = ∑ k' ∈ Finset.range 12, ∑ q : Fin 1024, hE (x0 (ix2 p (0 : Fin 1))) (colAt x1 (1024 * k' + q.val)) * colAt x2 (1024 * k' + q.val) := by
  unfold out0_A_4
  rw [View.read_writes_eq_canon _ _ _ (cover0_A_4 c i arg1 harg1 arg2 harg2 arg3 harg3 arg4 harg4 arg5 harg5 x0 x1 x2), (run_pieces c i arg1 harg1 arg2 harg2 arg3 harg3 arg4 harg4 arg5 harg5 x0 x1 x2).2,
    View.canon_unit_zero hz]
  have hv0 : View.readAt (Elt Ideal) arg1.view (Rect.unit (s := S1024x1) ![0, 0] S1024x1.size inb_S1024x1_S1024x1_0_0).toLoadRect (harg1.unread x0) = x0 := by
    rw [View.readAt_eq_ld, harg1.read_unread, View.ld_unit_zero (S := S1024x1) hz]
  rw [hv0, (st_apply Variants.none c none i arg1 harg1 arg2 harg2 arg3 harg3 arg4 harg4 arg5 harg5 x0 x1 x2 p k0_t1_loop.trips (le_refl _)).2, trips_eq]

end Cert.KernelIdeal.Val

end
-- ==== Proof.KIVal3.lean ====
/-
  From blocks to arrays. Grid point t holds rows 1024 t … 1024 t + 1023 of the column of predictions, and the two full
  rows (the predictions and the mask, each laid out as one row of 12288) whole. What the body leaves in its two output
  blocks is therefore block t of ONE function of the arrays: at row r, the sum over all 12288 columns j of the squared
  hinge of prediction r against prediction j (for the second output each term times the mask at j). The twelve blocks
  tile the two output arrays, so after the run the arrays hold these functions.
-/
import proofs.«141416_j52587579572535_2_alg».proof.Proof.KIVal2

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Fr Idealize.ShloMosaic.ValueIdx Cert.Spec

variable (m : (ℓ : Loc nD τ sig) → Buf (Elt Ideal) ℓ)

/-- Row sums of the squared hinge: at row r of the column y0, over the 12288 entries of the row r1; -/
def G3 (y0 : S12288x1.Idx → EReal) (r1 : S1x12288.Idx → EReal) : S12288x1.Idx → EReal := fun gi =>
  ∑ j : Fin 12288, hE (y0 (ix2 (⟨(gi 0).val, (gi 0).isLt⟩ : Fin 12288) (0 : Fin 1))) (r1 (ix2 (0 : Fin 1) j))
/-- and the same with each term times the entry of a second row r2. -/
def G4 (y0 : S12288x1.Idx → EReal) (r1 r2 : S1x12288.Idx → EReal) : S12288x1.Idx → EReal := fun gi =>
  ∑ j : Fin 12288, hE (y0 (ix2 (⟨(gi 0).val, (gi 0).isLt⟩ : Fin 12288) (0 : Fin 1))) (r1 (ix2 (0 : Fin 1) j)) * r2 (ix2 (0 : Fin 1) j)

theorem colAt_val (x : Vec Ideal S1x12288 .f32) (j : Fin 12288) : colAt x j.val = x (ix2 (0 : Fin 1) j) := by
  unfold colAt; rw [dif_pos j.isLt]

/-- The first output block, at a block coordinate, is the first function at the array index the block puts it at. -/
theorem out0_A_3_block (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole) (x0 : Vec Ideal S1024x1 .f32) (x1 x2 : Vec Ideal S1x12288 .f32)
    (y0 : S12288x1.Idx → EReal) (r1 : S1x12288.Idx → EReal) (tt : ℕ) (htt : tt < 12)
    (h0 : ∀ p : Fin 1024, x0 (ix2 p (0 : Fin 1)) = y0 (ix2 (⟨1024 * tt + p.val, by have := p.isLt; omega⟩ : Fin 12288) (0 : Fin 1)))
    (h1 : x1 = r1) (j : S1024x1.Idx) (gi : S12288x1.Idx) (hgi : (gi 0).val = 1024 * tt + (j 0).val) :
    out0_A_3 c i arg1 harg1 arg2 harg2 arg3 harg3 arg4 harg4 arg5 harg5 x0 x1 x2 j = G3 y0 r1 gi := by
  obtain ⟨p, u, rfl⟩ : ∃ (p : Fin 1024) (u : Fin 1), j = ix2 p u := ⟨j 0, j 1, eq_ix2 j⟩
  obtain rfl : u = 0 := Fin.ext (by have := u.isLt; omega)
  rw [out3_apply, sum_blocks_12_1024 (fun n => hE (x0 (ix2 p (0 : Fin 1))) (colAt x1 n))]
  unfold G3
  refine Finset.sum_congr rfl fun jj _ => ?_
  rw [colAt_val, h0 p, h1]
  refine congrArg (fun a => hE (y0 (ix2 a (0 : Fin 1))) _) (Fin.ext ?_)
  exact hgi.symm

theorem out0_A_4_block (c : Dev nD) (i : grid0.Coords) (arg1 : Memref sig .tc .vmem S1024x1 .f32) (harg1 : arg1.IsWhole) (arg2 : Memref sig .tc .vmem S1x12288 .f32) (harg2 : arg2.IsWhole) (arg3 : Memref sig .tc .vmem S1x12288 .f32) (harg3 : arg3.IsWhole) (arg4 : Memref sig .tc .vmem S1024x1 .f32) (harg4 : arg4.IsWhole) (arg5 : Memref sig .tc .vmem S1024x1 .f32) (harg5 : arg5.IsWhole) (x0 : Vec Ideal S1024x1 .f32) (x1 x2 : Vec Ideal S1x12288 .f32)
    (y0 : S12288x1.Idx → EReal) (r1 r2 : S1x12288.Idx → EReal) (tt : ℕ) (htt : tt < 12)
    (h0 : ∀ p : Fin 1024, x0 (ix2 p (0 : Fin 1)) = y0 (ix2 (⟨1024 * tt + p.val, by have := p.isLt; omega⟩ : Fin 12288) (0 : Fin 1)))
    (h1 : x1 = r1) (h2 : x2 = r2) (j : S1024x1.Idx) (gi : S12288x1.Idx) (hgi : (gi 0).val = 1024 * tt + (j 0).val) :
    out0_A_4 c i arg1 harg1 arg2 harg2 arg3 harg3 arg4 harg4 arg5 harg5 x0 x1 x2 j = G4 y0 r1 r2 gi := by
  obtain ⟨p, u, rfl⟩ : ∃ (p : Fin 1024) (u : Fin 1), j = ix2 p u := ⟨j 0, j 1, eq_ix2 j⟩
  obtain rfl : u = 0 := Fin.ext (by have := u.isLt; omega)
  rw [out4_apply, sum_blocks_12_1024 (fun n => hE (x0 (ix2 p (0 : Fin 1))) (colAt x1 n) * colAt x2 n)]
  unfold G4
  refine Finset.sum_congr rfl fun jj _ => ?_
  rw [colAt_val, colAt_val, h0 p, h1, h2]
  refine congrArg (fun a => hE (y0 (ix2 a (0 : Fin 1))) _ * _) (Fin.ext ?_)
  exact hgi.symm

/-- The printed index maps over the grid: the column block and the two output blocks move with the point, the two
    rows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of point t's column block is row 1024 t + p of the column. -/
theorem iblk0_apply (c : Dev nD) (t : Fin cfg0.N) (p : Fin 1024) :
    iblk m c 0 t (ix2 p (0 : Fin 1)) = V m c main_arg0 (ix2 (⟨1024 * t.val + p.val, by have := p.isLt; have : t.val < 12 := Nat.lt_of_lt_of_eq t.isLt N_0; omega⟩ : Fin 12288) (0 : Fin 1)) := by
  obtain ⟨e00, e01, -⟩ := idx_facts t
  show V m c main_arg0 (((cfg0.win 0).blk t).view.emb (ix2 p (0 : Fin 1))) = V m c main_arg0 _
  refine congrArg (V m c main_arg0) (funext fun a => Fin.ext ?_)
  match a with
  | ⟨0, _⟩ => show win0_0.index t (0 : Fin 2) * 1024 + 1 * p.val = 1024 * t.val + p.val; omega
  | ⟨1, _⟩ => show win0_0.index t (1 : Fin 2) * 1 + 1 * 0 = 0; omega

/-- The two row windows hold their arrays whole at every point. -/
theorem iblk1_eq (c : Dev nD) (t : Fin cfg0.N) : (iblk m c 1 t : S1x12288.Idx → EReal) = V m c main_v4 := by
  obtain ⟨-, -, e10, e11, -⟩ := idx_facts t
  funext y
  show V m c main_v4 (((cfg0.win 1).blk t).view.emb y) = V m c main_v4 y
  refine congrArg (V m c main_v4) (funext fun a => Fin.ext ?_)
  match a with
  | ⟨0, _⟩ => show win0_1.index t (0 : Fin 2) * 1 + 1 * (y 0).val = (y 0).val; omega
  | ⟨1, _⟩ => show win0_1.index t (1 : Fin 2) * 12288 + 1 * (y 1).val = (y 1).val; omega
theorem iblk2_eq (c : Dev nD) (t : Fin cfg0.N) : (iblk m c 2 t : S1x12288.Idx → EReal) = V m c main_v5 := by
  obtain ⟨-, -, -, -, e20, e21, -⟩ := idx_facts t
  funext y
  show V m c main_v5 (((cfg0.win 2).blk t).view.emb y) = V m c main_v5 y
  refine congrArg (V m c main_v5) (funext fun a => Fin.ext ?_)
  match a with
  | ⟨0, _⟩ => show win0_2.index t (0 : Fin 2) * 1 + 1 * (y 0).val = (y 0).val; omega
  | ⟨1, _⟩ => show win0_2.index t (1 : Fin 2) * 12288 + 1 * (y 1).val = (y 1).val; omega

/-- What point t writes back through output window 3 is block t of that function. -/
theorem flushed3_eq (c : Dev nD) (t : Fin cfg0.N) :
    (dats m 0 c).flushed 3 t = ((cfg0.win 3).blk t).view.read (Elt Ideal) (G3 (V m c main_arg0) (V m c main_v4)) := by
  have ht : t.val < 12 := Nat.lt_of_lt_of_eq t.isLt N_0
  obtain ⟨e00, e01, e10, e11, e20, e21, e30, e31, e40, e41⟩ := idx_facts t
  show (cfg0.win 3).cut (grid0.coords t) ((dats m 0 c).after 3 t) = _
  rw [after0_3]
  unfold outsAt0_3
  funext j
  show out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) j
    = G3 (V m c main_arg0) (V m c main_v4) (((cfg0.win 3).blk t).view.emb j)
  refine out0_A_3_block c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (V m c main_arg0) (V m c main_v4) t.val ht (fun p => ?_) (iblk1_eq m c t) j (((cfg0.win 3).blk t).view.emb j) ?_
  · exact iblk0_apply m c t p
  · show win0_3.index t (0 : Fin 2) * 1024 + 1 * (j 0).val = 1024 * t.val + (j 0).val
    omega

/-- An index of the array is in point t's block of window 3 iff each coordinate is in the block's range. -/
theorem mem_blk3 (t : Fin cfg0.N) (i : S12288x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v6_0).slice (win0_3.rect t)).set ↔ _
  rw [View.set_slice_whole, Rect.mem_set_unit]
  exact Iff.rfl

/-- Every index of the array is in the block of the point that holds its row. -/
theorem cover3 (i : S12288x1.Idx) : ∃ t : Fin cfg0.N, (cfg0.win 3).flush t = true ∧ i ∈ ((cfg0.win 3).blk t).view.set := by
  have hi0 : (i 0).val < 12288 := (i 0).isLt
  have hi1 : (i 1).val < 1 := (i 1).isLt
  let t : Fin cfg0.N := ⟨(i 0).val / 1024, by rw [show cfg0.N = 12 from N_0]; omega⟩
  obtain ⟨e00, e01, e10, e11, e20, e21, e30, e31, e40, e41⟩ := idx_facts t
  have htv : t.val = (i 0).val / 1024 := rfl
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-- The array of window 3 after the run. -/
theorem final3 (c : Dev nD) : (dats m 0 c).arrAt 3 cfg0.N = G3 (V m c main_arg0) (V m c main_v4) :=
  (dats m 0 c).arrAt_eq_of_cover 3 _ (fun t _ => flushed3_eq m c t) cover3

/-- What point t writes back through output window 4 is block t of that function. -/
theorem flushed4_eq (c : Dev nD) (t : Fin cfg0.N) :
    (dats m 0 c).flushed 4 t = ((cfg0.win 4).blk t).view.read (Elt Ideal) (G4 (V m c main_arg0) (V m c main_v4) (V m c main_v5)) := by
  have ht : t.val < 12 := Nat.lt_of_lt_of_eq t.isLt N_0
  obtain ⟨e00, e01, e10, e11, e20, e21, e30, e31, e40, e41⟩ := idx_facts t
  show (cfg0.win 4).cut (grid0.coords t) ((dats m 0 c).after 4 t) = _
  rw [after0_4]
  unfold outsAt0_4
  funext j
  show out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) j
    = G4 (V m c main_arg0) (V m c main_v4) (V m c main_v5) (((cfg0.win 4).blk t).view.emb j)
  refine out0_A_4_block c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (V m c main_arg0) (V m c main_v4) (V m c main_v5) t.val ht (fun p => ?_) (iblk1_eq m c t) (iblk2_eq m c t) j (((cfg0.win 4).blk t).view.emb j) ?_
  · exact iblk0_apply m c t p
  · show win0_4.index t (0 : Fin 2) * 1024 + 1 * (j 0).val = 1024 * t.val + (j 0).val
    omega

/-- An index of the array is in point t's block of window 4 iff each coordinate is in the block's range. -/
theorem mem_blk4 (t : Fin cfg0.N) (i : S12288x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v6_1).slice (win0_4.rect t)).set ↔ _
  rw [View.set_slice_whole, Rect.mem_set_unit]
  exact Iff.rfl

/-- Every index of the array is in the block of the point that holds its row. -/
theorem cover4 (i : S12288x1.Idx) : ∃ t : Fin cfg0.N, (cfg0.win 4).flush t = true ∧ i ∈ ((cfg0.win 4).blk t).view.set := by
  have hi0 : (i 0).val < 12288 := (i 0).isLt
  have hi1 : (i 1).val < 1 := (i 1).isLt
  let t : Fin cfg0.N := ⟨(i 0).val / 1024, by rw [show cfg0.N = 12 from N_0]; omega⟩
  obtain ⟨e00, e01, e10, e11, e20, e21, e30, e31, e40, e41⟩ := idx_facts t
  have htv : t.val = (i 0).val / 1024 := rfl
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-- The array of window 4 after the run. -/
theorem final4 (c : Dev nD) : (dats m 0 c).arrAt 4 cfg0.N = G4 (V m c main_arg0) (V m c main_v4) (V m c main_v5) :=
  (dats m 0 c).arrAt_eq_of_cover 4 _ (fun t _ => flushed4_eq m c t) cover4

end Cert.KernelIdeal.Val

end
-- ==== Proof.KIVal4.lean ====
/-
  The host lines after the region, as pure terms of the buffers they read, and what the result buffer holds
  after them: the sum of two terms, the first of the region's two output arrays (and the tables, the index
  array, the selection and the mask), the second of the two prediction columns.
-/
import proofs.«141416_j52587579572535_2_alg».proof.Proof.KIVal3
import Idealize.ShloMosaic.Lib.StableHlo.Run

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Fr Idealize.ShloMosaic.ValueIdx Cert.Spec Idealize.ShloMosaic.StableHlo

set_option maxRecDepth 8192 in
/-- The gathered first moving average: the table read at the indices, a negative index first moved up by the table's length. -/
def uaTerm (main_arg2 : (⟨S50000x1, .f32⟩ : BufTy).Contents (Elt F)) (main_arg5 : (⟨S12288, .i32⟩ : BufTy).Contents (Elt F)) : (⟨S12288, .f32⟩ : BufTy).Contents (Elt F) :=
  let main_c_1 := (constantI S_ 32 0#32)
  let main_v13 := (broadcastInDim S12288 ![] bcast_S_S12288 : (⟨S_, .i32⟩ : BufTy).Contents (Elt F) → (⟨S12288, .i32⟩ : BufTy).Contents (Elt F)) main_c_1
  let main_v14 := (cmpi .slt : (⟨S12288, .i32⟩ : BufTy).Contents (Elt F) → (⟨S12288, .i32⟩ : BufTy).Contents (Elt F) → (⟨S12288, .i1⟩ : BufTy).Contents (Elt F)) main_arg5 main_v13
  let main_c_2 := (constantI S_ 32 50000#32)
  let main_v15 := (broadcastInDim S12288 ![] bcast_S_S12288 : (⟨S_, .i32⟩ : BufTy).Contents (Elt F) → (⟨S12288, .i32⟩ : BufTy).Contents (Elt F)) main_c_2
  let main_v16 := (addi : (⟨S12288, .i32⟩ : BufTy).Contents (Elt F) → (⟨S12288, .i32⟩ : BufTy).Contents (Elt F) → (⟨S12288, .i32⟩ : BufTy).Contents (Elt F)) main_arg5 main_v15
  let main_v17 := (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) main_v14 main_v16 main_arg5
  let main_c_3 := (constantI S_ 32 0#32)
  let main_v18 := (broadcastInDim S12288 ![] bcast_S_S12288 : (⟨S_, .i32⟩ : BufTy).Contents (Elt F) → (⟨S12288, .i32⟩ : BufTy).Contents (Elt F)) main_c_3
  let main_v19 := (id : (⟨S12288, .i32⟩ : BufTy).Contents (Elt F) → (⟨S12288, .i32⟩ : BufTy).Contents (Elt F)) main_v18
  let main_v20 := (broadcastInDim S12288x1 ![0] bcast_S12288_S12288x1_0 : (⟨S12288, .i32⟩ : BufTy).Contents (Elt F) → (⟨S12288x1, .i32⟩ : BufTy).Contents (Elt F)) main_v17
  let main_v21 := (broadcastInDim S12288x1 ![0] bcast_S12288_S12288x1_0 : (⟨S12288, .i32⟩ : BufTy).Contents (Elt F) → (⟨S12288x1, .i32⟩ : BufTy).Contents (Elt F)) main_v19
  let main_v22 := ((fun a b => concatenate S12288x2 1 [⟨S12288x1, a⟩, ⟨S12288x1, b⟩] concatenates_S12288x1_S12288x1_S12288x2_d1) : (⟨S12288x1, .i32⟩ : BufTy).Contents (Elt F) → (⟨S12288x1, .i32⟩ : BufTy).Contents (Elt F) → (⟨S12288x2, .i32⟩ : BufTy).Contents (Elt F)) main_v20 main_v21
  let main_v23 := ((fun x i => Host.gather gather_S50000x1_S12288x2_S12288_n_01_n_n_01_1_11 x i) : (⟨S50000x1, .f32⟩ : BufTy).Contents (Elt F) → (⟨S12288x2, .i32⟩ : BufTy).Contents (Elt F) → (⟨S12288, .f32⟩ : BufTy).Contents (Elt F)) main_arg2 main_v22
  main_v23

set_option maxRecDepth 8192 in
/-- The gathered second moving average, by the same index arithmetic. -/
def upTerm (main_arg3 : (⟨S50000x1, .f32⟩ : BufTy).Contents (Elt F)) (main_arg5 : (⟨S12288, .i32⟩ : BufTy).Contents (Elt F)) : (⟨S12288, .f32⟩ : BufTy).Contents (Elt F) :=
  let main_c_4 := (constantI S_ 32 0#32)
  let main_v24 := (broadcastInDim S12288 ![] bcast_S_S12288 : (⟨S_, .i32⟩ : BufTy).Contents (Elt F) → (⟨S12288, .i32⟩ : BufTy).Contents (Elt F)) main_c_4
  let main_v25 := (cmpi .slt : (⟨S12288, .i32⟩ : BufTy).Contents (Elt F) → (⟨S12288, .i32⟩ : BufTy).Contents (Elt F) → (⟨S12288, .i1⟩ : BufTy).Contents (Elt F)) main_arg5 main_v24
  let main_c_5 := (constantI S_ 32 50000#32)
  let main_v26 := (broadcastInDim S12288 ![] bcast_S_S12288 : (⟨S_, .i32⟩ : BufTy).Contents (Elt F) → (⟨S12288, .i32⟩ : BufTy).Contents (Elt F)) main_c_5
  let main_v27 := (addi : (⟨S12288, .i32⟩ : BufTy).Contents (Elt F) → (⟨S12288, .i32⟩ : BufTy).Contents (Elt F) → (⟨S12288, .i32⟩ : BufTy).Contents (Elt F)) main_arg5 main_v26
  let main_v28 := (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) main_v25 main_v27 main_arg5
  let main_c_6 := (constantI S_ 32 0#32)
  let main_v29 := (broadcastInDim S12288 ![] bcast_S_S12288 : (⟨S_, .i32⟩ : BufTy).Contents (Elt F) → (⟨S12288, .i32⟩ : BufTy).Contents (Elt F)) main_c_6
  let main_v30 := (id : (⟨S12288, .i32⟩ : BufTy).Contents (Elt F) → (⟨S12288, .i32⟩ : BufTy).Contents (Elt F)) main_v29
  let main_v31 := (broadcastInDim S12288x1 ![0] bcast_S12288_S12288x1_0 : (⟨S12288, .i32⟩ : BufTy).Contents (Elt F) → (⟨S12288x1, .i32⟩ : BufTy).Contents (Elt F)) main_v28
  let main_v32 := (broadcastInDim S12288x1 ![0] bcast_S12288_S12288x1_0 : (⟨S12288, .i32⟩ : BufTy).Contents (Elt F) → (⟨S12288x1, .i32⟩ : BufTy).Contents (Elt F)) main_v30
  let main_v33 := ((fun a b => concatenate S12288x2 1 [⟨S12288x1, a⟩, ⟨S12288x1, b⟩] concatenates_S12288x1_S12288x1_S12288x2_d1) : (⟨S12288x1, .i32⟩ : BufTy).Contents (Elt F) → (⟨S12288x1, .i32⟩ : BufTy).Contents (Elt F) → (⟨S12288x2, .i32⟩ : BufTy).Contents (Elt F)) main_v31 main_v32
  let main_v34 := ((fun x i => Host.gather gather_S50000x1_S12288x2_S12288_n_01_n_n_01_1_11 x i) : (⟨S50000x1, .f32⟩ : BufTy).Contents (Elt F) → (⟨S12288x2, .i32⟩ : BufTy).Contents (Elt F) → (⟨S12288, .f32⟩ : BufTy).Contents (Elt F)) main_arg3 main_v33
  main_v34

set_option maxRecDepth 8192 in
/-- The first summand from the region's two output arrays, the two gathered moving averages, the selection and the mask: row means, the moving averages updated on the selected rows, the squared denominator there, each row's masked quotient, their sum over the number of selected rows. -/
def natCore (main_v6_0 : (⟨S12288x1, .f32⟩ : BufTy).Contents (Elt F)) (main_v6_1 : (⟨S12288x1, .f32⟩ : BufTy).Contents (Elt F)) (main_v2 : (⟨S12288, .i1⟩ : BufTy).Contents (Elt F)) (main_v3 : (⟨S12288, .f32⟩ : BufTy).Contents (Elt F)) (main_v23 : (⟨S12288, .f32⟩ : BufTy).Contents (Elt F)) (main_v34 : (⟨S12288, .f32⟩ : BufTy).Contents (Elt F)) : (⟨S_, .f32⟩ : BufTy).Contents (Elt F) :=
  let main_v7 := shapeCast S12288 main_v6_0 shapeCasts_S12288x1_S12288
  let main_v8 := shapeCast S12288 main_v6_1 shapeCasts_S12288x1_S12288
  let main_cst := (constant (F := F) S_ .f32 0x46400000#32)
  let main_v9 := (broadcastInDim S12288 ![] bcast_S_S12288 : (⟨S_, .f32⟩ : BufTy).Contents (Elt F) → (⟨S12288, .f32⟩ : BufTy).Contents (Elt F)) main_cst
  let main_v10 := (Host.divf : (⟨S12288, .f32⟩ : BufTy).Contents (Elt F) → (⟨S12288, .f32⟩ : BufTy).Contents (Elt F) → (⟨S12288, .f32⟩ : BufTy).Contents (Elt F)) main_v7 main_v9
  let main_cst_0 := (constant (F := F) S_ .f32 0x46400000#32)
  let main_v11 := (broadcastInDim S12288 ![] bcast_S_S12288 : (⟨S_, .f32⟩ : BufTy).Contents (Elt F) → (⟨S12288, .f32⟩ : BufTy).Contents (Elt F)) main_cst_0
  let main_v12 := (Host.divf : (⟨S12288, .f32⟩ : BufTy).Contents (Elt F) → (⟨S12288, .f32⟩ : BufTy).Contents (Elt F) → (⟨S12288, .f32⟩ : BufTy).Contents (Elt F)) main_v8 main_v11
  let main_cst_7 := (constant (F := F) S_ .f32 0x3F666666#32)
  let main_v35 := (broadcastInDim S12288 ![] bcast_S_S12288 : (⟨S_, .f32⟩ : BufTy).Contents (Elt F) → (⟨S12288, .f32⟩ : BufTy).Contents (Elt F)) main_cst_7
  let main_v36 := (mulf : (⟨S12288, .f32⟩ : BufTy).Contents (Elt F) → (⟨S12288, .f32⟩ : BufTy).Contents (Elt F) → (⟨S12288, .f32⟩ : BufTy).Contents (Elt F)) main_v35 main_v23
  let main_cst_8 := (constant (F := F) S_ .f32 0x3DCCCCCD#32)
  let main_v37 := (broadcastInDim S12288 ![] bcast_S_S12288 : (⟨S_, .f32⟩ : BufTy).Contents (Elt F) → (⟨S12288, .f32⟩ : BufTy).Contents (Elt F)) main_cst_8
  let main_v38 := (mulf : (⟨S12288, .f32⟩ : BufTy).Contents (Elt F) → (⟨S12288, .f32⟩ : BufTy).Contents (Elt F) → (⟨S12288, .f32⟩ : BufTy).Contents (Elt F)) main_v37 main_v10
  let main_v39 := (addf : (⟨S12288, .f32⟩ : BufTy).Contents (Elt F) → (⟨S12288, .f32⟩ : BufTy).Contents (Elt F) → (⟨S12288, .f32⟩ : BufTy).Contents (Elt F)) main_v36 main_v38
  let main_v40 := select main_v2 main_v39 main_v23
  let main_cst_9 := (constant (F := F) S_ .f32 0x3F666666#32)
  let main_v41 := (broadcastInDim S12288 ![] bcast_S_S12288 : (⟨S_, .f32⟩ : BufTy).Contents (Elt F) → (⟨S12288, .f32⟩ : BufTy).Contents (Elt F)) main_cst_9
  let main_v42 := (mulf : (⟨S12288, .f32⟩ : BufTy).Contents (Elt F) → (⟨S12288, .f32⟩ : BufTy).Contents (Elt F) → (⟨S12288, .f32⟩ : BufTy).Contents (Elt F)) main_v41 main_v34
  let main_cst_10 := (constant (F := F) S_ .f32 0x3DCCCCCD#32)
  let main_v43 := (broadcastInDim S12288 ![] bcast_S_S12288 : (⟨S_, .f32⟩ : BufTy).Contents (Elt F) → (⟨S12288, .f32⟩ : BufTy).Contents (Elt F)) main_cst_10
  let main_v44 := (mulf : (⟨S12288, .f32⟩ : BufTy).Contents (Elt F) → (⟨S12288, .f32⟩ : BufTy).Contents (Elt F) → (⟨S12288, .f32⟩ : BufTy).Contents (Elt F)) main_v43 main_v12
  let main_v45 := (addf : (⟨S12288, .f32⟩ : BufTy).Contents (Elt F) → (⟨S12288, .f32⟩ : BufTy).Contents (Elt F) → (⟨S12288, .f32⟩ : BufTy).Contents (Elt F)) main_v42 main_v44
  let main_v46 := select main_v2 main_v45 main_v34
  let main_v47 := (mulf : (⟨S12288, .f32⟩ : BufTy).Contents (Elt F) → (⟨S12288, .f32⟩ : BufTy).Contents (Elt F) → (⟨S12288, .f32⟩ : BufTy).Contents (Elt F)) main_v40 main_v40
  let main_cst_11 := (constant (F := F) S_ .f32 0x3F800000#32)
  let main_call2_v0 := id main_cst_11
  let main_call2_v1 := (broadcastInDim S12288 ![] bcast_S_S12288) main_call2_v0
  let main_v48 := select main_v2 main_v47 main_call2_v1
  let main_cst_12 := (constant (F := F) S_ .f32 0x00000000#32)
  let main_v49 := ((fun x v => Host.reduceAdd x v reducesTo_S12288_S_d0 h_S_) : (⟨S12288, .f32⟩ : BufTy).Contents (Elt F) → (⟨S_, .f32⟩ : BufTy).Contents (Elt F) → (⟨S_, .f32⟩ : BufTy).Contents (Elt F)) main_v3 main_cst_12
  let main_v50 := (mulf : (⟨S12288, .f32⟩ : BufTy).Contents (Elt F) → (⟨S12288, .f32⟩ : BufTy).Contents (Elt F) → (⟨S12288, .f32⟩ : BufTy).Contents (Elt F)) main_v46 main_v10
  let main_v51 := (mulf : (⟨S12288, .f32⟩ : BufTy).Contents (Elt F) → (⟨S12288, .f32⟩ : BufTy).Contents (Elt F) → (⟨S12288, .f32⟩ : BufTy).Contents (Elt F)) main_v40 main_v12
  let main_v52 := (subf : (⟨S12288, .f32⟩ : BufTy).Contents (Elt F) → (⟨S12288, .f32⟩ : BufTy).Contents (Elt F) → (⟨S12288, .f32⟩ : BufTy).Contents (Elt F)) main_v50 main_v51
  let main_v53 := (mulf : (⟨S12288, .f32⟩ : BufTy).Contents (Elt F) → (⟨S12288, .f32⟩ : BufTy).Contents (Elt F) → (⟨S12288, .f32⟩ : BufTy).Contents (Elt F)) main_v3 main_v52
  let main_v54 := (Host.divf : (⟨S12288, .f32⟩ : BufTy).Contents (Elt F) → (⟨S12288, .f32⟩ : BufTy).Contents (Elt F) → (⟨S12288, .f32⟩ : BufTy).Contents (Elt F)) main_v53 main_v48
  let main_cst_13 := (constant (F := F) S_ .f32 0x00000000#32)
  let main_v55 := ((fun x v => Host.reduceAdd x v reducesTo_S12288_S_d0 h_S_) : (⟨S12288, .f32⟩ : BufTy).Contents (Elt F) → (⟨S_, .f32⟩ : BufTy).Contents (Elt F) → (⟨S_, .f32⟩ : BufTy).Contents (Elt F)) main_v54 main_cst_13
  let main_v56 := (Host.divf : (⟨S_, .f32⟩ : BufTy).Contents (Elt F) → (⟨S_, .f32⟩ : BufTy).Contents (Elt F) → (⟨S_, .f32⟩ : BufTy).Contents (Elt F)) main_v55 main_v49
  main_v56

set_option maxRecDepth 8192 in
/-- The host lines after the region that lead to the first summand of the result, as one pure term of the buffers they read. -/
def natTerm (main_v6_0 : (⟨S12288x1, .f32⟩ : BufTy).Contents (Elt F)) (main_v6_1 : (⟨S12288x1, .f32⟩ : BufTy).Contents (Elt F)) (main_arg2 : (⟨S50000x1, .f32⟩ : BufTy).Contents (Elt F)) (main_arg3 : (⟨S50000x1, .f32⟩ : BufTy).Contents (Elt F)) (main_arg5 : (⟨S12288, .i32⟩ : BufTy).Contents (Elt F)) (main_v2 : (⟨S12288, .i1⟩ : BufTy).Contents (Elt F)) (main_v3 : (⟨S12288, .f32⟩ : BufTy).Contents (Elt F)) : (⟨S_, .f32⟩ : BufTy).Contents (Elt F) :=
  let main_v7 := shapeCast S12288 main_v6_0 shapeCasts_S12288x1_S12288
  let main_v8 := shapeCast S12288 main_v6_1 shapeCasts_S12288x1_S12288
  let main_cst := (constant (F := F) S_ .f32 0x46400000#32)
  let main_v9 := (broadcastInDim S12288 ![] bcast_S_S12288 : (⟨S_, .f32⟩ : BufTy).Contents (Elt F) → (⟨S12288, .f32⟩ : BufTy).Contents (Elt F)) main_cst
  let main_v10 := (Host.divf : (⟨S12288, .f32⟩ : BufTy).Contents (Elt F) → (⟨S12288, .f32⟩ : BufTy).Contents (Elt F) → (⟨S12288, .f32⟩ : BufTy).Contents (Elt F)) main_v7 main_v9
  let main_cst_0 := (constant (F := F) S_ .f32 0x46400000#32)
  let main_v11 := (broadcastInDim S12288 ![] bcast_S_S12288 : (⟨S_, .f32⟩ : BufTy).Contents (Elt F) → (⟨S12288, .f32⟩ : BufTy).Contents (Elt F)) main_cst_0
  let main_v12 := (Host.divf : (⟨S12288, .f32⟩ : BufTy).Contents (Elt F) → (⟨S12288, .f32⟩ : BufTy).Contents (Elt F) → (⟨S12288, .f32⟩ : BufTy).Contents (Elt F)) main_v8 main_v11
  let main_c_1 := (constantI S_ 32 0#32)
  let main_v13 := (broadcastInDim S12288 ![] bcast_S_S12288 : (⟨S_, .i32⟩ : BufTy).Contents (Elt F) → (⟨S12288, .i32⟩ : BufTy).Contents (Elt F)) main_c_1
  let main_v14 := (cmpi .slt : (⟨S12288, .i32⟩ : BufTy).Contents (Elt F) → (⟨S12288, .i32⟩ : BufTy).Contents (Elt F) → (⟨S12288, .i1⟩ : BufTy).Contents (Elt F)) main_arg5 main_v13
  let main_c_2 := (constantI S_ 32 50000#32)
  let main_v15 := (broadcastInDim S12288 ![] bcast_S_S12288 : (⟨S_, .i32⟩ : BufTy).Contents (Elt F) → (⟨S12288, .i32⟩ : BufTy).Contents (Elt F)) main_c_2
  let main_v16 := (addi : (⟨S12288, .i32⟩ : BufTy).Contents (Elt F) → (⟨S12288, .i32⟩ : BufTy).Contents (Elt F) → (⟨S12288, .i32⟩ : BufTy).Contents (Elt F)) main_arg5 main_v15
  let main_v17 := (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) main_v14 main_v16 main_arg5
  let main_c_3 := (constantI S_ 32 0#32)
  let main_v18 := (broadcastInDim S12288 ![] bcast_S_S12288 : (⟨S_, .i32⟩ : BufTy).Contents (Elt F) → (⟨S12288, .i32⟩ : BufTy).Contents (Elt F)) main_c_3
  let main_v19 := (id : (⟨S12288, .i32⟩ : BufTy).Contents (Elt F) → (⟨S12288, .i32⟩ : BufTy).Contents (Elt F)) main_v18
  let main_v20 := (broadcastInDim S12288x1 ![0] bcast_S12288_S12288x1_0 : (⟨S12288, .i32⟩ : BufTy).Contents (Elt F) → (⟨S12288x1, .i32⟩ : BufTy).Contents (Elt F)) main_v17
  let main_v21 := (broadcastInDim S12288x1 ![0] bcast_S12288_S12288x1_0 : (⟨S12288, .i32⟩ : BufTy).Contents (Elt F) → (⟨S12288x1, .i32⟩ : BufTy).Contents (Elt F)) main_v19
  let main_v22 := ((fun a b => concatenate S12288x2 1 [⟨S12288x1, a⟩, ⟨S12288x1, b⟩] concatenates_S12288x1_S12288x1_S12288x2_d1) : (⟨S12288x1, .i32⟩ : BufTy).Contents (Elt F) → (⟨S12288x1, .i32⟩ : BufTy).Contents (Elt F) → (⟨S12288x2, .i32⟩ : BufTy).Contents (Elt F)) main_v20 main_v21
  let main_v23 := ((fun x i => Host.gather gather_S50000x1_S12288x2_S12288_n_01_n_n_01_1_11 x i) : (⟨S50000x1, .f32⟩ : BufTy).Contents (Elt F) → (⟨S12288x2, .i32⟩ : BufTy).Contents (Elt F) → (⟨S12288, .f32⟩ : BufTy).Contents (Elt F)) main_arg2 main_v22
  let main_c_4 := (constantI S_ 32 0#32)
  let main_v24 := (broadcastInDim S12288 ![] bcast_S_S12288 : (⟨S_, .i32⟩ : BufTy).Contents (Elt F) → (⟨S12288, .i32⟩ : BufTy).Contents (Elt F)) main_c_4
  let main_v25 := (cmpi .slt : (⟨S12288, .i32⟩ : BufTy).Contents (Elt F) → (⟨S12288, .i32⟩ : BufTy).Contents (Elt F) → (⟨S12288, .i1⟩ : BufTy).Contents (Elt F)) main_arg5 main_v24
  let main_c_5 := (constantI S_ 32 50000#32)
  let main_v26 := (broadcastInDim S12288 ![] bcast_S_S12288 : (⟨S_, .i32⟩ : BufTy).Contents (Elt F) → (⟨S12288, .i32⟩ : BufTy).Contents (Elt F)) main_c_5
  let main_v27 := (addi : (⟨S12288, .i32⟩ : BufTy).Contents (Elt F) → (⟨S12288, .i32⟩ : BufTy).Contents (Elt F) → (⟨S12288, .i32⟩ : BufTy).Contents (Elt F)) main_arg5 main_v26
  let main_v28 := (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) main_v25 main_v27 main_arg5
  let main_c_6 := (constantI S_ 32 0#32)
  let main_v29 := (broadcastInDim S12288 ![] bcast_S_S12288 : (⟨S_, .i32⟩ : BufTy).Contents (Elt F) → (⟨S12288, .i32⟩ : BufTy).Contents (Elt F)) main_c_6
  let main_v30 := (id : (⟨S12288, .i32⟩ : BufTy).Contents (Elt F) → (⟨S12288, .i32⟩ : BufTy).Contents (Elt F)) main_v29
  let main_v31 := (broadcastInDim S12288x1 ![0] bcast_S12288_S12288x1_0 : (⟨S12288, .i32⟩ : BufTy).Contents (Elt F) → (⟨S12288x1, .i32⟩ : BufTy).Contents (Elt F)) main_v28
  let main_v32 := (broadcastInDim S12288x1 ![0] bcast_S12288_S12288x1_0 : (⟨S12288, .i32⟩ : BufTy).Contents (Elt F) → (⟨S12288x1, .i32⟩ : BufTy).Contents (Elt F)) main_v30
  let main_v33 := ((fun a b => concatenate S12288x2 1 [⟨S12288x1, a⟩, ⟨S12288x1, b⟩] concatenates_S12288x1_S12288x1_S12288x2_d1) : (⟨S12288x1, .i32⟩ : BufTy).Contents (Elt F) → (⟨S12288x1, .i32⟩ : BufTy).Contents (Elt F) → (⟨S12288x2, .i32⟩ : BufTy).Contents (Elt F)) main_v31 main_v32
  let main_v34 := ((fun x i => Host.gather gather_S50000x1_S12288x2_S12288_n_01_n_n_01_1_11 x i) : (⟨S50000x1, .f32⟩ : BufTy).Contents (Elt F) → (⟨S12288x2, .i32⟩ : BufTy).Contents (Elt F) → (⟨S12288, .f32⟩ : BufTy).Contents (Elt F)) main_arg3 main_v33
  let main_cst_7 := (constant (F := F) S_ .f32 0x3F666666#32)
  let main_v35 := (broadcastInDim S12288 ![] bcast_S_S12288 : (⟨S_, .f32⟩ : BufTy).Contents (Elt F) → (⟨S12288, .f32⟩ : BufTy).Contents (Elt F)) main_cst_7
  let main_v36 := (mulf : (⟨S12288, .f32⟩ : BufTy).Contents (Elt F) → (⟨S12288, .f32⟩ : BufTy).Contents (Elt F) → (⟨S12288, .f32⟩ : BufTy).Contents (Elt F)) main_v35 main_v23
  let main_cst_8 := (constant (F := F) S_ .f32 0x3DCCCCCD#32)
  let main_v37 := (broadcastInDim S12288 ![] bcast_S_S12288 : (⟨S_, .f32⟩ : BufTy).Contents (Elt F) → (⟨S12288, .f32⟩ : BufTy).Contents (Elt F)) main_cst_8
  let main_v38 := (mulf : (⟨S12288, .f32⟩ : BufTy).Contents (Elt F) → (⟨S12288, .f32⟩ : BufTy).Contents (Elt F) → (⟨S12288, .f32⟩ : BufTy).Contents (Elt F)) main_v37 main_v10
  let main_v39 := (addf : (⟨S12288, .f32⟩ : BufTy).Contents (Elt F) → (⟨S12288, .f32⟩ : BufTy).Contents (Elt F) → (⟨S12288, .f32⟩ : BufTy).Contents (Elt F)) main_v36 main_v38
  let main_v40 := select main_v2 main_v39 main_v23
  let main_cst_9 := (constant (F := F) S_ .f32 0x3F666666#32)
  let main_v41 := (broadcastInDim S12288 ![] bcast_S_S12288 : (⟨S_, .f32⟩ : BufTy).Contents (Elt F) → (⟨S12288, .f32⟩ : BufTy).Contents (Elt F)) main_cst_9
  let main_v42 := (mulf : (⟨S12288, .f32⟩ : BufTy).Contents (Elt F) → (⟨S12288, .f32⟩ : BufTy).Contents (Elt F) → (⟨S12288, .f32⟩ : BufTy).Contents (Elt F)) main_v41 main_v34
  let main_cst_10 := (constant (F := F) S_ .f32 0x3DCCCCCD#32)
  let main_v43 := (broadcastInDim S12288 ![] bcast_S_S12288 : (⟨S_, .f32⟩ : BufTy).Contents (Elt F) → (⟨S12288, .f32⟩ : BufTy).Contents (Elt F)) main_cst_10
  let main_v44 := (mulf : (⟨S12288, .f32⟩ : BufTy).Contents (Elt F) → (⟨S12288, .f32⟩ : BufTy).Contents (Elt F) → (⟨S12288, .f32⟩ : BufTy).Contents (Elt F)) main_v43 main_v12
  let main_v45 := (addf : (⟨S12288, .f32⟩ : BufTy).Contents (Elt F) → (⟨S12288, .f32⟩ : BufTy).Contents (Elt F) → (⟨S12288, .f32⟩ : BufTy).Contents (Elt F)) main_v42 main_v44
  let main_v46 := select main_v2 main_v45 main_v34
  let main_v47 := (mulf : (⟨S12288, .f32⟩ : BufTy).Contents (Elt F) → (⟨S12288, .f32⟩ : BufTy).Contents (Elt F) → (⟨S12288, .f32⟩ : BufTy).Contents (Elt F)) main_v40 main_v40
  let main_cst_11 := (constant (F := F) S_ .f32 0x3F800000#32)
  let main_call2_v0 := id main_cst_11
  let main_call2_v1 := (broadcastInDim S12288 ![] bcast_S_S12288) main_call2_v0
  let main_v48 := select main_v2 main_v47 main_call2_v1
  let main_cst_12 := (constant (F := F) S_ .f32 0x00000000#32)
  let main_v49 := ((fun x v => Host.reduceAdd x v reducesTo_S12288_S_d0 h_S_) : (⟨S12288, .f32⟩ : BufTy).Contents (Elt F) → (⟨S_, .f32⟩ : BufTy).Contents (Elt F) → (⟨S_, .f32⟩ : BufTy).Contents (Elt F)) main_v3 main_cst_12
  let main_v50 := (mulf : (⟨S12288, .f32⟩ : BufTy).Contents (Elt F) → (⟨S12288, .f32⟩ : BufTy).Contents (Elt F) → (⟨S12288, .f32⟩ : BufTy).Contents (Elt F)) main_v46 main_v10
  let main_v51 := (mulf : (⟨S12288, .f32⟩ : BufTy).Contents (Elt F) → (⟨S12288, .f32⟩ : BufTy).Contents (Elt F) → (⟨S12288, .f32⟩ : BufTy).Contents (Elt F)) main_v40 main_v12
  let main_v52 := (subf : (⟨S12288, .f32⟩ : BufTy).Contents (Elt F) → (⟨S12288, .f32⟩ : BufTy).Contents (Elt F) → (⟨S12288, .f32⟩ : BufTy).Contents (Elt F)) main_v50 main_v51
  let main_v53 := (mulf : (⟨S12288, .f32⟩ : BufTy).Contents (Elt F) → (⟨S12288, .f32⟩ : BufTy).Contents (Elt F) → (⟨S12288, .f32⟩ : BufTy).Contents (Elt F)) main_v3 main_v52
  let main_v54 := (Host.divf : (⟨S12288, .f32⟩ : BufTy).Contents (Elt F) → (⟨S12288, .f32⟩ : BufTy).Contents (Elt F) → (⟨S12288, .f32⟩ : BufTy).Contents (Elt F)) main_v53 main_v48
  let main_cst_13 := (constant (F := F) S_ .f32 0x00000000#32)
  let main_v55 := ((fun x v => Host.reduceAdd x v reducesTo_S12288_S_d0 h_S_) : (⟨S12288, .f32⟩ : BufTy).Contents (Elt F) → (⟨S_, .f32⟩ : BufTy).Contents (Elt F) → (⟨S_, .f32⟩ : BufTy).Contents (Elt F)) main_v54 main_cst_13
  let main_v56 := (Host.divf : (⟨S_, .f32⟩ : BufTy).Contents (Elt F) → (⟨S_, .f32⟩ : BufTy).Contents (Elt F) → (⟨S_, .f32⟩ : BufTy).Contents (Elt F)) main_v55 main_v49
  main_v56

set_option maxRecDepth 8192 in
/-- The host lines that lead to the second summand, as one pure term of the two prediction columns. -/
def advTerm (main_arg0 : (⟨S12288x1, .f32⟩ : BufTy).Contents (Elt F)) (main_arg1 : (⟨S12288x1, .f32⟩ : BufTy).Contents (Elt F)) : (⟨S_, .f32⟩ : BufTy).Contents (Elt F) :=
  let main_cst_14 := (constant (F := F) S_ .f32 0x3F800000#32)
  let main_v57 := (broadcastInDim S12288x1 ![] bcast_S_S12288x1 : (⟨S_, .f32⟩ : BufTy).Contents (Elt F) → (⟨S12288x1, .f32⟩ : BufTy).Contents (Elt F)) main_cst_14
  let main_v58 := (subf : (⟨S12288x1, .f32⟩ : BufTy).Contents (Elt F) → (⟨S12288x1, .f32⟩ : BufTy).Contents (Elt F) → (⟨S12288x1, .f32⟩ : BufTy).Contents (Elt F)) main_v57 main_arg0
  let main_v59 := ((fun a b => concatenate S12288x2 1 [⟨S12288x1, a⟩, ⟨S12288x1, b⟩] concatenates_S12288x1_S12288x1_S12288x2_d1) : (⟨S12288x1, .f32⟩ : BufTy).Contents (Elt F) → (⟨S12288x1, .f32⟩ : BufTy).Contents (Elt F) → (⟨S12288x2, .f32⟩ : BufTy).Contents (Elt F)) main_arg0 main_v58
  let main_cst_15 := (constant (F := F) S_ .f32 0x3F800000#32)
  let main_v60 := (broadcastInDim S12288x1 ![] bcast_S_S12288x1 : (⟨S_, .f32⟩ : BufTy).Contents (Elt F) → (⟨S12288x1, .f32⟩ : BufTy).Contents (Elt F)) main_cst_15
  let main_v61 := (subf : (⟨S12288x1, .f32⟩ : BufTy).Contents (Elt F) → (⟨S12288x1, .f32⟩ : BufTy).Contents (Elt F) → (⟨S12288x1, .f32⟩ : BufTy).Contents (Elt F)) main_v60 main_arg1
  let main_v62 := ((fun a b => concatenate S12288x2 1 [⟨S12288x1, a⟩, ⟨S12288x1, b⟩] concatenates_S12288x1_S12288x1_S12288x2_d1) : (⟨S12288x1, .f32⟩ : BufTy).Contents (Elt F) → (⟨S12288x1, .f32⟩ : BufTy).Contents (Elt F) → (⟨S12288x2, .f32⟩ : BufTy).Contents (Elt F)) main_arg1 main_v61
  let main_cst_16 := (constant (F := F) S_ .f32 0x2B8CBCCC#32)
  let main_v63 := (broadcastInDim S12288x2 ![] bcast_S_S12288x2 : (⟨S_, .f32⟩ : BufTy).Contents (Elt F) → (⟨S12288x2, .f32⟩ : BufTy).Contents (Elt F)) main_cst_16
  let main_v64 := (addf : (⟨S12288x2, .f32⟩ : BufTy).Contents (Elt F) → (⟨S12288x2, .f32⟩ : BufTy).Contents (Elt F) → (⟨S12288x2, .f32⟩ : BufTy).Contents (Elt F)) main_v62 main_v63
  let main_v65 := (Host.log : (⟨S12288x2, .f32⟩ : BufTy).Contents (Elt F) → (⟨S12288x2, .f32⟩ : BufTy).Contents (Elt F)) main_v64
  let main_cst_17 := (constant (F := F) S_ .f32 0x00000000#32)
  let main_v66 := (broadcastInDim S12288x2 ![] bcast_S_S12288x2 : (⟨S_, .f32⟩ : BufTy).Contents (Elt F) → (⟨S12288x2, .f32⟩ : BufTy).Contents (Elt F)) main_cst_17
  let main_v67 := (cmpf .une : (⟨S12288x2, .f32⟩ : BufTy).Contents (Elt F) → (⟨S12288x2, .f32⟩ : BufTy).Contents (Elt F) → (⟨S12288x2, .i1⟩ : BufTy).Contents (Elt F)) main_v59 main_v66
  let main_v68 := (cmpf .une : (⟨S12288x2, .f32⟩ : BufTy).Contents (Elt F) → (⟨S12288x2, .f32⟩ : BufTy).Contents (Elt F) → (⟨S12288x2, .i1⟩ : BufTy).Contents (Elt F)) main_v59 main_v59
  let main_v69 := (ori : (⟨S12288x2, .i1⟩ : BufTy).Contents (Elt F) → (⟨S12288x2, .i1⟩ : BufTy).Contents (Elt F) → (⟨S12288x2, .i1⟩ : BufTy).Contents (Elt F)) main_v67 main_v68
  let main_v70 := (Host.log : (⟨S12288x2, .f32⟩ : BufTy).Contents (Elt F) → (⟨S12288x2, .f32⟩ : BufTy).Contents (Elt F)) main_v59
  let main_v71 := (mulf : (⟨S12288x2, .f32⟩ : BufTy).Contents (Elt F) → (⟨S12288x2, .f32⟩ : BufTy).Contents (Elt F) → (⟨S12288x2, .f32⟩ : BufTy).Contents (Elt F)) main_v59 main_v70
  let main_cst_18 := (constant (F := F) S_ .f32 0x00000000#32)
  let main_v72 := (broadcastInDim S12288x2 ![] bcast_S_S12288x2 : (⟨S_, .f32⟩ : BufTy).Contents (Elt F) → (⟨S12288x2, .f32⟩ : BufTy).Contents (Elt F)) main_cst_18
  let main_v73 := select main_v69 main_v71 main_v72
  let main_v74 := (mulf : (⟨S12288x2, .f32⟩ : BufTy).Contents (Elt F) → (⟨S12288x2, .f32⟩ : BufTy).Contents (Elt F) → (⟨S12288x2, .f32⟩ : BufTy).Contents (Elt F)) main_v59 main_v65
  let main_v75 := (subf : (⟨S12288x2, .f32⟩ : BufTy).Contents (Elt F) → (⟨S12288x2, .f32⟩ : BufTy).Contents (Elt F) → (⟨S12288x2, .f32⟩ : BufTy).Contents (Elt F)) main_v73 main_v74
  let main_cst_19 := (constant (F := F) S_ .f32 0x00000000#32)
  let main_v76 := ((fun x v => Host.reduceAdd x v reducesTo_S12288x2_S_d0_1 h_S_) : (⟨S12288x2, .f32⟩ : BufTy).Contents (Elt F) → (⟨S_, .f32⟩ : BufTy).Contents (Elt F) → (⟨S_, .f32⟩ : BufTy).Contents (Elt F)) main_v75 main_cst_19
  let main_cst_20 := (constant (F := F) S_ .f32 0x46400000#32)
  let main_v77 := (Host.divf : (⟨S_, .f32⟩ : BufTy).Contents (Elt F) → (⟨S_, .f32⟩ : BufTy).Contents (Elt F) → (⟨S_, .f32⟩ : BufTy).Contents (Elt F)) main_v76 main_cst_20
  let main_cst_21 := (constant (F := F) S_ .f32 0x3F800000#32)
  let main_v78 := (mulf : (⟨S_, .f32⟩ : BufTy).Contents (Elt F) → (⟨S_, .f32⟩ : BufTy).Contents (Elt F) → (⟨S_, .f32⟩ : BufTy).Contents (Elt F)) main_cst_21 main_v77
  main_v78

set_option maxRecDepth 8192 in
/-- The first term is the core of the two gathered moving averages. -/
theorem natTerm_eq (main_v6_0 : (⟨S12288x1, .f32⟩ : BufTy).Contents (Elt F)) (main_v6_1 : (⟨S12288x1, .f32⟩ : BufTy).Contents (Elt F)) (main_arg2 : (⟨S50000x1, .f32⟩ : BufTy).Contents (Elt F)) (main_arg3 : (⟨S50000x1, .f32⟩ : BufTy).Contents (Elt F)) (main_arg5 : (⟨S12288, .i32⟩ : BufTy).Contents (Elt F)) (main_v2 : (⟨S12288, .i1⟩ : BufTy).Contents (Elt F)) (main_v3 : (⟨S12288, .f32⟩ : BufTy).Contents (Elt F)) :
    natTerm (F := F) main_v6_0 main_v6_1 main_arg2 main_arg3 main_arg5 main_v2 main_v3 = natCore (F := F) main_v6_0 main_v6_1 main_v2 main_v3 (uaTerm (F := F) main_arg2 main_arg5) (upTerm (F := F) main_arg3 main_arg5) := rfl

set_option maxRecDepth 8192 in
set_option maxHeartbeats 52800000 in
/-- Whatever the buffers hold before them, after the host lines that follow the region the result buffer holds the
    sum of the two terms of the buffers they read. -/
theorem tail_after (Wv : Valuation τ sig (Elt Ideal)) :
    StableHlo.after (List.flatten (tail (F := Ideal))) Wv (Proc.devRef .tc main_v79)
      = addf (F := Ideal) (s := S_) (φ := .f32) (natTerm (F := Ideal) (Wv (Proc.devRef .tc main_v6_0)) (Wv (Proc.devRef .tc main_v6_1)) (Wv (Proc.devRef .tc main_arg2)) (Wv (Proc.devRef .tc main_arg3)) (Wv (Proc.devRef .tc main_arg5)) (Wv (Proc.devRef .tc main_v2)) (Wv (Proc.devRef .tc main_v3)))
          (advTerm (F := Ideal) (Wv (Proc.devRef .tc main_arg0)) (Wv (Proc.devRef .tc main_arg1))) := by
  simp only [tail, hostOps1, hostOps1_1, hostOps1_2, hostOps1_3, hostOps1_4, hostOps1_5, hostOps1_6, hostOps1_7, hostOps1_8, List.flatten_cons, List.flatten_nil, List.append_nil, List.cons_append, List.nil_append, List.Forall]
  after_results_simp <;> (unfold natTerm advTerm; rfl)

variable (m : (ℓ : Loc nD τ sig) → Buf (Elt Ideal) ℓ)

/-- A buffer as the host lines after the region find it: the region's arrays as the run left them, every other one
    as at region entry. -/
abbrev W (c : Dev nD) (b : Ref sig .tc) : Buf (Elt Ideal) ((c.tc : Thread nD τ).loc b) :=
  Pipeline.withArrays spec0 c (V0 m c) (fun w => (dats m 0 c).arrAt w cfg0.N) (Proc.devRef .tc b)

/-- The result buffer after the run. -/
theorem tail_eq (c : Dev nD) :
    Pipeline.afterTail₀ cfgs (dats m) 0 (V0 m) tail c main_v79
      = addf (F := Ideal) (s := S_) (φ := .f32) (natTerm (F := Ideal) (W m c main_v6_0) (W m c main_v6_1) (W m c main_arg2) (W m c main_arg3) (W m c main_arg5) (W m c main_v2) (W m c main_v3))
          (advTerm (F := Ideal) (W m c main_arg0) (W m c main_arg1)) :=
  tail_after _

end Cert.KernelIdeal.Val

end
-- ==== Proof.Asm1.lean ====
/-
  What the host lines after the region read: the selection bits and the mask the host prefix computed, the predictions
  and the mask laid out as rows, the region's two output arrays as the run left them, and the argument arrays as
  launched.
-/
import proofs.«141416_j52587579572535_2_alg».proof.Proof.KIVal4

set_option maxRecDepth 16384

noncomputable section

namespace Cert.Proof.Alg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.Spec Idealize.ShloMosaic.StableHlo

/-! ## The kernel's side -/

section KernelSide

open Cert.KernelIdeal Cert.KernelIdeal.Gen Cert.KernelIdeal.Fr Cert.KernelIdeal.Val

variable (m : (ℓ : Loc nD τ sig) → Buf (Elt Ideal) ℓ) (c : Dev nD)

/-- The selection bits the region's host prefix computes: the labels compared with one; -/
theorem V_v2 : (V m c main_v2 : (⟨S12288, .i1⟩ : BufTy).Contents (Elt Ideal))
    = cmpi .eq (m ((c : Thread nD τ).loc main_arg4)) (broadcastInDim S12288 ![] bcast_S_S12288 (constantI S_ 32 1#32)) := by
  show StableHlo.after hostOps0 (fun b => m (c, b)) (Proc.devRef .tc main_v2) = _
  after_results
  all_goals rfl
/-- the mask, their conversion to floats; -/
theorem V_v3 : (V m c main_v3 : (⟨S12288, .f32⟩ : BufTy).Contents (Elt Ideal))
    = uitofp (F := Ideal) .f32 (cmpi .eq (m ((c : Thread nD τ).loc main_arg4)) (broadcastInDim S12288 ![] bcast_S_S12288 (constantI S_ 32 1#32))) := by
  show StableHlo.after hostOps0 (fun b => m (c, b)) (Proc.devRef .tc main_v3) = _
  after_results
  all_goals rfl
/-- the predictions laid out as one row; -/
theorem V_v4 : (V m c main_v4 : (⟨S1x12288, .f32⟩ : BufTy).Contents (Elt Ideal))
    = shapeCast S1x12288 (shapeCast S12288 (m ((c : Thread nD τ).loc main_arg0)) shapeCasts_S12288x1_S12288) shapeCasts_S12288_S1x12288 := by
  show StableHlo.after hostOps0 (fun b => m (c, b)) (Proc.devRef .tc main_v4) = _
  after_results
  all_goals rfl
/-- and the mask laid out as one row. -/
theorem V_v5 : (V m c main_v5 : (⟨S1x12288, .f32⟩ : BufTy).Contents (Elt Ideal))
    = shapeCast S1x12288 (uitofp (F := Ideal) .f32 (cmpi .eq (m ((c : Thread nD τ).loc main_arg4)) (broadcastInDim S12288 ![] bcast_S_S12288 (constantI S_ 32 1#32)))) shapeCasts_S12288_S1x12288 := by
  show StableHlo.after hostOps0 (fun b => m (c, b)) (Proc.devRef .tc main_v5) = _
  after_results
  all_goals rfl

/-- Entry j of the predictions row is prediction j. -/
theorem v4_apply (j : Fin 12288) :
    V m c main_v4 (ix2 (0 : Fin 1) j) = m ((c : Thread nD τ).loc main_arg0) (ix2 j (0 : Fin 1)) := by
  rw [V_v4]
  refine (shapeCast_apply _ shapeCasts_S12288_S1x12288 (ix2 (0 : Fin 1) j) (ix1 j) ?_).trans
    (shapeCast_apply _ shapeCasts_S12288x1_S12288 (ix1 j) (ix2 j (0 : Fin 1)) ?_)
  · rw [Shape.rowMajor_val_two, Shape.rowMajor_val_one]; show j.val = 0 * 12288 + j.val; omega
  · rw [Shape.rowMajor_val_two, Shape.rowMajor_val_one]; show j.val * 1 + 0 = j.val; omega

/-- Entry j of the mask row is the mask at j. -/
theorem v5_apply (j : Fin 12288) : V m c main_v5 (ix2 (0 : Fin 1) j) = V m c main_v3 (ix1 j) := by
  rw [V_v5, V_v3]
  refine shapeCast_apply _ shapeCasts_S12288_S1x12288 (ix2 (0 : Fin 1) j) (ix1 j) ?_
  rw [Shape.rowMajor_val_two, Shape.rowMajor_val_one]; show j.val = 0 * 12288 + j.val; omega

/-- The buffers the host lines after the region read. -/
theorem W_v6_0 : W m c main_v6_0 = G3 (V m c main_arg0) (V m c main_v4) :=
  (Pipeline.withArrays_arr spec0 launch0.win.arr_inj c _ _ 3).trans (final3 m c)
theorem W_v6_1 : W m c main_v6_1 = G4 (V m c main_arg0) (V m c main_v4) (V m c main_v5) :=
  (Pipeline.withArrays_arr spec0 launch0.win.arr_inj c _ _ 4).trans (final4 m c)
theorem W_arg0 : W m c main_arg0 = m ((c : Thread nD τ).loc main_arg0) :=
  (Pipeline.withArrays_arr spec0 launch0.win.arr_inj c _ _ 0).trans
    (((dats m 0 c).arrAt_in 0 rfl _).trans ((A_eq m c 0).trans (V_main_arg0 m c)))
theorem W_arg1 : W m c main_arg1 = m ((c : Thread nD τ).loc main_arg1) :=
  (Pipeline.withArrays_of_ne spec0 c (V0 m c) _ main_arg1 (by decide)).trans (V_main_arg1 m c)
theorem W_arg2 : W m c main_arg2 = m ((c : Thread nD τ).loc main_arg2) :=
  (Pipeline.withArrays_of_ne spec0 c (V0 m c) _ main_arg2 (by decide)).trans (V_main_arg2 m c)
theorem W_arg3 : W m c main_arg3 = m ((c : Thread nD τ).loc main_arg3) :=
  (Pipeline.withArrays_of_ne spec0 c (V0 m c) _ main_arg3 (by decide)).trans (V_main_arg3 m c)
theorem W_arg5 : W m c main_arg5 = m ((c : Thread nD τ).loc main_arg5) :=
  (Pipeline.withArrays_of_ne spec0 c (V0 m c) _ main_arg5 (by decide)).trans (V_main_arg5 m c)
theorem W_v2 : W m c main_v2 = V m c main_v2 :=
  Pipeline.withArrays_of_ne spec0 c (V0 m c) _ main_v2 (by decide)
theorem W_v3 : W m c main_v3 = V m c main_v3 :=
  Pipeline.withArrays_of_ne spec0 c (V0 m c) _ main_v3 (by decide)

end KernelSide

end Cert.Proof.Alg

end
-- ==== Proof.LibPairwiseRows.lean ====
import Mathlib
import Idealize.ShloMosaic.PureOps.Ideal

noncomputable section

namespace Cert.PairwiseHinge

open Idealize.ShloMosaic
open scoped BigOperators

/-- The coercion of a finite real sum is the sum of the coercions. -/
lemma coe_finsum {ι : Type} (t : Finset ι) (f : ι → ℝ) :
    ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- A fixed extended real times non-negative reals: the sum of the products is the product with the sum. -/
lemma sum_const_mul_coe {ι : Type} (t : Finset ι) (c : EReal) (f : ι → ℝ) (hf : ∀ j, 0 ≤ f j) :
    ∑ j ∈ t, c * (f j : EReal) = c * ((∑ j ∈ t, f j : ℝ) : EReal) := by
  classical
  induction t using Finset.induction_on with
  | empty => simp
  | insert a t ha ih =>
    rw [Finset.sum_insert ha, Finset.sum_insert ha, ih, EReal.coe_add,
      EReal.left_distrib_of_nonneg (by exact_mod_cast hf a)
        (by exact_mod_cast Finset.sum_nonneg (fun j _ => hf j))]

/-- A finite sum of extended reals times a non-negative real factor distributes. -/
lemma sum_mul_coe_nonneg {ι : Type} (t : Finset ι) (a : ι → EReal) (c : ℝ) (hc : 0 ≤ c) :
    (∑ i ∈ t, a i) * (c : EReal) = ∑ i ∈ t, a i * (c : EReal) := by
  classical
  induction t using Finset.induction_on with
  | empty => simp
  | insert i t hi ih =>
    rw [Finset.sum_insert hi, Finset.sum_insert hi,
      EReal.right_distrib_of_nonneg_of_ne_top (by exact_mod_cast hc) (EReal.coe_ne_top c), ih]

lemma row_true {ι : Type} [Fintype ι] (t : ι → ℝ) (ht : ∀ j, 0 ≤ t j) (hS : 0 < ∑ j, t j)
    (b : ι → Bool) (x y : EReal) (n : ℝ) (hn : 0 < n) :
    Ideal.div ((1 : EReal) * (x * (((∑ j, t j) / n : ℝ) : EReal)
        - y * (((∑ j, t j * (if b j then (1 : ℝ) else 0)) / n : ℝ) : EReal))) (y * y)
      = (∑ j, (Ideal.div (x - y * (if b j then (1 : EReal) else 0)) (y * y) * (1 : EReal)) * (t j : EReal))
          * ((1 / n : ℝ) : EReal) := by
  have hrm : 0 < (∑ j, t j) / n := div_pos hS hn
  have hin : 0 < 1 / n := by positivity
  induction y using EReal.rec with
  | bot => simp [Ideal.div]
  | top => simp [Ideal.div]
  | coe r =>
    by_cases hr : r = 0
    · subst hr
      simp only [EReal.coe_zero, zero_mul, sub_zero, mul_zero, one_mul, mul_one]
      rw [sum_const_mul_coe _ _ _ ht]
      induction x using EReal.rec with
      | bot =>
        have hd : Ideal.div ⊥ 0 = ⊥ := by simp [Ideal.div]
        rw [EReal.bot_mul_coe_of_pos hrm, hd, EReal.bot_mul_coe_of_pos hS,
          EReal.bot_mul_coe_of_pos hin]
      | top =>
        have hd : Ideal.div ⊤ 0 = ⊤ := by simp [Ideal.div]
        rw [EReal.top_mul_coe_of_pos hrm, hd, EReal.top_mul_coe_of_pos hS,
          EReal.top_mul_coe_of_pos hin]
      | coe x' =>
        rw [← EReal.coe_mul]
        by_cases hx : 0 < x'
        · have h1 : 0 < x' * ((∑ j, t j) / n) := mul_pos hx hrm
          rw [Ideal.div, if_pos rfl, if_pos (EReal.coe_pos.mpr h1), Ideal.div, if_pos rfl,
            if_pos (EReal.coe_pos.mpr hx), EReal.top_mul_coe_of_pos hS, EReal.top_mul_coe_of_pos hin]
        · have h1 : ¬ 0 < x' * ((∑ j, t j) / n) := by
            have : x' * ((∑ j, t j) / n) ≤ 0 := mul_nonpos_of_nonpos_of_nonneg (not_lt.mp hx) hrm.le
            exact not_lt.mpr this
          rw [Ideal.div, if_pos rfl, if_neg (fun h => h1 (EReal.coe_pos.mp h)), Ideal.div, if_pos rfl,
            if_neg (fun h => hx (EReal.coe_pos.mp h)), EReal.bot_mul_coe_of_pos hS,
            EReal.bot_mul_coe_of_pos hin]
    · have hrr : r * r ≠ 0 := mul_ne_zero hr hr
      have hrrp : 0 < 1 / (r * r) := one_div_pos.mpr (mul_self_pos.mpr hr)
      rw [← EReal.coe_mul r r]
      simp only [Ideal.div_coe hrr, one_mul, mul_one]
      induction x using EReal.rec with
      | bot =>
        simp only [EReal.bot_sub, EReal.bot_mul_coe_of_pos hrm, EReal.bot_mul_coe_of_pos hrrp]
        rw [sum_const_mul_coe _ _ _ ht, EReal.bot_mul_coe_of_pos hS, EReal.bot_mul_coe_of_pos hin]
      | top =>
        have h2 : ∀ j, (⊤ : EReal) - (r : EReal) * (if b j then (1 : EReal) else 0) = ⊤ := by
          intro j; split_ifs <;> simp
        simp only [h2, EReal.top_mul_coe_of_pos hrm, EReal.top_sub_coe, ← EReal.coe_mul,
          EReal.top_mul_coe_of_pos hrrp]
        rw [sum_const_mul_coe _ _ _ ht, EReal.top_mul_coe_of_pos hS, EReal.top_mul_coe_of_pos hin]
      | coe x' =>
        have h3 : ∀ j, (if b j then (1 : EReal) else 0) = ((if b j then (1 : ℝ) else 0 : ℝ) : EReal) := by
          intro j; split_ifs <;> simp
        simp only [h3, ← EReal.coe_mul, ← EReal.coe_sub, ← coe_finsum]
        congr 1
        have h4 : ∑ j, (x' - r * (if b j then (1 : ℝ) else 0)) * (1 / (r * r)) * t j
            = (x' * ∑ j, t j - r * ∑ j, t j * (if b j then (1 : ℝ) else 0)) * (1 / (r * r)) := by
          rw [Finset.mul_sum, Finset.mul_sum, ← Finset.sum_sub_distrib, Finset.sum_mul]
          apply Finset.sum_congr rfl
          intro j _
          ring
        rw [h4]
        ring

/-- Dividing by the number of positives after scaling by 1/n, against dividing by that number
times n: equal, provided the dividend vanishes when there are no positives. -/
lemma div_scale (T : EReal) (q n : ℝ) (hq : 0 ≤ q) (hn : 0 < n) (h0 : q = 0 → T = 0) :
    Ideal.div (T * ((1 / n : ℝ) : EReal)) (q : EReal) = Ideal.div T ((q : EReal) * (n : EReal)) := by
  by_cases hq0 : q = 0
  · rw [h0 hq0, hq0]
    simp [Ideal.div]
  · have hqn : q * n ≠ 0 := mul_ne_zero hq0 hn.ne'
    rw [← EReal.coe_mul, Ideal.div_coe hq0, Ideal.div_coe hqn, mul_assoc, ← EReal.coe_mul]
    congr 2
    field_simp

/-- The weighted pairwise-hinge loss, row-reduced first against summed over all pairs.

The real s i j is the non-negative hinge term of the pair (i, j), positive on the diagonal;
b marks the positive rows and the mask is 1 or 0 as an extended real; rm i and prm i are the row mean
and the masked row mean of s; x and y are arbitrary extended reals per row (the two moving
averages) and the denominator of row i is y i squared on a positive row, 1 elsewhere.  Reducing each
row first and dividing by the number of positives is the same extended real as summing the weighted
terms over all pairs and dividing by the number of positives times n, every division being Ideal.div. -/
theorem loss_rows_eq_loss_pairs {ι : Type} [Fintype ι] [DecidableEq ι]
    (s : ι → ι → ℝ) (hs : ∀ i j, 0 ≤ s i j) (hd : ∀ i, 0 < s i i)
    (b : ι → Bool) (x y : ι → EReal) (n : ℝ) (hn : 0 < n)
    (rm prm : ι → ℝ)
    (hrm : ∀ i, rm i = (∑ j, s i j) / n)
    (hprm : ∀ i, prm i = (∑ j, s i j * (if b j then (1 : ℝ) else 0)) / n) :
    Ideal.div
        (∑ i, Ideal.div ((if b i then (1 : EReal) else 0) * (x i * (rm i : EReal) - y i * (prm i : EReal)))
                (if b i then y i * y i else 1))
        (∑ i, (if b i then (1 : EReal) else 0))
      = Ideal.div
        (∑ i, ∑ j, (Ideal.div (x i - y i * (if b j then (1 : EReal) else 0)) (if b i then y i * y i else 1)
                      * (if b i then (1 : EReal) else 0)) * (s i j : EReal))
        ((∑ i, (if b i then (1 : EReal) else 0)) * (n : EReal)) := by
  classical
  have hin : (0 : ℝ) ≤ 1 / n := by positivity
  have hS : ∀ i, 0 < ∑ j, s i j := fun i =>
    lt_of_lt_of_le (hd i) (Finset.single_le_sum (fun j _ => hs i j) (Finset.mem_univ i))
  -- each row, reduced first, is the row of pairs scaled by 1/n
  have hrow : ∀ i, Ideal.div ((if b i then (1 : EReal) else 0) * (x i * (rm i : EReal) - y i * (prm i : EReal)))
                (if b i then y i * y i else 1)
      = (∑ j, (Ideal.div (x i - y i * (if b j then (1 : EReal) else 0)) (if b i then y i * y i else 1)
                      * (if b i then (1 : EReal) else 0)) * (s i j : EReal)) * ((1 / n : ℝ) : EReal) := by
    intro i
    by_cases hb : b i = true
    · simp only [hb, if_true]
      rw [hrm i, hprm i]
      exact row_true (s i) (hs i) (hS i) b (x i) (y i) n hn
    · simp [hb, Ideal.div]
  -- the number of positives is a non-negative real
  have hP : (∑ i, (if b i then (1 : EReal) else 0))
      = ((∑ i, (if b i then (1 : ℝ) else 0) : ℝ) : EReal) := by
    rw [coe_finsum]
    apply Finset.sum_congr rfl
    intro i _
    split_ifs <;> simp
  have hq : (0 : ℝ) ≤ ∑ i, (if b i then (1 : ℝ) else 0) :=
    Finset.sum_nonneg (fun i _ => by split_ifs <;> norm_num)
  rw [Finset.sum_congr rfl (fun i _ => hrow i), ← sum_mul_coe_nonneg _ _ _ hin, hP]
  refine div_scale _ _ n hq hn ?_
  intro h0
  have hb : ∀ i, (if b i then (1 : ℝ) else 0) = 0 := by
    intro i
    exact (Finset.sum_eq_zero_iff_of_nonneg (fun i _ => by split_ifs <;> norm_num)).mp h0 i
      (Finset.mem_univ i)
  apply Finset.sum_eq_zero
  intro i _
  apply Finset.sum_eq_zero
  intro j _
  have hbi : ¬ b i = true := by
    intro h
    have := hb i
    rw [if_pos h] at this
    exact one_ne_zero this
  simp [hbi]

end Cert.PairwiseHinge

end
-- ==== Proof.Bridge.lean ====
import proofs.«141416_j52587579572535_2_alg».proof.Proof.Spec
import proofs.«141416_j52587579572535_2_alg».proof.Proof.LibPairwiseRows

noncomputable section

namespace Cert.Bridge

open Idealize.ShloMosaic Cert.Spec
open scoped BigOperators

/-- The three float literals the two programs share, as their patterns: zero, one and 12288. -/
abbrev zero : EReal := Ideal.ofBits .f32 0x00000000#32
abbrev one : EReal := Ideal.ofBits .f32 0x3F800000#32
abbrev nn : EReal := Ideal.ofBits .f32 0x46400000#32

variable {ι : Type} [Fintype ι] [DecidableEq ι]
variable (y pm : ι → EReal) (sel : ι → Bool) (ua up : ι → EReal) (c9 c1 : EReal)

/-! The loss with every row reduced first: row sums of the squared hinge (grouped as (1 - a) + b) and of its masked
    version, their means, the two moving averages on the selected rows, the squared denominator there, and the
    quotient of the sum over rows by the number of selected rows. -/
def rowK (i : ι) : EReal := ∑ j, hE (y i) (y j)
def rowPK (i : ι) : EReal := ∑ j, hE (y i) (y j) * pm j
def rmK (i : ι) : EReal := Ideal.div (rowK y i) nn
def prmK (i : ι) : EReal := Ideal.div (rowPK y pm i) nn
def yK (i : ι) : EReal := if sel i then c9 * ua i + c1 * rmK y i else ua i
def xK (i : ι) : EReal := if sel i then c9 * up i + c1 * prmK y pm i else up i
def dK (i : ι) : EReal := if sel i then yK y sel ua c9 c1 i * yK y sel ua c9 c1 i else one
def natK : EReal :=
  Ideal.div (zero + ∑ i, Ideal.div (pm i * (xK y pm sel up c9 c1 i * rmK y i - yK y sel ua c9 c1 i * prmK y pm i)) (dK y sel ua c9 c1 i))
    (zero + ∑ i, pm i)

/-! The loss summed over all pairs: the same quantities with the hinge grouped as 1 - (a - b) and every sum started
    from the zero literal, the weight of the pair (i, j) divided by row i's denominator and masked by row i, and the
    quotient of the sum over all pairs by the number of selected rows times 12288. -/
def rowR (i : ι) : EReal := zero + ∑ j, hR (y i) (y j)
def rowPR (i : ι) : EReal := zero + ∑ j, hR (y i) (y j) * pm j
def rmR (i : ι) : EReal := Ideal.div (rowR y i) nn
def prmR (i : ι) : EReal := Ideal.div (rowPR y pm i) nn
def yR (i : ι) : EReal := if sel i then c9 * ua i + c1 * rmR y i else ua i
def xR (i : ι) : EReal := if sel i then c9 * up i + c1 * prmR y pm i else up i
def dR (i : ι) : EReal := if sel i then yR y sel ua c9 c1 i * yR y sel ua c9 c1 i else one
def natR : EReal :=
  Ideal.div (zero + ∑ i, ∑ j, (Ideal.div (xR y pm sel up c9 c1 i - yR y sel ua c9 c1 i * pm j) (dR y sel ua c9 c1 i) * pm i) * hR (y i) (y j))
    ((zero + ∑ i, pm i) * nn)

/-- The zero literal is the extended real zero. -/
theorem zero_eq : (zero : EReal) = 0 := by
  unfold zero
  rw [ofBits_zero_coe, EReal.coe_zero]

/-- The literal of one is the extended real one. -/
theorem one_eq : (one : EReal) = 1 := by
  unfold one
  rw [ofBits_one, EReal.coe_one]

/-- The literal 12288 is the coerced real 12288. -/
theorem nn_eq : (nn : EReal) = ((12288 : ℝ) : EReal) := by
  unfold nn
  rw [ofBits_12288]

/-- On real rows the row sum of the hinge, in the first grouping, is the coerced real row sum, -/
theorem rowK_eq (f : ι → ℝ) (hf : ∀ i, y i = (f i : EReal)) (i : ι) :
    rowK y i = ((∑ j, sqh (f i) (f j) : ℝ) : EReal) := by
  unfold rowK
  rw [Spec.coe_sum]
  apply Finset.sum_congr rfl
  intro j _
  rw [hf i, hf j, hE_coe]

/-- and so it is in the second grouping, started from the zero literal. -/
theorem rowR_eq (f : ι → ℝ) (hf : ∀ i, y i = (f i : EReal)) (i : ι) :
    rowR y i = ((∑ j, sqh (f i) (f j) : ℝ) : EReal) := by
  unfold rowR
  rw [zero_eq, zero_add, Spec.coe_sum]
  apply Finset.sum_congr rfl
  intro j _
  rw [hf i, hf j, hR_coe]

/-- The masked row sums likewise, the mask being the indicator of the selected rows. -/
theorem rowPK_eq (f : ι → ℝ) (hf : ∀ i, y i = (f i : EReal))
    (hpm : ∀ i, pm i = if sel i then (1 : EReal) else 0) (i : ι) :
    rowPK y pm i = ((∑ j, sqh (f i) (f j) * (if sel j then (1 : ℝ) else 0) : ℝ) : EReal) := by
  unfold rowPK
  rw [Spec.coe_sum]
  apply Finset.sum_congr rfl
  intro j _
  rw [hf i, hf j, hE_coe, hpm j, coe_mul_mask]

theorem rowPR_eq (f : ι → ℝ) (hf : ∀ i, y i = (f i : EReal))
    (hpm : ∀ i, pm i = if sel i then (1 : EReal) else 0) (i : ι) :
    rowPR y pm i = ((∑ j, sqh (f i) (f j) * (if sel j then (1 : ℝ) else 0) : ℝ) : EReal) := by
  unfold rowPR
  rw [zero_eq, zero_add, Spec.coe_sum]
  apply Finset.sum_congr rfl
  intro j _
  rw [hf i, hf j, hR_coe, hpm j, coe_mul_mask]

/-- A coerced real divided by the literal 12288 is the coerced quotient. -/
theorem div_nn (a : ℝ) : Ideal.div (a : EReal) nn = ((a / 12288 : ℝ) : EReal) := by
  rw [nn_eq, Ideal.div_coe (by norm_num), ← EReal.coe_mul, mul_one_div]

theorem rmK_eq (f : ι → ℝ) (hf : ∀ i, y i = (f i : EReal)) (i : ι) :
    rmK y i = (((∑ j, sqh (f i) (f j)) / 12288 : ℝ) : EReal) := by
  unfold rmK
  rw [rowK_eq y f hf, div_nn]

theorem rmR_eq (f : ι → ℝ) (hf : ∀ i, y i = (f i : EReal)) (i : ι) :
    rmR y i = (((∑ j, sqh (f i) (f j)) / 12288 : ℝ) : EReal) := by
  unfold rmR
  rw [rowR_eq y f hf, div_nn]

theorem prmK_eq (f : ι → ℝ) (hf : ∀ i, y i = (f i : EReal))
    (hpm : ∀ i, pm i = if sel i then (1 : EReal) else 0) (i : ι) :
    prmK y pm i = (((∑ j, sqh (f i) (f j) * (if sel j then (1 : ℝ) else 0)) / 12288 : ℝ) : EReal) := by
  unfold prmK
  rw [rowPK_eq y pm sel f hf hpm, div_nn]

theorem prmR_eq (f : ι → ℝ) (hf : ∀ i, y i = (f i : EReal))
    (hpm : ∀ i, pm i = if sel i then (1 : EReal) else 0) (i : ι) :
    prmR y pm i = (((∑ j, sqh (f i) (f j) * (if sel j then (1 : ℝ) else 0)) / 12288 : ℝ) : EReal) := by
  unfold prmR
  rw [rowPR_eq y pm sel f hf hpm, div_nn]

/-- Hence the two moving averages and the denominator agree between the two forms, row by row. -/
theorem yR_eq_yK (f : ι → ℝ) (hf : ∀ i, y i = (f i : EReal)) (i : ι) :
    yR y sel ua c9 c1 i = yK y sel ua c9 c1 i := by
  unfold yR yK
  rw [rmR_eq y f hf, rmK_eq y f hf]

theorem xR_eq_xK (f : ι → ℝ) (hf : ∀ i, y i = (f i : EReal))
    (hpm : ∀ i, pm i = if sel i then (1 : EReal) else 0) (i : ι) :
    xR y pm sel up c9 c1 i = xK y pm sel up c9 c1 i := by
  unfold xR xK
  rw [prmR_eq y pm sel f hf hpm, prmK_eq y pm sel f hf hpm]

theorem dK_eq (i : ι) :
    dK y sel ua c9 c1 i = if sel i then yK y sel ua c9 c1 i * yK y sel ua c9 c1 i else 1 := by
  unfold dK
  rw [one_eq]

theorem dR_eq (f : ι → ℝ) (hf : ∀ i, y i = (f i : EReal)) (i : ι) :
    dR y sel ua c9 c1 i = if sel i then yK y sel ua c9 c1 i * yK y sel ua c9 c1 i else 1 := by
  unfold dR
  rw [one_eq, yR_eq_yK y sel ua c9 c1 f hf]

/-- When every y is a real and the mask is the indicator of the selected rows, the two losses are one extended real. -/
theorem natK_eq_natR (hy : ∀ i, ∃ r : ℝ, y i = (r : EReal)) (hpm : ∀ i, pm i = if sel i then (1 : EReal) else 0) :
    natK y pm sel ua up c9 c1 = natR y pm sel ua up c9 c1 := by
  choose f hf using hy
  have key := Cert.PairwiseHinge.loss_rows_eq_loss_pairs (fun i j => sqh (f i) (f j))
    (fun i j => sqh_nonneg _ _) (fun i => sqh_self_pos _) sel
    (xK y pm sel up c9 c1) (yK y sel ua c9 c1) 12288 (by norm_num)
    (fun i => (∑ j, sqh (f i) (f j)) / 12288)
    (fun i => (∑ j, sqh (f i) (f j) * (if sel j then (1 : ℝ) else 0)) / 12288)
    (fun i => rfl) (fun i => rfl)
  have hK : natK y pm sel ua up c9 c1 = Ideal.div
      (∑ i, Ideal.div ((if sel i then (1 : EReal) else 0) * (xK y pm sel up c9 c1 i
          * (((∑ j, sqh (f i) (f j)) / 12288 : ℝ) : EReal)
          - yK y sel ua c9 c1 i
            * (((∑ j, sqh (f i) (f j) * (if sel j then (1 : ℝ) else 0)) / 12288 : ℝ) : EReal)))
        (if sel i then yK y sel ua c9 c1 i * yK y sel ua c9 c1 i else 1))
      (∑ i, (if sel i then (1 : EReal) else 0)) := by
    unfold natK
    rw [zero_eq, zero_add, zero_add]
    congr 1
    · apply Finset.sum_congr rfl
      intro i _
      rw [hpm i, rmK_eq y f hf, prmK_eq y pm sel f hf hpm, dK_eq]
    · apply Finset.sum_congr rfl
      intro i _
      exact hpm i
  have hR' : natR y pm sel ua up c9 c1 = Ideal.div
      (∑ i, ∑ j, (Ideal.div (xK y pm sel up c9 c1 i - yK y sel ua c9 c1 i * (if sel j then (1 : EReal) else 0))
            (if sel i then yK y sel ua c9 c1 i * yK y sel ua c9 c1 i else 1)
          * (if sel i then (1 : EReal) else 0)) * ((sqh (f i) (f j) : ℝ) : EReal))
      ((∑ i, (if sel i then (1 : EReal) else 0)) * ((12288 : ℝ) : EReal)) := by
    unfold natR
    rw [zero_eq, zero_add, zero_add, nn_eq]
    congr 1
    · apply Finset.sum_congr rfl
      intro i _
      apply Finset.sum_congr rfl
      intro j _
      rw [xR_eq_xK y pm sel up c9 c1 f hf hpm, yR_eq_yK y sel ua c9 c1 f hf, dR_eq y sel ua c9 c1 f hf,
        hpm i, hpm j, hf i, hf j, hR_coe]
    · congr 1
      apply Finset.sum_congr rfl
      intro i _
      exact hpm i
  rw [hK, hR']
  exact key

end Cert.Bridge

end
-- ==== Proof.KIVal5.lean ====
/-
  The first summand read at its one index. Stage by stage the host lines after the region compute, row by row, the
  row means, the two updated moving averages, the denominator and the row's contribution, then the sum of the
  contributions over the number of selected rows; when the region's two output arrays hold the row sums of the squared
  hinge and of its masked version, that is the rows-first loss formula.
-/
import proofs.«141416_j52587579572535_2_alg».proof.Proof.KIVal4
import proofs.«141416_j52587579572535_2_alg».proof.Proof.Bridge

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Idealize.ShloMosaic.ValueIdx Cert.Spec

/-- The row means: the first output array as a vector, over 12288. -/
def coreRm (main_v6_0 : (⟨S12288x1, .f32⟩ : BufTy).Contents (Elt F)) : (⟨S12288, .f32⟩ : BufTy).Contents (Elt F) :=
  let main_v7 := shapeCast S12288 main_v6_0 shapeCasts_S12288x1_S12288
  let main_cst := (constant (F := F) S_ .f32 0x46400000#32)
  let main_v9 := (broadcastInDim S12288 ![] bcast_S_S12288 : (⟨S_, .f32⟩ : BufTy).Contents (Elt F) → (⟨S12288, .f32⟩ : BufTy).Contents (Elt F)) main_cst
  let main_v10 := (Host.divf : (⟨S12288, .f32⟩ : BufTy).Contents (Elt F) → (⟨S12288, .f32⟩ : BufTy).Contents (Elt F) → (⟨S12288, .f32⟩ : BufTy).Contents (Elt F)) main_v7 main_v9
  main_v10

/-- The masked row means: the second output array as a vector, over 12288. -/
def corePrm (main_v6_1 : (⟨S12288x1, .f32⟩ : BufTy).Contents (Elt F)) : (⟨S12288, .f32⟩ : BufTy).Contents (Elt F) :=
  let main_v8 := shapeCast S12288 main_v6_1 shapeCasts_S12288x1_S12288
  let main_cst_0 := (constant (F := F) S_ .f32 0x46400000#32)
  let main_v11 := (broadcastInDim S12288 ![] bcast_S_S12288 : (⟨S_, .f32⟩ : BufTy).Contents (Elt F) → (⟨S12288, .f32⟩ : BufTy).Contents (Elt F)) main_cst_0
  let main_v12 := (Host.divf : (⟨S12288, .f32⟩ : BufTy).Contents (Elt F) → (⟨S12288, .f32⟩ : BufTy).Contents (Elt F) → (⟨S12288, .f32⟩ : BufTy).Contents (Elt F)) main_v8 main_v11
  main_v12

/-- The first moving average after the update: on a selected row 0.9 times the gathered value plus 0.1 times the row mean, elsewhere the gathered value. -/
def coreY (main_v2 : (⟨S12288, .i1⟩ : BufTy).Contents (Elt F)) (main_v10 : (⟨S12288, .f32⟩ : BufTy).Contents (Elt F)) (main_v23 : (⟨S12288, .f32⟩ : BufTy).Contents (Elt F)) : (⟨S12288, .f32⟩ : BufTy).Contents (Elt F) :=
  let main_cst_7 := (constant (F := F) S_ .f32 0x3F666666#32)
  let main_v35 := (broadcastInDim S12288 ![] bcast_S_S12288 : (⟨S_, .f32⟩ : BufTy).Contents (Elt F) → (⟨S12288, .f32⟩ : BufTy).Contents (Elt F)) main_cst_7
  let main_v36 := (mulf : (⟨S12288, .f32⟩ : BufTy).Contents (Elt F) → (⟨S12288, .f32⟩ : BufTy).Contents (Elt F) → (⟨S12288, .f32⟩ : BufTy).Contents (Elt F)) main_v35 main_v23
  let main_cst_8 := (constant (F := F) S_ .f32 0x3DCCCCCD#32)
  let main_v37 := (broadcastInDim S12288 ![] bcast_S_S12288 : (⟨S_, .f32⟩ : BufTy).Contents (Elt F) → (⟨S12288, .f32⟩ : BufTy).Contents (Elt F)) main_cst_8
  let main_v38 := (mulf : (⟨S12288, .f32⟩ : BufTy).Contents (Elt F) → (⟨S12288, .f32⟩ : BufTy).Contents (Elt F) → (⟨S12288, .f32⟩ : BufTy).Contents (Elt F)) main_v37 main_v10
  let main_v39 := (addf : (⟨S12288, .f32⟩ : BufTy).Contents (Elt F) → (⟨S12288, .f32⟩ : BufTy).Contents (Elt F) → (⟨S12288, .f32⟩ : BufTy).Contents (Elt F)) main_v36 main_v38
  let main_v40 := select main_v2 main_v39 main_v23
  main_v40

/-- The second moving average after the update, with the masked row mean. -/
def coreX (main_v2 : (⟨S12288, .i1⟩ : BufTy).Contents (Elt F)) (main_v12 : (⟨S12288, .f32⟩ : BufTy).Contents (Elt F)) (main_v34 : (⟨S12288, .f32⟩ : BufTy).Contents (Elt F)) : (⟨S12288, .f32⟩ : BufTy).Contents (Elt F) :=
  let main_cst_9 := (constant (F := F) S_ .f32 0x3F666666#32)
  let main_v41 := (broadcastInDim S12288 ![] bcast_S_S12288 : (⟨S_, .f32⟩ : BufTy).Contents (Elt F) → (⟨S12288, .f32⟩ : BufTy).Contents (Elt F)) main_cst_9
  let main_v42 := (mulf : (⟨S12288, .f32⟩ : BufTy).Contents (Elt F) → (⟨S12288, .f32⟩ : BufTy).Contents (Elt F) → (⟨S12288, .f32⟩ : BufTy).Contents (Elt F)) main_v41 main_v34
  let main_cst_10 := (constant (F := F) S_ .f32 0x3DCCCCCD#32)
  let main_v43 := (broadcastInDim S12288 ![] bcast_S_S12288 : (⟨S_, .f32⟩ : BufTy).Contents (Elt F) → (⟨S12288, .f32⟩ : BufTy).Contents (Elt F)) main_cst_10
  let main_v44 := (mulf : (⟨S12288, .f32⟩ : BufTy).Contents (Elt F) → (⟨S12288, .f32⟩ : BufTy).Contents (Elt F) → (⟨S12288, .f32⟩ : BufTy).Contents (Elt F)) main_v43 main_v12
  let main_v45 := (addf : (⟨S12288, .f32⟩ : BufTy).Contents (Elt F) → (⟨S12288, .f32⟩ : BufTy).Contents (Elt F) → (⟨S12288, .f32⟩ : BufTy).Contents (Elt F)) main_v42 main_v44
  let main_v46 := select main_v2 main_v45 main_v34
  main_v46

/-- The denominator: the square of the updated first average on a selected row, one elsewhere. -/
def coreD (main_v2 : (⟨S12288, .i1⟩ : BufTy).Contents (Elt F)) (main_v40 : (⟨S12288, .f32⟩ : BufTy).Contents (Elt F)) : (⟨S12288, .f32⟩ : BufTy).Contents (Elt F) :=
  let main_v47 := (mulf : (⟨S12288, .f32⟩ : BufTy).Contents (Elt F) → (⟨S12288, .f32⟩ : BufTy).Contents (Elt F) → (⟨S12288, .f32⟩ : BufTy).Contents (Elt F)) main_v40 main_v40
  let main_cst_11 := (constant (F := F) S_ .f32 0x3F800000#32)
  let main_call2_v0 := id main_cst_11
  let main_call2_v1 := (broadcastInDim S12288 ![] bcast_S_S12288) main_call2_v0
  let main_v48 := select main_v2 main_v47 main_call2_v1
  main_v48

/-- Each row's contribution: the mask times (second average times row mean minus first average times masked row mean), over the denominator. -/
def coreRow (main_v3 : (⟨S12288, .f32⟩ : BufTy).Contents (Elt F)) (main_v10 : (⟨S12288, .f32⟩ : BufTy).Contents (Elt F)) (main_v12 : (⟨S12288, .f32⟩ : BufTy).Contents (Elt F)) (main_v40 : (⟨S12288, .f32⟩ : BufTy).Contents (Elt F)) (main_v46 : (⟨S12288, .f32⟩ : BufTy).Contents (Elt F)) (main_v48 : (⟨S12288, .f32⟩ : BufTy).Contents (Elt F)) : (⟨S12288, .f32⟩ : BufTy).Contents (Elt F) :=
  let main_v50 := (mulf : (⟨S12288, .f32⟩ : BufTy).Contents (Elt F) → (⟨S12288, .f32⟩ : BufTy).Contents (Elt F) → (⟨S12288, .f32⟩ : BufTy).Contents (Elt F)) main_v46 main_v10
  let main_v51 := (mulf : (⟨S12288, .f32⟩ : BufTy).Contents (Elt F) → (⟨S12288, .f32⟩ : BufTy).Contents (Elt F) → (⟨S12288, .f32⟩ : BufTy).Contents (Elt F)) main_v40 main_v12
  let main_v52 := (subf : (⟨S12288, .f32⟩ : BufTy).Contents (Elt F) → (⟨S12288, .f32⟩ : BufTy).Contents (Elt F) → (⟨S12288, .f32⟩ : BufTy).Contents (Elt F)) main_v50 main_v51
  let main_v53 := (mulf : (⟨S12288, .f32⟩ : BufTy).Contents (Elt F) → (⟨S12288, .f32⟩ : BufTy).Contents (Elt F) → (⟨S12288, .f32⟩ : BufTy).Contents (Elt F)) main_v3 main_v52
  let main_v54 := (Host.divf : (⟨S12288, .f32⟩ : BufTy).Contents (Elt F) → (⟨S12288, .f32⟩ : BufTy).Contents (Elt F) → (⟨S12288, .f32⟩ : BufTy).Contents (Elt F)) main_v53 main_v48
  main_v54

/-- The number of selected rows: the sum of the mask from the zero literal. -/
def coreCount (main_v3 : (⟨S12288, .f32⟩ : BufTy).Contents (Elt F)) : (⟨S_, .f32⟩ : BufTy).Contents (Elt F) :=
  let main_cst_12 := (constant (F := F) S_ .f32 0x00000000#32)
  let main_v49 := ((fun x v => Host.reduceAdd x v reducesTo_S12288_S_d0 h_S_) : (⟨S12288, .f32⟩ : BufTy).Contents (Elt F) → (⟨S_, .f32⟩ : BufTy).Contents (Elt F) → (⟨S_, .f32⟩ : BufTy).Contents (Elt F)) main_v3 main_cst_12
  main_v49

/-- The sum of the rows' contributions from the zero literal, over the number of selected rows. -/
def coreQuot (main_v54 : (⟨S12288, .f32⟩ : BufTy).Contents (Elt F)) (main_v49 : (⟨S_, .f32⟩ : BufTy).Contents (Elt F)) : (⟨S_, .f32⟩ : BufTy).Contents (Elt F) :=
  let main_cst_13 := (constant (F := F) S_ .f32 0x00000000#32)
  let main_v55 := ((fun x v => Host.reduceAdd x v reducesTo_S12288_S_d0 h_S_) : (⟨S12288, .f32⟩ : BufTy).Contents (Elt F) → (⟨S_, .f32⟩ : BufTy).Contents (Elt F) → (⟨S_, .f32⟩ : BufTy).Contents (Elt F)) main_v54 main_cst_13
  let main_v56 := (Host.divf : (⟨S_, .f32⟩ : BufTy).Contents (Elt F) → (⟨S_, .f32⟩ : BufTy).Contents (Elt F) → (⟨S_, .f32⟩ : BufTy).Contents (Elt F)) main_v55 main_v49
  main_v56

set_option maxRecDepth 8192 in
/-- The core is the quotient of the stages. -/
theorem natCore_eq (main_v6_0 : (⟨S12288x1, .f32⟩ : BufTy).Contents (Elt F)) (main_v6_1 : (⟨S12288x1, .f32⟩ : BufTy).Contents (Elt F)) (main_v2 : (⟨S12288, .i1⟩ : BufTy).Contents (Elt F)) (main_v3 : (⟨S12288, .f32⟩ : BufTy).Contents (Elt F)) (main_v23 : (⟨S12288, .f32⟩ : BufTy).Contents (Elt F)) (main_v34 : (⟨S12288, .f32⟩ : BufTy).Contents (Elt F)) :
    natCore (F := F) main_v6_0 main_v6_1 main_v2 main_v3 main_v23 main_v34
      = coreQuot (F := F) (coreRow (F := F) main_v3 (coreRm (F := F) main_v6_0) (corePrm (F := F) main_v6_1)
            (coreY (F := F) main_v2 (coreRm (F := F) main_v6_0) main_v23) (coreX (F := F) main_v2 (corePrm (F := F) main_v6_1) main_v34)
            (coreD (F := F) main_v2 (coreY (F := F) main_v2 (coreRm (F := F) main_v6_0) main_v23)))
          (coreCount (F := F) main_v3) := rfl

/-- Row i is selected when the selection bit is one. -/
def selK (v2 : (⟨S12288, .i1⟩ : BufTy).Contents (Elt Ideal)) (i : Fin 12288) : Bool := decide (v2 (ix1 i) = 1#1)

/-- A rank-1 index set is its coordinate range, so a sum over it is the sum over the coordinate. -/
def idxEquivK {n : Nat} : (⟨1, ![n]⟩ : Shape).Idx ≃ Fin n where
  toFun i := i 0
  invFun a := ix1 a
  left_inv i := (eq_ix1 i).symm
  right_inv _ := rfl
theorem sum_idxK {M : Type*} [AddCommMonoid M] {n : Nat} (f : (⟨1, ![n]⟩ : Shape).Idx → M) :
    ∑ i, f i = ∑ a : Fin n, f (ix1 a) := by
  rw [← Equiv.sum_comp (idxEquivK (n := n)).symm f]
  rfl

/-- The column array read as a vector. -/
theorem cast_at (o : (⟨S12288x1, .f32⟩ : BufTy).Contents (Elt Ideal)) (a : Fin 12288) :
    shapeCast S12288 o shapeCasts_S12288x1_S12288 (ix1 a) = o (ix2 a (0 : Fin 1)) :=
  shapeCast_apply o shapeCasts_S12288x1_S12288 (ix1 a) (ix2 a (0 : Fin 1))
    (by rewrite [Shape.rowMajor_val_two, Shape.rowMajor_val_one]; show a.val * 1 + 0 = a.val; omega)

/-- The row mean of row a is the first array's entry over 12288. -/
theorem coreRm_at (o3 : (⟨S12288x1, .f32⟩ : BufTy).Contents (Elt Ideal)) (a : Fin 12288) :
    coreRm (F := Ideal) o3 (ix1 a) = Ideal.div (o3 (ix2 a (0 : Fin 1))) Cert.Bridge.nn := by
  have h : coreRm (F := Ideal) o3 (ix1 a)
      = Ideal.div (shapeCast S12288 o3 shapeCasts_S12288x1_S12288 (ix1 a)) Cert.Bridge.nn := rfl
  rw [h, cast_at]

theorem corePrm_at (o4 : (⟨S12288x1, .f32⟩ : BufTy).Contents (Elt Ideal)) (a : Fin 12288) :
    corePrm (F := Ideal) o4 (ix1 a) = Ideal.div (o4 (ix2 a (0 : Fin 1))) Cert.Bridge.nn := by
  have h : corePrm (F := Ideal) o4 (ix1 a)
      = Ideal.div (shapeCast S12288 o4 shapeCasts_S12288x1_S12288 (ix1 a)) Cert.Bridge.nn := rfl
  rw [h, cast_at]

/-- A float sum over the rows from the zero literal, read at the one scalar index. -/
theorem reduce_at (x : (⟨S12288, .f32⟩ : BufTy).Contents (Elt Ideal)) :
    Host.reduceAdd x (constant (F := Ideal) S_ .f32 0x00000000#32) reducesTo_S12288_S_d0 h_S_ ix0
      = Cert.Bridge.zero + ∑ a : Fin 12288, x (ix1 a) := by
  generalize x = y0
  simp only [Host.reduceAdd, Ideal.hostReduceAdd_def]
  rw [Ideal.hostReduceAdd_total reducesTo_S12288_S_d0 (fun b => b.elim0), sum_idxK]
  rfl

/-- A select on the selection bit of row a is the choice by the selection. -/
theorem selectK_at (v2 : (⟨S12288, .i1⟩ : BufTy).Contents (Elt Ideal)) (a : Fin 12288) (u v : EReal) :
    Scalar.select (v2 (ix1 a)) u v = if selK v2 a then u else v := by
  unfold Scalar.select selK
  by_cases h : v2 (ix1 a) = 1#1
  · have h' : v2 (ix1 a) = (1 : BitVec 1) := h
    rw [if_pos h', if_pos (decide_eq_true h)]
  · have h' : ¬ v2 (ix1 a) = (1 : BitVec 1) := h
    rw [if_neg h', if_neg (fun hd => h (of_decide_eq_true hd))]

/-- With the first array holding the row sums, the row mean is the formula's, -/
theorem coreRm_K (o3 : (⟨S12288x1, .f32⟩ : BufTy).Contents (Elt Ideal)) (y : Fin 12288 → EReal)
    (ho3 : ∀ i : Fin 12288, o3 (ix2 i (0 : Fin 1)) = Cert.Bridge.rowK y i) (a : Fin 12288) :
    coreRm (F := Ideal) o3 (ix1 a) = Cert.Bridge.rmK y a := by
  rw [coreRm_at, ho3]
  rfl

/-- and with the second holding the masked row sums, so is the masked row mean. -/
theorem corePrm_K (o4 : (⟨S12288x1, .f32⟩ : BufTy).Contents (Elt Ideal)) (v3 : (⟨S12288, .f32⟩ : BufTy).Contents (Elt Ideal)) (y : Fin 12288 → EReal)
    (ho4 : ∀ i : Fin 12288, o4 (ix2 i (0 : Fin 1)) = Cert.Bridge.rowPK y (fun j : Fin 12288 => v3 (ix1 j)) i)
    (a : Fin 12288) :
    corePrm (F := Ideal) o4 (ix1 a) = Cert.Bridge.prmK y (fun j : Fin 12288 => v3 (ix1 j)) a := by
  rw [corePrm_at, ho4]
  rfl

/-- The two updated averages and the denominator on row a. -/
theorem coreY_K (o3 : (⟨S12288x1, .f32⟩ : BufTy).Contents (Elt Ideal)) (v2 : (⟨S12288, .i1⟩ : BufTy).Contents (Elt Ideal)) (ua : (⟨S12288, .f32⟩ : BufTy).Contents (Elt Ideal)) (y : Fin 12288 → EReal)
    (ho3 : ∀ i : Fin 12288, o3 (ix2 i (0 : Fin 1)) = Cert.Bridge.rowK y i) (a : Fin 12288) :
    coreY (F := Ideal) v2 (coreRm (F := Ideal) o3) ua (ix1 a)
      = Cert.Bridge.yK y (selK v2) (fun i : Fin 12288 => ua (ix1 i))
          (Ideal.ofBits .f32 0x3F666666#32) (Ideal.ofBits .f32 0x3DCCCCCD#32) a := by
  have h : coreY (F := Ideal) v2 (coreRm (F := Ideal) o3) ua (ix1 a)
      = Scalar.select (v2 (ix1 a))
          (Ideal.ofBits .f32 0x3F666666#32 * ua (ix1 a)
            + Ideal.ofBits .f32 0x3DCCCCCD#32 * coreRm (F := Ideal) o3 (ix1 a)) (ua (ix1 a)) := rfl
  rw [h, selectK_at, coreRm_K o3 y ho3]
  rfl

theorem coreX_K (o4 : (⟨S12288x1, .f32⟩ : BufTy).Contents (Elt Ideal)) (v2 : (⟨S12288, .i1⟩ : BufTy).Contents (Elt Ideal)) (v3 up : (⟨S12288, .f32⟩ : BufTy).Contents (Elt Ideal)) (y : Fin 12288 → EReal)
    (ho4 : ∀ i : Fin 12288, o4 (ix2 i (0 : Fin 1)) = Cert.Bridge.rowPK y (fun j : Fin 12288 => v3 (ix1 j)) i)
    (a : Fin 12288) :
    coreX (F := Ideal) v2 (corePrm (F := Ideal) o4) up (ix1 a)
      = Cert.Bridge.xK y (fun j : Fin 12288 => v3 (ix1 j)) (selK v2) (fun i : Fin 12288 => up (ix1 i))
          (Ideal.ofBits .f32 0x3F666666#32) (Ideal.ofBits .f32 0x3DCCCCCD#32) a := by
  have h : coreX (F := Ideal) v2 (corePrm (F := Ideal) o4) up (ix1 a)
      = Scalar.select (v2 (ix1 a))
          (Ideal.ofBits .f32 0x3F666666#32 * up (ix1 a)
            + Ideal.ofBits .f32 0x3DCCCCCD#32 * corePrm (F := Ideal) o4 (ix1 a)) (up (ix1 a)) := rfl
  rw [h, selectK_at, corePrm_K o4 v3 y ho4]
  rfl

theorem coreD_K (o3 : (⟨S12288x1, .f32⟩ : BufTy).Contents (Elt Ideal)) (v2 : (⟨S12288, .i1⟩ : BufTy).Contents (Elt Ideal)) (ua : (⟨S12288, .f32⟩ : BufTy).Contents (Elt Ideal)) (y : Fin 12288 → EReal)
    (ho3 : ∀ i : Fin 12288, o3 (ix2 i (0 : Fin 1)) = Cert.Bridge.rowK y i) (a : Fin 12288) :
    coreD (F := Ideal) v2 (coreY (F := Ideal) v2 (coreRm (F := Ideal) o3) ua) (ix1 a)
      = Cert.Bridge.dK y (selK v2) (fun i : Fin 12288 => ua (ix1 i))
          (Ideal.ofBits .f32 0x3F666666#32) (Ideal.ofBits .f32 0x3DCCCCCD#32) a := by
  have h : coreD (F := Ideal) v2 (coreY (F := Ideal) v2 (coreRm (F := Ideal) o3) ua) (ix1 a)
      = Scalar.select (v2 (ix1 a))
          (coreY (F := Ideal) v2 (coreRm (F := Ideal) o3) ua (ix1 a)
            * coreY (F := Ideal) v2 (coreRm (F := Ideal) o3) ua (ix1 a)) Cert.Bridge.one := rfl
  rw [h, selectK_at, coreY_K o3 v2 ua y ho3]
  rfl

/-- The contribution of row a. -/
theorem coreRow_K (o3 o4 : (⟨S12288x1, .f32⟩ : BufTy).Contents (Elt Ideal)) (v2 : (⟨S12288, .i1⟩ : BufTy).Contents (Elt Ideal)) (v3 ua up : (⟨S12288, .f32⟩ : BufTy).Contents (Elt Ideal)) (y : Fin 12288 → EReal)
    (ho3 : ∀ i : Fin 12288, o3 (ix2 i (0 : Fin 1)) = Cert.Bridge.rowK y i)
    (ho4 : ∀ i : Fin 12288, o4 (ix2 i (0 : Fin 1)) = Cert.Bridge.rowPK y (fun j : Fin 12288 => v3 (ix1 j)) i)
    (a : Fin 12288) :
    coreRow (F := Ideal) v3 (coreRm (F := Ideal) o3) (corePrm (F := Ideal) o4)
        (coreY (F := Ideal) v2 (coreRm (F := Ideal) o3) ua) (coreX (F := Ideal) v2 (corePrm (F := Ideal) o4) up)
        (coreD (F := Ideal) v2 (coreY (F := Ideal) v2 (coreRm (F := Ideal) o3) ua)) (ix1 a)
      = Ideal.div (v3 (ix1 a)
          * (Cert.Bridge.xK y (fun j : Fin 12288 => v3 (ix1 j)) (selK v2) (fun i : Fin 12288 => up (ix1 i))
                (Ideal.ofBits .f32 0x3F666666#32) (Ideal.ofBits .f32 0x3DCCCCCD#32) a * Cert.Bridge.rmK y a
              - Cert.Bridge.yK y (selK v2) (fun i : Fin 12288 => ua (ix1 i))
                  (Ideal.ofBits .f32 0x3F666666#32) (Ideal.ofBits .f32 0x3DCCCCCD#32) a
                * Cert.Bridge.prmK y (fun j : Fin 12288 => v3 (ix1 j)) a))
          (Cert.Bridge.dK y (selK v2) (fun i : Fin 12288 => ua (ix1 i))
            (Ideal.ofBits .f32 0x3F666666#32) (Ideal.ofBits .f32 0x3DCCCCCD#32) a) := by
  have h : coreRow (F := Ideal) v3 (coreRm (F := Ideal) o3) (corePrm (F := Ideal) o4)
        (coreY (F := Ideal) v2 (coreRm (F := Ideal) o3) ua) (coreX (F := Ideal) v2 (corePrm (F := Ideal) o4) up)
        (coreD (F := Ideal) v2 (coreY (F := Ideal) v2 (coreRm (F := Ideal) o3) ua)) (ix1 a)
      = Ideal.div (v3 (ix1 a)
          * (coreX (F := Ideal) v2 (corePrm (F := Ideal) o4) up (ix1 a) * coreRm (F := Ideal) o3 (ix1 a)
              - coreY (F := Ideal) v2 (coreRm (F := Ideal) o3) ua (ix1 a) * corePrm (F := Ideal) o4 (ix1 a)))
          (coreD (F := Ideal) v2 (coreY (F := Ideal) v2 (coreRm (F := Ideal) o3) ua) (ix1 a)) := rfl
  rw [h, coreX_K o4 v2 v3 up y ho4, coreRm_K o3 y ho3, coreY_K o3 v2 ua y ho3, corePrm_K o4 v3 y ho4,
    coreD_K o3 v2 ua y ho3]

/-- The number of selected rows, and the quotient, at the one scalar index. -/
theorem coreCount_at (v3 : (⟨S12288, .f32⟩ : BufTy).Contents (Elt Ideal)) :
    coreCount (F := Ideal) v3 ix0 = Cert.Bridge.zero + ∑ a : Fin 12288, v3 (ix1 a) := by
  have h : coreCount (F := Ideal) v3 ix0
      = Host.reduceAdd v3 (constant (F := Ideal) S_ .f32 0x00000000#32) reducesTo_S12288_S_d0 h_S_ ix0 := rfl
  rw [h, reduce_at]

theorem coreQuot_at (r : (⟨S12288, .f32⟩ : BufTy).Contents (Elt Ideal)) (c : (⟨S_, .f32⟩ : BufTy).Contents (Elt Ideal)) :
    coreQuot (F := Ideal) r c ix0 = Ideal.div (Cert.Bridge.zero + ∑ a : Fin 12288, r (ix1 a)) (c ix0) := by
  have h : coreQuot (F := Ideal) r c ix0
      = Ideal.div (Host.reduceAdd r (constant (F := Ideal) S_ .f32 0x00000000#32) reducesTo_S12288_S_d0 h_S_ ix0)
          (c ix0) := rfl
  rw [h, reduce_at]

/-- When the two arrays hold the row sums of the squared hinge of the predictions y and of its masked version, the
    core read at its one index is the rows-first loss of y, the mask, the selection and the two gathered averages. -/
theorem natCore_apply (o3 o4 : (⟨S12288x1, .f32⟩ : BufTy).Contents (Elt Ideal)) (v2 : (⟨S12288, .i1⟩ : BufTy).Contents (Elt Ideal))
    (v3 ua up : (⟨S12288, .f32⟩ : BufTy).Contents (Elt Ideal)) (y : Fin 12288 → EReal)
    (ho3 : ∀ i : Fin 12288, o3 (ix2 i (0 : Fin 1)) = Cert.Bridge.rowK y i)
    (ho4 : ∀ i : Fin 12288, o4 (ix2 i (0 : Fin 1)) = Cert.Bridge.rowPK y (fun j : Fin 12288 => v3 (ix1 j)) i) :
    natCore (F := Ideal) o3 o4 v2 v3 ua up ix0
      = Cert.Bridge.natK y (fun i : Fin 12288 => v3 (ix1 i)) (selK v2) (fun i : Fin 12288 => ua (ix1 i)) (fun i : Fin 12288 => up (ix1 i))
          (Ideal.ofBits .f32 0x3F666666#32) (Ideal.ofBits .f32 0x3DCCCCCD#32) := by
  rw [natCore_eq, coreQuot_at, coreCount_at]
  unfold Cert.Bridge.natK
  refine congrArg (fun t => Ideal.div (Cert.Bridge.zero + t) _) (Finset.sum_congr rfl fun a _ => ?_)
  exact coreRow_K o3 o4 v2 v3 ua up y ho3 ho4 a

end Cert.KernelIdeal.Val

end
-- ==== Proof.Asm2.lean ====
/-
  The kernel's result buffer after the run: the rows-first loss of the predictions, the mask, the selection and the two
  gathered averages, plus the term of the two prediction columns.
-/
import proofs.«141416_j52587579572535_2_alg».proof.Proof.Asm1
import proofs.«141416_j52587579572535_2_alg».proof.Proof.KIVal5

set_option maxRecDepth 16384

noncomputable section

namespace Cert.Proof.Alg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.Spec Idealize.ShloMosaic.StableHlo

section KernelSide

open Cert.KernelIdeal Cert.KernelIdeal.Gen Cert.KernelIdeal.Fr Cert.KernelIdeal.Val

/-- The host lines after the region, from any buffer contents in which the nine buffers they read hold given values. -/
theorem tail_of_leaves (Wv : Valuation τ sig (Elt Ideal))
    (o3 o4 a0 a1 : (⟨S12288x1, .f32⟩ : BufTy).Contents (Elt Ideal)) (a2 a3 : (⟨S50000x1, .f32⟩ : BufTy).Contents (Elt Ideal)) (a5 : (⟨S12288, .i32⟩ : BufTy).Contents (Elt Ideal))
    (v2 : (⟨S12288, .i1⟩ : BufTy).Contents (Elt Ideal)) (v3 : (⟨S12288, .f32⟩ : BufTy).Contents (Elt Ideal))
    (e3 : Wv (Proc.devRef .tc main_v6_0) = o3) (e4 : Wv (Proc.devRef .tc main_v6_1) = o4)
    (e0 : Wv (Proc.devRef .tc main_arg0) = a0) (e1 : Wv (Proc.devRef .tc main_arg1) = a1)
    (e2 : Wv (Proc.devRef .tc main_arg2) = a2) (e3' : Wv (Proc.devRef .tc main_arg3) = a3)
    (e5 : Wv (Proc.devRef .tc main_arg5) = a5) (ev2 : Wv (Proc.devRef .tc main_v2) = v2) (ev3 : Wv (Proc.devRef .tc main_v3) = v3) :
    StableHlo.after (List.flatten (tail (F := Ideal))) Wv (Proc.devRef .tc main_v79)
      = addf (F := Ideal) (s := S_) (φ := .f32) (natTerm (F := Ideal) o3 o4 a2 a3 a5 v2 v3) (advTerm (F := Ideal) a0 a1) := by
  subst e3 e4 e0 e1 e2 e3' e5 ev2 ev3
  exact tail_after Wv

variable (m : (ℓ : Loc nD τ sig) → Buf (Elt Ideal) ℓ) (c : Dev nD)

set_option maxHeartbeats 2000000 in
/-- The result buffer in terms of what the host lines after the region read. -/
theorem tail_leaves :
    Pipeline.afterTail₀ cfgs (dats m) 0 (V0 m) tail c main_v79
      = addf (F := Ideal) (s := S_) (φ := .f32)
          (natCore (F := Ideal) (G3 (V m c main_arg0) (V m c main_v4)) (G4 (V m c main_arg0) (V m c main_v4) (V m c main_v5))
            (V m c main_v2) (V m c main_v3)
            (uaTerm (F := Ideal) (m ((c : Thread nD τ).loc main_arg2)) (m ((c : Thread nD τ).loc main_arg5)))
            (upTerm (F := Ideal) (m ((c : Thread nD τ).loc main_arg3)) (m ((c : Thread nD τ).loc main_arg5))))
          (advTerm (F := Ideal) (m ((c : Thread nD τ).loc main_arg0)) (m ((c : Thread nD τ).loc main_arg1))) :=
  (tail_of_leaves (Pipeline.withArrays spec0 c (V0 m c) fun w => (dats m 0 c).arrAt w cfg0.N)
    (G3 (V m c main_arg0) (V m c main_v4)) (G4 (V m c main_arg0) (V m c main_v4) (V m c main_v5))
    (m ((c : Thread nD τ).loc main_arg0)) (m ((c : Thread nD τ).loc main_arg1)) (m ((c : Thread nD τ).loc main_arg2))
    (m ((c : Thread nD τ).loc main_arg3)) (m ((c : Thread nD τ).loc main_arg5)) (V m c main_v2) (V m c main_v3)
    (W_v6_0 m c) (W_v6_1 m c) (W_arg0 m c) (W_arg1 m c) (W_arg2 m c) (W_arg3 m c) (W_arg5 m c) (W_v2 m c) (W_v3 m c)).trans
    (congrArg (fun t => addf (F := Ideal) (s := S_) (φ := .f32) t (advTerm (F := Ideal) (m ((c : Thread nD τ).loc main_arg0)) (m ((c : Thread nD τ).loc main_arg1))))
      (natTerm_eq (F := Ideal) _ _ _ _ _ _ _))

/-- The region's first output array at row a is the row sum of the squared hinge of the predictions, -/
theorem G3_row (a : Fin 12288) :
    G3 (V m c main_arg0) (V m c main_v4) (ix2 a (0 : Fin 1))
      = Cert.Bridge.rowK (fun a : Fin 12288 => m ((c : Thread nD τ).loc main_arg0) (ix2 a (0 : Fin 1))) a := by
  unfold G3 Cert.Bridge.rowK
  refine Finset.sum_congr rfl fun j _ => ?_
  rw [v4_apply, V_main_arg0]
/-- and the second the masked row sum. -/
theorem G4_row (a : Fin 12288) :
    G4 (V m c main_arg0) (V m c main_v4) (V m c main_v5) (ix2 a (0 : Fin 1))
      = Cert.Bridge.rowPK (fun a : Fin 12288 => m ((c : Thread nD τ).loc main_arg0) (ix2 a (0 : Fin 1)))
          (fun j : Fin 12288 => (V m c main_v3 : S12288.Idx → EReal) (ix1 j)) a := by
  unfold G4 Cert.Bridge.rowPK
  refine Finset.sum_congr rfl fun j _ => ?_
  rw [v4_apply, v5_apply, V_main_arg0]

end KernelSide

end Cert.Proof.Alg

end
-- ==== Proof.Asm2b.lean ====
/-
  The kernel's result read at its one index: the rows-first loss of the predictions, the mask, the selection and the two
  gathered averages, plus the term of the two prediction columns.
-/
import proofs.«141416_j52587579572535_2_alg».proof.Proof.Asm2

set_option maxRecDepth 16384

noncomputable section

namespace Cert.Proof.Alg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.Spec Idealize.ShloMosaic.StableHlo

section KernelSide

open Cert.KernelIdeal Cert.KernelIdeal.Gen Cert.KernelIdeal.Fr Cert.KernelIdeal.Val

variable (m : (ℓ : Loc nD τ sig) → Buf (Elt Ideal) ℓ) (c : Dev nD)

set_option maxHeartbeats 2000000 in
/-- The kernel's result: the rows-first loss of the predictions plus the second term. -/
theorem kernel_value :
    (Pipeline.afterTail₀ cfgs (dats m) 0 (V0 m) tail c main_v79 : S_.Idx → EReal) ix0
      = Cert.Bridge.natK (fun a : Fin 12288 => m ((c : Thread nD τ).loc main_arg0) (ix2 a (0 : Fin 1)))
            (fun a : Fin 12288 => (V m c main_v3 : S12288.Idx → EReal) (ix1 a)) (selK (V m c main_v2))
            (fun a : Fin 12288 => uaTerm (F := Ideal) (m ((c : Thread nD τ).loc main_arg2)) (m ((c : Thread nD τ).loc main_arg5)) (ix1 a))
            (fun a : Fin 12288 => upTerm (F := Ideal) (m ((c : Thread nD τ).loc main_arg3)) (m ((c : Thread nD τ).loc main_arg5)) (ix1 a))
            (Ideal.ofBits .f32 0x3F666666#32) (Ideal.ofBits .f32 0x3DCCCCCD#32)
          + advTerm (F := Ideal) (m ((c : Thread nD τ).loc main_arg0)) (m ((c : Thread nD τ).loc main_arg1)) ix0 :=
  (congrFun (tail_leaves m c) ix0).trans <| (addf_apply (natCore (F := Ideal) (G3 (V m c main_arg0) (V m c main_v4)) (G4 (V m c main_arg0) (V m c main_v4) (V m c main_v5))
        (V m c main_v2) (V m c main_v3)
        (uaTerm (F := Ideal) (m ((c : Thread nD τ).loc main_arg2)) (m ((c : Thread nD τ).loc main_arg5)))
        (upTerm (F := Ideal) (m ((c : Thread nD τ).loc main_arg3)) (m ((c : Thread nD τ).loc main_arg5))))
      (advTerm (F := Ideal) (m ((c : Thread nD τ).loc main_arg0)) (m ((c : Thread nD τ).loc main_arg1))) ix0).trans <|
    (congrArg (· + advTerm (F := Ideal) (m ((c : Thread nD τ).loc main_arg0)) (m ((c : Thread nD τ).loc main_arg1)) ix0)
      (natCore_apply (G3 (V m c main_arg0) (V m c main_v4)) (G4 (V m c main_arg0) (V m c main_v4) (V m c main_v5))
        (V m c main_v2) (V m c main_v3)
        (uaTerm (F := Ideal) (m ((c : Thread nD τ).loc main_arg2)) (m ((c : Thread nD τ).loc main_arg5)))
        (upTerm (F := Ideal) (m ((c : Thread nD τ).loc main_arg3)) (m ((c : Thread nD τ).loc main_arg5)))
        (fun a : Fin 12288 => m ((c : Thread nD τ).loc main_arg0) (ix2 a (0 : Fin 1)))
        (G3_row m c) (G4_row m c)))

end KernelSide

end Cert.Proof.Alg

end
-- ==== Proof.RVal.lean ====
import proofs.«141416_j52587579572535_2_alg».proof.Proof.Gen.ReferenceIdeal.Read
import proofs.«141416_j52587579572535_2_alg».proof.Proof.Bridge
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-- Row i is selected when the label compared equal to one. -/
def selOf (x4 : (⟨S12288, .i32⟩ : BufTy).Contents (Elt Ideal)) (i : Fin 12288) : Bool :=
  decide (val_main_v2 (F := Ideal) x4 (ix1 i) = 1#1)

/-- The mask (the comparison converted to a float) is one on the selected rows and zero elsewhere. -/
theorem pm_eq (x4 : (⟨S12288, .i32⟩ : BufTy).Contents (Elt Ideal)) (i : Fin 12288) :
    val_main_v3 (F := Ideal) x4 (ix1 i) = if selOf x4 i then (1 : EReal) else 0 := by
  rw [val_main_v3_apply]
  unfold selOf
  rcases BitVec.eq_zero_or_eq_one (val_main_v2 (F := Ideal) x4 (ix1 i)) with h | h
  · rw [h]
    show (((0#1 : BitVec 1).toNat : ℝ) : EReal) = _
    simp
  · rw [h]
    show (((1#1 : BitVec 1).toNat : ℝ) : EReal) = _
    simp

/-- The predictions column, the mask, and the two gathered moving averages, row by row. -/
abbrev yOf (x0 : (⟨S12288x1, .f32⟩ : BufTy).Contents (Elt Ideal)) : Fin 12288 → EReal := fun i => x0 (ix2 i (0 : Fin 1))
abbrev pmOf (x4 : (⟨S12288, .i32⟩ : BufTy).Contents (Elt Ideal)) : Fin 12288 → EReal := fun i => val_main_v3 (F := Ideal) x4 (ix1 i)
abbrev uaOf (x2 : (⟨S50000x1, .f32⟩ : BufTy).Contents (Elt Ideal)) (x5 : (⟨S12288, .i32⟩ : BufTy).Contents (Elt Ideal)) : Fin 12288 → EReal := fun i => val_main_v33 (F := Ideal) x2 x5 (ix1 i)
abbrev upOf (x3 : (⟨S50000x1, .f32⟩ : BufTy).Contents (Elt Ideal)) (x5 : (⟨S12288, .i32⟩ : BufTy).Contents (Elt Ideal)) : Fin 12288 → EReal := fun i => val_main_v44 (F := Ideal) x3 x5 (ix1 i)
/-- The two literals 0.9 and 0.1 as their patterns. -/
abbrev lit09 : EReal := Ideal.ofBits .f32 0x3F666666#32
abbrev lit01 : EReal := Ideal.ofBits .f32 0x3DCCCCCD#32

/-- A rank-1 index set is its coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The coordinates of a pair read back through the reshape and the broadcasts. -/
theorem idx_v0_v4_v6 (a b : Fin 12288) :
    idx_main_v0 (idx_main_v4 (idx_main_v6 (ix2 a b))) = ix2 a (0 : Fin 1) :=
  funext fun d => Fin.ext (by match d with | ⟨0, _⟩ => exact Nat.div_one _ | ⟨1, _⟩ => rfl)
theorem idx_v0_v5_v7 (a b : Fin 12288) :
    idx_main_v0 (idx_main_v5 (idx_main_v7 (ix2 a b))) = ix2 b (0 : Fin 1) :=
  funext fun d => Fin.ext (by match d with | ⟨0, _⟩ => exact Nat.div_one _ | ⟨1, _⟩ => rfl)
theorem idx_v14 (a k : Fin 12288) : idx_main_v14 (ix1 a) k = ix2 a k :=
  funext fun d => Fin.ext (by match d with | ⟨0, _⟩ => rfl | ⟨1, _⟩ => rfl)
theorem idx_v20 (a k : Fin 12288) : idx_main_v20 (ix1 a) k = ix2 a k :=
  funext fun d => Fin.ext (by match d with | ⟨0, _⟩ => rfl | ⟨1, _⟩ => rfl)
theorem idx_v17_v18 (a b : Fin 12288) : idx_main_v17 (idx_main_v18 (ix2 a b)) = ix1 b :=
  funext fun d => Fin.ext (by match d with | ⟨0, _⟩ => rfl)
theorem idx_v59_v65 (a b : Fin 12288) : idx_main_v59 (idx_main_v65 (ix2 a b)) = ix1 a :=
  funext fun d => Fin.ext (by match d with | ⟨0, _⟩ => rfl)
theorem idx_v60_v62 (a b : Fin 12288) : idx_main_v60 (idx_main_v62 (ix2 a b)) = ix1 a :=
  funext fun d => Fin.ext (by match d with | ⟨0, _⟩ => rfl)
theorem idx_v61_v63 (a b : Fin 12288) : idx_main_v61 (idx_main_v63 (ix2 a b)) = ix1 b :=
  funext fun d => Fin.ext (by match d with | ⟨0, _⟩ => rfl)
theorem idx_v67_v68 (a b : Fin 12288) : idx_main_v67 (idx_main_v68 (ix2 a b)) = ix1 a :=
  funext fun d => Fin.ext (by match d with | ⟨0, _⟩ => rfl)
theorem idx_v70_v71 (a b : Fin 12288) : idx_main_v70 (idx_main_v71 (ix2 a b)) = ix1 a :=
  funext fun d => Fin.ext (by match d with | ⟨0, _⟩ => rfl)

/-- The squared hinge of the pair (a, b). -/
theorem v13_at (x0 : (⟨S12288x1, .f32⟩ : BufTy).Contents (Elt Ideal)) (a b : Fin 12288) :
    val_main_v13 (F := Ideal) x0 (ix2 a b) = Cert.Spec.hR (yOf x0 a) (yOf x0 b) := by
  rw [val_main_v13_apply, val_main_v12_apply, val_main_v10_apply, val_main_v9_apply, val_main_cst_apply,
    val_main_v8_apply, val_main_v6_apply, val_main_v4_apply, val_main_v0_apply, val_main_v7_apply,
    val_main_v5_apply, val_main_v0_apply, val_main_v11_apply, val_main_cst_0_apply, idx_v0_v4_v6, idx_v0_v5_v7]
  rfl

/-- Its row sums and row means. -/
theorem v14_at (x0 : (⟨S12288x1, .f32⟩ : BufTy).Contents (Elt Ideal)) (a : Fin 12288) :
    val_main_v14 (F := Ideal) x0 (ix1 a) = Cert.Bridge.rowR (yOf x0) a := by
  rw [val_main_v14_apply, val_main_cst_1_apply]
  unfold Cert.Bridge.rowR
  refine congrArg (_ + ·) (Finset.sum_congr rfl fun k _ => ?_)
  rw [idx_v14, v13_at]

theorem v16_at (x0 : (⟨S12288x1, .f32⟩ : BufTy).Contents (Elt Ideal)) (a : Fin 12288) :
    val_main_v16 (F := Ideal) x0 (ix1 a) = Cert.Bridge.rmR (yOf x0) a := by
  rw [val_main_v16_apply, val_main_v15_apply, val_main_cst_2_apply, v14_at]
  rfl

/-- The masked hinge, its row sums and row means. -/
theorem v19_at (x0 : (⟨S12288x1, .f32⟩ : BufTy).Contents (Elt Ideal)) (x4 : (⟨S12288, .i32⟩ : BufTy).Contents (Elt Ideal)) (a b : Fin 12288) :
    val_main_v19 (F := Ideal) x0 x4 (ix2 a b) = Cert.Spec.hR (yOf x0 a) (yOf x0 b) * pmOf x4 b := by
  rw [val_main_v19_apply, v13_at, val_main_v18_apply, val_main_v17_apply, idx_v17_v18]
  rfl

theorem v20_at (x0 : (⟨S12288x1, .f32⟩ : BufTy).Contents (Elt Ideal)) (x4 : (⟨S12288, .i32⟩ : BufTy).Contents (Elt Ideal)) (a : Fin 12288) :
    val_main_v20 (F := Ideal) x0 x4 (ix1 a) = Cert.Bridge.rowPR (yOf x0) (pmOf x4) a := by
  rw [val_main_v20_apply, val_main_cst_3_apply]
  unfold Cert.Bridge.rowPR
  refine congrArg (_ + ·) (Finset.sum_congr rfl fun k _ => ?_)
  rw [idx_v20, v19_at]

theorem v22_at (x0 : (⟨S12288x1, .f32⟩ : BufTy).Contents (Elt Ideal)) (x4 : (⟨S12288, .i32⟩ : BufTy).Contents (Elt Ideal)) (a : Fin 12288) :
    val_main_v22 (F := Ideal) x0 x4 (ix1 a) = Cert.Bridge.prmR (yOf x0) (pmOf x4) a := by
  rw [val_main_v22_apply, val_main_v21_apply, val_main_cst_4_apply, v20_at]
  rfl

/-- A select on the comparison bit of row a is the choice by the selection. -/
theorem select_at (x4 : (⟨S12288, .i32⟩ : BufTy).Contents (Elt Ideal)) (a : Fin 12288) (u v : EReal) :
    Scalar.select (val_main_v2 (F := Ideal) x4 (ix1 a)) u v = if selOf x4 a then u else v := by
  unfold Scalar.select selOf
  by_cases h : val_main_v2 (F := Ideal) x4 (ix1 a) = 1#1
  · have h' : val_main_v2 (F := Ideal) x4 (ix1 a) = (1 : BitVec 1) := h
    rw [if_pos h', if_pos (decide_eq_true h)]
  · have h' : ¬ val_main_v2 (F := Ideal) x4 (ix1 a) = (1 : BitVec 1) := h
    rw [if_neg h', if_neg (fun hd => h (of_decide_eq_true hd))]

/-- The two moving averages and the squared denominator on row a. -/
theorem v50_at (x0 : (⟨S12288x1, .f32⟩ : BufTy).Contents (Elt Ideal)) (x2 : (⟨S50000x1, .f32⟩ : BufTy).Contents (Elt Ideal)) (x4 : (⟨S12288, .i32⟩ : BufTy).Contents (Elt Ideal)) (x5 : (⟨S12288, .i32⟩ : BufTy).Contents (Elt Ideal)) (a : Fin 12288) :
    val_main_v50 (F := Ideal) x0 x2 x4 x5 (ix1 a) = Cert.Bridge.yR (yOf x0) (selOf x4) (uaOf x2 x5) lit09 lit01 a := by
  rw [val_main_v50_apply, select_at, val_main_v49_apply, val_main_v46_apply, val_main_v45_apply,
    val_main_cst_11_apply, val_main_v48_apply, val_main_v47_apply, val_main_cst_12_apply, v16_at]
  rfl

theorem v56_at (x0 : (⟨S12288x1, .f32⟩ : BufTy).Contents (Elt Ideal)) (x3 : (⟨S50000x1, .f32⟩ : BufTy).Contents (Elt Ideal)) (x4 : (⟨S12288, .i32⟩ : BufTy).Contents (Elt Ideal)) (x5 : (⟨S12288, .i32⟩ : BufTy).Contents (Elt Ideal)) (a : Fin 12288) :
    val_main_v56 (F := Ideal) x0 x3 x4 x5 (ix1 a)
      = Cert.Bridge.xR (yOf x0) (pmOf x4) (selOf x4) (upOf x3 x5) lit09 lit01 a := by
  rw [val_main_v56_apply, select_at, val_main_v55_apply, val_main_v52_apply, val_main_v51_apply,
    val_main_cst_13_apply, val_main_v54_apply, val_main_v53_apply, val_main_cst_14_apply, v22_at]
  rfl

theorem v58_at (x0 : (⟨S12288x1, .f32⟩ : BufTy).Contents (Elt Ideal)) (x2 : (⟨S50000x1, .f32⟩ : BufTy).Contents (Elt Ideal)) (x4 : (⟨S12288, .i32⟩ : BufTy).Contents (Elt Ideal)) (x5 : (⟨S12288, .i32⟩ : BufTy).Contents (Elt Ideal)) (a : Fin 12288) :
    val_main_v58 (F := Ideal) x0 x2 x4 x5 (ix1 a) = Cert.Bridge.dR (yOf x0) (selOf x4) (uaOf x2 x5) lit09 lit01 a := by
  rw [val_main_v58_apply, select_at, val_main_v57_apply, v50_at, val_main_call2_v1_apply,
    val_main_call2_v0_apply, val_main_cst_15_apply]
  rfl

/-- The weighted term of the pair (a, b). -/
theorem v74_at (x0 : (⟨S12288x1, .f32⟩ : BufTy).Contents (Elt Ideal)) (x2 x3 : (⟨S50000x1, .f32⟩ : BufTy).Contents (Elt Ideal)) (x4 x5 : (⟨S12288, .i32⟩ : BufTy).Contents (Elt Ideal)) (a b : Fin 12288) :
    val_main_v74 (F := Ideal) x0 x2 x3 x4 x5 (ix2 a b)
      = (Ideal.div (Cert.Bridge.xR (yOf x0) (pmOf x4) (selOf x4) (upOf x3 x5) lit09 lit01 a
            - Cert.Bridge.yR (yOf x0) (selOf x4) (uaOf x2 x5) lit09 lit01 a * pmOf x4 b)
          (Cert.Bridge.dR (yOf x0) (selOf x4) (uaOf x2 x5) lit09 lit01 a) * pmOf x4 a)
        * Cert.Spec.hR (yOf x0 a) (yOf x0 b) := by
  rw [val_main_v74_apply, v13_at, val_main_v72_apply, val_main_v69_apply, val_main_v66_apply,
    val_main_v65_apply, val_main_v59_apply, idx_v59_v65, v56_at, val_main_v64_apply, val_main_v62_apply,
    val_main_v60_apply, idx_v60_v62, v50_at, val_main_v63_apply, val_main_v61_apply, idx_v61_v63,
    val_main_v68_apply, val_main_v67_apply, idx_v67_v68, v58_at, val_main_v71_apply, val_main_v70_apply,
    idx_v70_v71]
  rfl

/-- The number of selected rows and the sum over all pairs, each started from the zero literal. -/
theorem v73_at (x4 : (⟨S12288, .i32⟩ : BufTy).Contents (Elt Ideal)) :
    val_main_v73 (F := Ideal) x4 ix0 = Cert.Bridge.zero + ∑ i : Fin 12288, pmOf x4 i := by
  rw [val_main_v73_apply, val_main_cst_16_apply, sum_idx1]
  rfl

theorem v75_at (x0 : (⟨S12288x1, .f32⟩ : BufTy).Contents (Elt Ideal)) (x2 x3 : (⟨S50000x1, .f32⟩ : BufTy).Contents (Elt Ideal)) (x4 x5 : (⟨S12288, .i32⟩ : BufTy).Contents (Elt Ideal)) :
    val_main_v75 (F := Ideal) x0 x2 x3 x4 x5 ix0
      = Cert.Bridge.zero + ∑ a : Fin 12288, ∑ b : Fin 12288,
          (Ideal.div (Cert.Bridge.xR (yOf x0) (pmOf x4) (selOf x4) (upOf x3 x5) lit09 lit01 a
              - Cert.Bridge.yR (yOf x0) (selOf x4) (uaOf x2 x5) lit09 lit01 a * pmOf x4 b)
            (Cert.Bridge.dR (yOf x0) (selOf x4) (uaOf x2 x5) lit09 lit01 a) * pmOf x4 a)
          * Cert.Spec.hR (yOf x0 a) (yOf x0 b) := by
  rw [val_main_v75_apply, val_main_cst_17_apply, sum_idx2]
  exact congrArg (_ + ·) (Finset.sum_congr rfl fun a _ => Finset.sum_congr rfl fun b _ => v74_at x0 x2 x3 x4 x5 a b)

/-- The reference's first summand (the weighted pairwise loss over all pairs), read index by index, is the all-pairs
    formula of the predictions column, the mask, the selection and the two gathered moving averages. -/
theorem ref_nat (x0 : (⟨S12288x1, .f32⟩ : BufTy).Contents (Elt Ideal)) (x2 x3 : (⟨S50000x1, .f32⟩ : BufTy).Contents (Elt Ideal))
    (x4 x5 : (⟨S12288, .i32⟩ : BufTy).Contents (Elt Ideal)) :
    val_main_v77 (F := Ideal) x0 x2 x3 x4 x5 ix0
      = Cert.Bridge.natR (fun i : Fin 12288 => x0 (ix2 i (0 : Fin 1))) (fun i : Fin 12288 => val_main_v3 (F := Ideal) x4 (ix1 i)) (selOf x4)
          (fun i : Fin 12288 => val_main_v33 (F := Ideal) x2 x5 (ix1 i)) (fun i : Fin 12288 => val_main_v44 (F := Ideal) x3 x5 (ix1 i))
          (Ideal.ofBits .f32 0x3F666666#32) (Ideal.ofBits .f32 0x3DCCCCCD#32) := by
  rw [val_main_v77_apply, v75_at, val_main_v76_apply, v73_at, val_main_cst_18_apply]
  rfl

end Cert.ReferenceIdeal.RefValue

end
-- ==== Proof.Finite.lean ====
import proofs.«141416_j52587579572535_2_alg».proof.Pre_finite_inputs
import proofs.«141416_j52587579572535_2_alg».proof.Proof.Gen.Pre_finite_inputs
import Idealize.ShloMosaic.Lib.ReduceAll
import Idealize.ShloMosaic.Lib.ValueIdx
import Idealize.ShloMosaic.PureOps.Ideal

noncomputable section

namespace Cert.Proof.Finite

open Idealize.ShloMosaic Idealize.SL.Sem Cert.Pre_finite_inputs

/-- The rank-0 shape has exactly one index. -/
instance : Subsingleton S_.Idx := ⟨fun a b => funext fun d => d.elim0⟩

/-- The bit pattern of plus infinity denotes the top element. -/
theorem inf_pattern : Ideal.ofBits .f32 0x7F800000#32 = ⊤ := by simp [Ideal.ofBits, Ideal.ieee]

/-- An extended real whose absolute value is below plus infinity is a real. -/
theorem real_of_abs_lt_top (z : EReal) (hz : max z (-z) < ⊤) : ∃ r : ℝ, z = (r : EReal) := by
  induction z using EReal.rec with
  | bot => simp at hz
  | top => simp at hz
  | coe r => exact ⟨r, rfl⟩

/-- A strict comparison that came out 1 is the strict inequality. -/
theorem lt_of_cmp_olt {a c : EReal} (hc : Ideal.cmp .olt a c = 1#1) : a < c := by
  by_contra hn
  simp [Ideal.cmp, hn] at hc

/-- Under the precondition (every float input has absolute value below plus infinity) each entry of the first
    argument array is a real number. -/
theorem arg0_real [Cert.Pre_finite_inputs.Facts]
    (x0 x1 : FVec Ideal S12288x1 .f32) (x2 x3 : FVec Ideal S50000x1 .f32) (x4 x5 : IVec S12288 32)
    (h : Cert.Pre_finite_inputs.fn (F := Ideal) x0 x1 x2 x3 x4 x5 = fun _ => 1#1) :
    ∀ i, ∃ r : ℝ, x0 i = (r : EReal) := by
  intro i
  have h0 := congrFun h ValueIdx.ix0
  dsimp only [fn, fn_part1] at h0
  obtain ⟨h1, -⟩ := IntOp.andi_eq_one.1 h0
  obtain ⟨h2, -⟩ := IntOp.andi_eq_one.1 h1
  obtain ⟨h3, -⟩ := IntOp.andi_eq_one.1 h2
  have hel := Host.reduce_andi_all _ _ _ _ _ h3 i
  change Ideal.cmp .olt (max (x0 i) (-(x0 i))) (Ideal.ofBits .f32 0x7F800000#32) = 1#1 at hel
  rw [inf_pattern] at hel
  exact real_of_abs_lt_top _ (lt_of_cmp_olt hel)

end Cert.Proof.Finite

end
-- ==== Proof.Asm3.lean ====
/-
  The two programs compute one extended real: the kernel's result is the rows-first loss plus a term of the two
  prediction columns, the reference's the all-pairs loss plus the same term; under the precondition the predictions are
  reals, the mask is the indicator of the selected rows, and the two losses agree.
-/
import proofs.«141416_j52587579572535_2_alg».proof.Defs
import proofs.«141416_j52587579572535_2_alg».proof.Proof.Asm2b
import proofs.«141416_j52587579572535_2_alg».proof.Proof.RVal
import proofs.«141416_j52587579572535_2_alg».proof.Proof.Finite
import proofs.«141416_j52587579572535_2_alg».proof.Proof.Gen.ReferenceIdeal.Run
import proofs.«141416_j52587579572535_2_alg».proof.Proof.Gen.ReferenceIdeal.Read
import proofs.«141416_j52587579572535_2_alg».proof.Proof.Gen.Pre_finite_inputs
import proofs.«141416_j52587579572535_2_alg».proof.Proof.Gen.ReferenceIdeal

set_option maxRecDepth 16384

noncomputable section

namespace Cert.Proof.Alg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.Spec Idealize.ShloMosaic.StableHlo
open Cert.ReferenceIdeal.RefValue Cert.KernelIdeal.Val

/-! ## The host lines the two programs share, as the same functions of the arguments -/

/-- The selection bits: the labels compared with one. -/
theorem sel_same (x4 : (⟨Cert.KernelIdeal.S12288, .i32⟩ : BufTy).Contents (Elt Ideal)) :
    (cmpi .eq x4 (broadcastInDim Cert.KernelIdeal.S12288 ![] Cert.KernelIdeal.Facts₀.bcast_S_S12288 (constantI Cert.KernelIdeal.S_ 32 1#32)) : (⟨Cert.KernelIdeal.S12288, .i1⟩ : BufTy).Contents (Elt Ideal))
      = Cert.ReferenceIdeal.Read.val_main_v2 (F := Ideal) x4 := rfl

/-- The mask: the selection bits as floats. -/
theorem mask_same (x4 : (⟨Cert.KernelIdeal.S12288, .i32⟩ : BufTy).Contents (Elt Ideal)) :
    (uitofp (F := Ideal) .f32 (cmpi .eq x4 (broadcastInDim Cert.KernelIdeal.S12288 ![] Cert.KernelIdeal.Facts₀.bcast_S_S12288 (constantI Cert.KernelIdeal.S_ 32 1#32))) : (⟨Cert.KernelIdeal.S12288, .f32⟩ : BufTy).Contents (Elt Ideal))
      = Cert.ReferenceIdeal.Read.val_main_v3 (F := Ideal) x4 := rfl

/-- The first gathered moving average. -/
theorem ua_same (x2 : (⟨Cert.KernelIdeal.S50000x1, .f32⟩ : BufTy).Contents (Elt Ideal)) (x5 : (⟨Cert.KernelIdeal.S12288, .i32⟩ : BufTy).Contents (Elt Ideal)) :
    uaTerm (F := Ideal) x2 x5 = Cert.ReferenceIdeal.Read.val_main_v33 (F := Ideal) x2 x5 := rfl

/-- The second gathered moving average. -/
theorem up_same (x3 : (⟨Cert.KernelIdeal.S50000x1, .f32⟩ : BufTy).Contents (Elt Ideal)) (x5 : (⟨Cert.KernelIdeal.S12288, .i32⟩ : BufTy).Contents (Elt Ideal)) :
    upTerm (F := Ideal) x3 x5 = Cert.ReferenceIdeal.Read.val_main_v44 (F := Ideal) x3 x5 := rfl

set_option maxRecDepth 8192 in
/-- The second summand: one expression of the two prediction columns. -/
theorem adv_same (x0 x1 : (⟨Cert.KernelIdeal.S12288x1, .f32⟩ : BufTy).Contents (Elt Ideal)) :
    advTerm (F := Ideal) x0 x1 = Cert.ReferenceIdeal.Read.val_main_v99 (F := Ideal) x0 x1 := rfl

/-! ## The two sides meet -/

/-- With the same six argument arrays, under the precondition, the kernel's result and the reference's are one value. -/
theorem values_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) :
    Cert.ReferenceIdeal.Value.res_main_v100 m' c
      = Pipeline.afterTail₀ Cert.KernelIdeal.cfgs (Cert.KernelIdeal.Fr.dats m) 0 (Cert.KernelIdeal.Fr.V0 m) Cert.KernelIdeal.Fr.tail c Cert.KernelIdeal.main_v79 := by
  funext i
  obtain rfl : i = ix0 := eq_ix0 i
  refine Eq.trans ?_ (kernel_value m c).symm
  rw [V_v3, V_v2, mask_same, sel_same, ua_same, up_same, adv_same]
  rw [Cert.ReferenceIdeal.Read.val_main_v100_eq, h0, h1, h2, h3, h4, h5, Cert.ReferenceIdeal.Read.val_main_v100_apply, ref_nat]
  have hy := Cert.Proof.Finite.arg0_real _ _ _ _ _ _ hpre
  rw [Ideal.addf_def]
  refine congrArg₂ (fun a b : EReal => a + b) ?_ rfl
  exact (Cert.Bridge.natK_eq_natR _ _ _ _ _ _ _ (fun a => hy (ix2 a (0 : Fin 1))) (fun a => pm_eq _ a)).symm

end Cert.Proof.Alg

end
-- ==== Proof.lean ====
/-
  The certificate of a pairwise squared-hinge ranking loss with two moving averages and a label-smoothing style second
  term: a one-region program (a grid over twelve blocks of 1024 rows; inside a block, a loop over twelve chunks of 1024
  columns accumulating each row's sum of squared hinges and its masked sum) followed by host lines that turn the row
  sums into the loss, against a reference that forms all 12288 x 12288 pairs at once.

  Frames: the region's run over the grid with the loop passed by its invariant, then the host lines that follow, leave the
  six argument arrays as launched (at the word-level values and at the ideal values alike); the reference is host lines
  only. Value: at the ideal values each output row of the region is the row's sum over all columns (the twelve chunk sums
  added up), the host lines make of them the rows-first loss, and for real predictions the rows-first loss and the
  all-pairs loss are one extended real — division by a zero denominator included, since both sides then carry the same
  infinity. The second term is the same expression of the two prediction columns in both programs.
-/
import proofs.«141416_j52587579572535_2_alg».proof.Defs
import proofs.«141416_j52587579572535_2_alg».proof.Proof.Gen.Kernel
import proofs.«141416_j52587579572535_2_alg».proof.Proof.Gen.KernelIdeal
import proofs.«141416_j52587579572535_2_alg».proof.Proof.Gen.ReferenceIdeal
import proofs.«141416_j52587579572535_2_alg».proof.Proof.Gen.Pre_finite_inputs
import proofs.«141416_j52587579572535_2_alg».proof.Proof.Gen.ReferenceIdeal.Run
import proofs.«141416_j52587579572535_2_alg».proof.Proof.Gen.ReferenceIdeal.Read
import proofs.«141416_j52587579572535_2_alg».proof.Proof.KBFrame
import proofs.«141416_j52587579572535_2_alg».proof.Proof.Asm3
import Idealize.ShloMosaic.Adequacy
import Idealize.ShloMosaic.Init

noncomputable section

namespace Cert.Proof

open Idealize.ShloMosaic Idealize.SL.Sem

/-- The word-level program terminates without a fault and keeps its arguments. -/
theorem frame_k : Cert.frame_Kernel := fun m ρ _ => Cert.Kernel.Fr.frame (F := Bits) m ρ

/-- So does the idealized program. -/
theorem frame_ki : Cert.frame_KernelIdeal := fun m ρ _ => Cert.KernelIdeal.Fr.frame (F := Ideal) m ρ

/-- The reference is host lines only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the six arguments, both idealized programs end with the same result. -/
theorem algebraic : Cert.algebraic_KernelIdeal_ReferenceIdeal := by
  intro m ρ m' ρ' hpre hagree
  refine ⟨fun c => Pipeline.afterTail₀ Cert.KernelIdeal.cfgs (Cert.KernelIdeal.Fr.dats m) 0 (Cert.KernelIdeal.Fr.V0 m) Cert.KernelIdeal.Fr.tail c Cert.KernelIdeal.main_v79,
    Cert.KernelIdeal.Fr.run_post m ρ, ?_⟩
  refine (θ_run Cert.ReferenceIdeal.defs _ _).mono (fun _ h c => ⟨(h c).1.trans ?_, (h c).2⟩)
    (Cert.ReferenceIdeal.Value.run (F := Ideal) m' ρ')
  exact Cert.Proof.Alg.values_eq m m' c (hpre c) (hagree c).1 (hagree c).2.1 (hagree c).2.2.1 (hagree c).2.2.2.1 (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
